-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v310)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v310) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v385) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x800000 : Shape := ⟨2, ![3, 800000]⟩
abbrev S3x3x128x128 : Shape := ⟨4, ![3, 3, 128, 128]⟩
abbrev S3x3x128 : Shape := ⟨3, ![3, 3, 128]⟩
abbrev S2x128x128 : Shape := ⟨3, ![2, 128, 128]⟩
abbrev S2x128 : Shape := ⟨2, ![2, 128]⟩
abbrev S128x512 : Shape := ⟨2, ![128, 512]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg12 : FVec F S2x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_cst_20 : FVec F S_ .f32 := constant S_ .f32 0x00000000#32
  let main_v54 : FVec F S2x128 .f32 := broadcastInDim S2x128 ![] bcast_S_S2x128 main_cst_20
  let main_v55 : IVec S2x128 1 := cmpf .oge main_arg12 main_v54
  let main_c_21 : IVec S_ 1 := constantI S_ 1 1#1
  let main_v56 : IVec S_ 1 := (fun x v => Host.reduce IntOp.andi x v reducesTo_S2x128_S_d0_1 h_S_) main_v55 main_c_21
  let main_v57 : IVec S_ 1 := andi main_v53 main_v56
  main_v57

def fn_part2 {F : FTy → Type} [FloatOps F] (main_arg9 : FVec F S2x128 .f32) (main_arg10 : FVec F S2x128 .f32) (main_arg11 : FVec F S2x128 .f32) (main_arg12 : FVec F S2x128 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg12 main_v48 main_v49 main_v50

def fn_part1 {F : FTy → Type} [FloatOps F] (main_arg6 : FVec F S2x128 .f32) (main_arg7 : FVec F S128x512 .f32) (main_arg8 : FVec F S512 .f32) (main_arg9 : FVec F S2x128 .f32) (main_arg10 : FVec F S2x128 .f32) (main_arg11 : FVec F S2x128 .f32) (main_arg12 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x512 .f32 := Host.absf main_arg7
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S3x800000 32) (main_arg2 : IVec S3x800000 32) (main_arg3 : FVec F S3x3x128x128 .f32) (main_arg4 : FVec F S3x3x128 .f32) (main_arg5 : FVec F S2x128x128 .f32) (main_arg6 : FVec F S2x128 .f32) (main_arg7 : FVec F S128x512 .f32) (main_arg8 : FVec F S512 .f32) (main_arg9 : FVec F S2x128 .f32) (main_arg10 : FVec F S2x128 .f32) (main_arg11 : FVec F S2x128 .f32) (main_arg12 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x3x128x128 .f32 := Host.absf main_arg3
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  let main_v9 : FVec F S3x3x128 .f32 := Host.absf main_arg4
  let main_cst_2 : FVec F S_ .f32 := constant S_ .f32 0x7F800000#32
  let main_v10 : FVec F S3x3x128 .f32 := broadcastInDim S3x3x128 ![] bcast_S_S3x3x128 main_cst_2
  let main_v11 : IVec S3x3x128 1 := cmpf .olt main_v9 main_v10
  let main_c_3 : IVec S_ 1 := constantI S_ 1 1#1
  let main_v12 : IVec S_ 1 := (fun x v => Host.reduce IntOp.andi x v reducesTo_S3x3x128_S_d0_1_2 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S3x800000 : Shape := ⟨2, ![3, 800000]⟩
abbrev S3x3x128x128 : Shape := ⟨4, ![3, 3, 128, 128]⟩
abbrev S3x3x128 : Shape := ⟨3, ![3, 3, 128]⟩
abbrev S2x128x128 : Shape := ⟨3, ![2, 128, 128]⟩
abbrev S2x128 : Shape := ⟨2, ![2, 128]⟩
abbrev S128x512 : Shape := ⟨2, ![128, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x1x128 : Shape := ⟨3, ![1, 1, 128]⟩
abbrev S128 : Shape := ⟨1, ![128]⟩
abbrev S1x128 : Shape := ⟨2, ![1, 128]⟩
abbrev S1x1x128x128 : Shape := ⟨4, ![1, 1, 128, 128]⟩
abbrev S128x128 : Shape := ⟨2, ![128, 128]⟩
abbrev S1x128x128 : Shape := ⟨3, ![1, 128, 128]⟩
abbrev S2000x128 : Shape := ⟨2, ![2000, 128]⟩
abbrev S2000x1 : Shape := ⟨2, ![2000, 1]⟩
abbrev S1x512 : Shape := ⟨2, ![1, 512]⟩
abbrev S50000x512 : Shape := ⟨2, ![50000, 512]⟩
abbrev S2000x512 : Shape := ⟨2, ![2000, 512]⟩

abbrev nBuf : Space → Nat
  | .hbm => 369
  | .vmem => 74
  | .smem => 0
  | _ => 0

abbrev hbmTy0_0 (i : Nat) : BufTy := match i % 128 with
  | 0 => ⟨S50000x128, .f32⟩
  | 1 => ⟨S3x800000, .i32⟩
  | 2 => ⟨S3x800000, .i32⟩
  | 3 => ⟨S3x3x128x128, .f32⟩
  | 4 => ⟨S3x3x128, .f32⟩
  | 5 => ⟨S2x128x128, .f32⟩
  | 6 => ⟨S2x128, .f32⟩
  | 7 => ⟨S128x512, .f32⟩
  | 8 => ⟨S512, .f32⟩
  | 9 => ⟨S2x128, .f32⟩
  | 10 => ⟨S2x128, .f32⟩
  | 11 => ⟨S2x128, .f32⟩
  | 12 => ⟨S2x128, .f32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S1x800000, .i32⟩
  | 26 => ⟨S800000, .i32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000, .f32⟩
  | 37 => ⟨S1x800000, .i32⟩
  | 38 => ⟨S800000, .i32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000, .f32⟩
  | 49 => ⟨S1x800000, .i32⟩
  | 50 => ⟨S800000, .i32⟩
  | 51 => ⟨S_, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S50000, .f32⟩
  | 61 => ⟨S1x800000, .i32⟩
  | 62 => ⟨S800000, .i32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S1x800000, .i32⟩
  | 74 => ⟨S800000, .i32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S50000x1, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S50000x128, .bf16⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .bf16⟩
  | 103 => ⟨S800000x128, .f32⟩
  | 104 => ⟨S1x800000, .i32⟩
  | 105 => ⟨S800000, .i32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S50000x128, .bf16⟩
  | 114 => ⟨S1x800000, .i32⟩
  | 115 => ⟨S800000, .i32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .bf16⟩
  | 125 => ⟨S800000x128, .f32⟩
  | 126 => ⟨S1x800000, .i32⟩
  | 127 => ⟨S800000, .i32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S50000x1, .f32⟩
  | 5 => ⟨S50000x128, .f32⟩
  | 6 => ⟨S50000x128, .f32⟩
  | 7 => ⟨S50000x128, .bf16⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .bf16⟩
  | 19 => ⟨S800000x128, .f32⟩
  | 20 => ⟨S1x800000, .i32⟩
  | 21 => ⟨S800000, .i32⟩
  | 22 => ⟨S_, .f32⟩
  | 23 => ⟨S50000x128, .f32⟩
  | 24 => ⟨S800000x1, .i32⟩
  | 25 => ⟨S50000x128, .f32⟩
  | 26 => ⟨S1x1x128, .f32⟩
  | 27 => ⟨S128, .f32⟩
  | 28 => ⟨S1x128, .f32⟩
  | 29 => ⟨S1x1x128, .f32⟩
  | 30 => ⟨S128, .f32⟩
  | 31 => ⟨S1x128, .f32⟩
  | 32 => ⟨S1x1x128, .f32⟩
  | 33 => ⟨S128, .f32⟩
  | 34 => ⟨S1x128, .f32⟩
  | 35 => ⟨S1x1x128x128, .f32⟩
  | 36 => ⟨S128x128, .f32⟩
  | 37 => ⟨S1x1x128x128, .f32⟩
  | 38 => ⟨S128x128, .f32⟩
  | 39 => ⟨S1x1x128x128, .f32⟩
  | 40 => ⟨S128x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S50000x128, .f32⟩
  | 59 => ⟨S50000x1, .f32⟩
  | 60 => ⟨S50000x128, .f32⟩
  | 61 => ⟨S50000x128, .f32⟩
  | 62 => ⟨S50000x128, .bf16⟩
  | 63 => ⟨S1x800000, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .bf16⟩
  | 74 => ⟨S800000x128, .f32⟩
  | 75 => ⟨S1x800000, .i32⟩
  | 76 => ⟨S800000, .i32⟩
  | 77 => ⟨S_, .f32⟩
  | 78 => ⟨S50000x128, .f32⟩
  | 79 => ⟨S800000x1, .i32⟩
  | 80 => ⟨S50000x128, .f32⟩
  | 81 => ⟨S50000x1, .f32⟩
  | 82 => ⟨S50000x128, .f32⟩
  | 83 => ⟨S50000x128, .f32⟩
  | 84 => ⟨S50000x128, .bf16⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .bf16⟩
  | 96 => ⟨S800000x128, .f32⟩
  | 97 => ⟨S1x800000, .i32⟩
  | 98 => ⟨S800000, .i32⟩
  | 99 => ⟨S_, .f32⟩
  | 100 => ⟨S50000x128, .f32⟩
  | 101 => ⟨S800000x1, .i32⟩
  | 102 => ⟨S50000x128, .f32⟩
  | 103 => ⟨S50000x1, .f32⟩
  | 104 => ⟨S50000x128, .f32⟩
  | 105 => ⟨S50000x128, .f32⟩
  | 106 => ⟨S50000x128, .bf16⟩
  | 107 => ⟨S1x800000, .i32⟩
  | 108 => ⟨S800000, .i32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S800000x128, .f32⟩
  | 119 => ⟨S1x800000, .i32⟩
  | 120 => ⟨S800000, .i32⟩
  | 121 => ⟨S_, .f32⟩
  | 122 => ⟨S50000x128, .f32⟩
  | 123 => ⟨S800000x1, .i32⟩
  | 124 => ⟨S50000x128, .f32⟩
  | 125 => ⟨S1x1x128, .f32⟩
  | 126 => ⟨S128, .f32⟩
  | 127 => ⟨S1x128, .f32⟩
  | _ => ⟨S50000x128, .f32⟩

abbrev hbmTy0_2 (i : Nat) : BufTy := match i % 128 with
  | 0 => ⟨S1x1x128, .f32⟩
  | 1 => ⟨S128, .f32⟩
  | 2 => ⟨S1x128, .f32⟩
  | 3 => ⟨S1x1x128, .f32⟩
  | 4 => ⟨S128, .f32⟩
  | 5 => ⟨S1x128, .f32⟩
  | 6 => ⟨S1x1x128x128, .f32⟩
  | 7 => ⟨S128x128, .f32⟩
  | 8 => ⟨S1x1x128x128, .f32⟩
  | 9 => ⟨S128x128, .f32⟩
  | 10 => ⟨S1x1x128x128, .f32⟩
  | 11 => ⟨S128x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S128, .f32⟩
  | 25 => ⟨S1x128, .f32⟩
  | 26 => ⟨S1x128, .f32⟩
  | 27 => ⟨S128, .f32⟩
  | 28 => ⟨S1x128, .f32⟩
  | 29 => ⟨S50000x128, .f32⟩
  | 30 => ⟨S50000x1, .f32⟩
  | 31 => ⟨S50000x128, .f32⟩
  | 32 => ⟨S50000x128, .f32⟩
  | 33 => ⟨S50000x128, .bf16⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .bf16⟩
  | 45 => ⟨S800000x128, .f32⟩
  | 46 => ⟨S1x800000, .i32⟩
  | 47 => ⟨S800000, .i32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S50000x128, .bf16⟩
  | 56 => ⟨S1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .bf16⟩
  | 67 => ⟨S800000x128, .f32⟩
  | 68 => ⟨S1x800000, .i32⟩
  | 69 => ⟨S800000, .i32⟩
  | 70 => ⟨S_, .f32⟩
  | 71 => ⟨S50000x128, .f32⟩
  | 72 => ⟨S800000x1, .i32⟩
  | 73 => ⟨S50000x128, .f32⟩
  | 74 => ⟨S50000x1, .f32⟩
  | 75 => ⟨S50000x128, .f32⟩
  | 76 => ⟨S50000x128, .f32⟩
  | 77 => ⟨S50000x128, .bf16⟩
  | 78 => ⟨S1x800000, .i32⟩
  | 79 => ⟨S800000, .i32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .bf16⟩
  | 89 => ⟨S800000x128, .f32⟩
  | 90 => ⟨S1x800000, .i32⟩
  | 91 => ⟨S800000, .i32⟩
  | 92 => ⟨S_, .f32⟩
  | 93 => ⟨S50000x128, .f32⟩
  | 94 => ⟨S800000x1, .i32⟩
  | 95 => ⟨S50000x128, .f32⟩
  | 96 => ⟨S1x1x128, .f32⟩
  | 97 => ⟨S128, .f32⟩
  | 98 => ⟨S1x128, .f32⟩
  | 99 => ⟨S1x1x128, .f32⟩
  | 100 => ⟨S128, .f32⟩
  | 101 => ⟨S1x128, .f32⟩
  | 102 => ⟨S1x1x128, .f32⟩
  | 103 => ⟨S128, .f32⟩
  | 104 => ⟨S1x128, .f32⟩
  | 105 => ⟨S1x1x128x128, .f32⟩
  | 106 => ⟨S128x128, .f32⟩
  | 107 => ⟨S1x1x128x128, .f32⟩
  | 108 => ⟨S128x128, .f32⟩
  | 109 => ⟨S1x1x128x128, .f32⟩
  | 110 => ⟨S128x128, .f32⟩
  | 111 => ⟨S1x512, .f32⟩
  | 112 => ⟨S50000x512, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S2000x1, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S128x128, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x1, .f32⟩
  | .local _ .vmem, ⟨59, _⟩ => ⟨S2000x1, .f32⟩
  | .local _ .vmem, ⟨60, _⟩ => ⟨S2000x1, .f32⟩
  | .local _ .vmem, ⟨61, _⟩ => ⟨S2000x1, .f32⟩
  | .local _ .vmem, ⟨62, _⟩ => ⟨S2000x1, .f32⟩
  | .local _ .vmem, ⟨63, _⟩ => ⟨S2000x1, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S128x128, .f32⟩
  | .local _ .vmem, ⟨68, _⟩ => ⟨S128x128, .f32⟩
  | .local _ .vmem, ⟨69, _⟩ => ⟨S128x128, .f32⟩
  | .local _ .vmem, ⟨70, _⟩ => ⟨S128x512, .f32⟩
  | .local _ .vmem, ⟨71, _⟩ => ⟨S1x512, .f32⟩
  | .local _ .vmem, ⟨72, _⟩ => ⟨S2000x512, .f32⟩
  | .local _ .vmem, ⟨73, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_cst_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_22 : Ref sig .tc := ⟨.hbm, 138, rfl⟩
abbrev main_v101 : Ref sig .tc := ⟨.hbm, 139, rfl⟩
abbrev main_v102 : Ref sig .tc := ⟨.hbm, 140, rfl⟩
abbrev main_c_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_25 : Ref sig .tc := ⟨.hbm, 193, rfl⟩
abbrev main_v153 : Ref sig .tc := ⟨.hbm, 194, rfl⟩
abbrev main_v154 : Ref sig .tc := ⟨.hbm, 195, rfl⟩
abbrev main_c_26 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_27 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_c_28 : Ref sig .tc := ⟨.hbm, 215, rfl⟩
abbrev main_v172 : Ref sig .tc := ⟨.hbm, 216, rfl⟩
abbrev main_v173 : Ref sig .tc := ⟨.hbm, 217, rfl⟩
abbrev main_c_29 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_30 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_c_31 : Ref sig .tc := ⟨.hbm, 237, rfl⟩
abbrev main_v191 : Ref sig .tc := ⟨.hbm, 238, rfl⟩
abbrev main_v192 : Ref sig .tc := ⟨.hbm, 239, rfl⟩
abbrev main_c_32 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_33 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_c_34 : Ref sig .tc := ⟨.hbm, 292, rfl⟩
abbrev main_v243 : Ref sig .tc := ⟨.hbm, 293, rfl⟩
abbrev main_v244 : Ref sig .tc := ⟨.hbm, 294, rfl⟩
abbrev main_c_35 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_cst_36 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_c_37 : Ref sig .tc := ⟨.hbm, 314, rfl⟩
abbrev main_v262 : Ref sig .tc := ⟨.hbm, 315, rfl⟩
abbrev main_v263 : Ref sig .tc := ⟨.hbm, 316, rfl⟩
abbrev main_c_38 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_cst_39 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_c_40 : Ref sig .tc := ⟨.hbm, 336, rfl⟩
abbrev main_v281 : Ref sig .tc := ⟨.hbm, 337, rfl⟩
abbrev main_v282 : Ref sig .tc := ⟨.hbm, 338, rfl⟩
abbrev main_c_41 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_cst_42 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg11_0 : Ref sig .tc := ⟨.vmem, 43, rfl⟩
abbrev cc1_stg12_0 : Ref sig .tc := ⟨.vmem, 44, rfl⟩
abbrev cc1_stg13_0 : Ref sig .tc := ⟨.vmem, 45, rfl⟩
abbrev cc1_stg14_0 : Ref sig .tc := ⟨.vmem, 46, rfl⟩
abbrev cc1_stg15_0 : Ref sig .tc := ⟨.vmem, 47, rfl⟩
abbrev cc1_stg16_0 : Ref sig .tc := ⟨.vmem, 48, rfl⟩
abbrev cc1_stg17_0 : Ref sig .tc := ⟨.vmem, 49, rfl⟩
abbrev cc1_stg18_0 : Ref sig .tc := ⟨.vmem, 50, rfl⟩
abbrev cc1_stg18_1 : Ref sig .tc := ⟨.vmem, 51, rfl⟩
abbrev cc2_stg0_0 : Ref sig .tc := ⟨.vmem, 52, rfl⟩
abbrev cc2_stg0_1 : Ref sig .tc := ⟨.vmem, 53, rfl⟩
abbrev cc2_stg1_0 : Ref sig .tc := ⟨.vmem, 54, rfl⟩
abbrev cc2_stg1_1 : Ref sig .tc := ⟨.vmem, 55, rfl⟩
abbrev cc2_stg2_0 : Ref sig .tc := ⟨.vmem, 56, rfl⟩
abbrev cc2_stg2_1 : Ref sig .tc := ⟨.vmem, 57, rfl⟩
abbrev cc2_stg3_0 : Ref sig .tc := ⟨.vmem, 58, rfl⟩
abbrev cc2_stg3_1 : Ref sig .tc := ⟨.vmem, 59, rfl⟩
abbrev cc2_stg4_0 : Ref sig .tc := ⟨.vmem, 60, rfl⟩
abbrev cc2_stg4_1 : Ref sig .tc := ⟨.vmem, 61, rfl⟩
abbrev cc2_stg5_0 : Ref sig .tc := ⟨.vmem, 62, rfl⟩
abbrev cc2_stg5_1 : Ref sig .tc := ⟨.vmem, 63, rfl⟩
abbrev cc2_stg6_0 : Ref sig .tc := ⟨.vmem, 64, rfl⟩
abbrev cc2_stg7_0 : Ref sig .tc := ⟨.vmem, 65, rfl⟩
abbrev cc2_stg8_0 : Ref sig .tc := ⟨.vmem, 66, rfl⟩
abbrev cc2_stg9_0 : Ref sig .tc := ⟨.vmem, 67, rfl⟩
abbrev cc2_stg10_0 : Ref sig .tc := ⟨.vmem, 68, rfl⟩
abbrev cc2_stg11_0 : Ref sig .tc := ⟨.vmem, 69, rfl⟩
abbrev cc2_stg12_0 : Ref sig .tc := ⟨.vmem, 70, rfl⟩
abbrev cc2_stg13_0 : Ref sig .tc := ⟨.vmem, 71, rfl⟩
abbrev cc2_stg14_0 : Ref sig .tc := ⟨.vmem, 72, rfl⟩
abbrev cc2_stg14_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem7_0 : DmaSem sig := 39
abbrev cc1_sem8_0 : DmaSem sig := 40
abbrev cc1_sem9_0 : DmaSem sig := 41
abbrev cc1_sem10_0 : DmaSem sig := 42
abbrev cc1_sem11_0 : DmaSem sig := 43
abbrev cc1_sem12_0 : DmaSem sig := 44
abbrev cc1_sem13_0 : DmaSem sig := 45
abbrev cc1_sem14_0 : DmaSem sig := 46
abbrev cc1_sem15_0 : DmaSem sig := 47
abbrev cc1_sem16_0 : DmaSem sig := 48
abbrev cc1_sem17_0 : DmaSem sig := 49
abbrev cc1_sem18_0 : DmaSem sig := 50
abbrev cc1_sem18_1 : DmaSem sig := 51
abbrev cc2_sem0_0 : DmaSem sig := 52
abbrev cc2_sem0_1 : DmaSem sig := 53
abbrev cc2_sem1_0 : DmaSem sig := 54
abbrev cc2_sem1_1 : DmaSem sig := 55
abbrev cc2_sem2_0 : DmaSem sig := 56
abbrev cc2_sem2_1 : DmaSem sig := 57
abbrev cc2_sem3_0 : DmaSem sig := 58
abbrev cc2_sem3_1 : DmaSem sig := 59
abbrev cc2_sem4_0 : DmaSem sig := 60
abbrev cc2_sem4_1 : DmaSem sig := 61
abbrev cc2_sem5_0 : DmaSem sig := 62
abbrev cc2_sem5_1 : DmaSem sig := 63
abbrev cc2_sem6_0 : DmaSem sig := 64
abbrev cc2_sem7_0 : DmaSem sig := 65
abbrev cc2_sem8_0 : DmaSem sig := 66
abbrev cc2_sem9_0 : DmaSem sig := 67
abbrev cc2_sem10_0 : DmaSem sig := 68
abbrev cc2_sem11_0 : DmaSem sig := 69
abbrev cc2_sem12_0 : DmaSem sig := 70
abbrev cc2_sem13_0 : DmaSem sig := 71
abbrev cc2_sem14_0 : DmaSem sig := 72
abbrev cc2_sem14_1 : DmaSem sig := 73

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2000x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  slices_S3x800000_S1x800000_0_0 : S3x800000.Slices ![0, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x800000_S1x800000_1_0 : S3x800000.Slices ![1, 0] S1x800000
  slices_S3x800000_S1x800000_2_0 : S3x800000.Slices ![2, 0] S1x800000
  shapeCasts_S50000_S50000x1 : S50000.ShapeCasts S50000x1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  slices_S3x3x128_S1x1x128_0_0_0 : S3x3x128.Slices ![0, 0, 0] S1x1x128
  shapeCasts_S1x1x128_S128 : S1x1x128.ShapeCasts S128
  shapeCasts_S128_S1x128 : S128.ShapeCasts S1x128
  slices_S3x3x128_S1x1x128_0_1_0 : S3x3x128.Slices ![0, 1, 0] S1x1x128
  slices_S3x3x128_S1x1x128_0_2_0 : S3x3x128.Slices ![0, 2, 0] S1x1x128
  slices_S3x3x128x128_S1x1x128x128_0_0_0_0 : S3x3x128x128.Slices ![0, 0, 0, 0] S1x1x128x128
  shapeCasts_S1x1x128x128_S128x128 : S1x1x128x128.ShapeCasts S128x128
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x3x128_S1x1x128_1_0_0 : S3x3x128.Slices ![1, 0, 0] S1x1x128
  slices_S3x3x128_S1x1x128_1_1_0 : S3x3x128.Slices ![1, 1, 0] S1x1x128
  slices_S3x3x128_S1x1x128_1_2_0 : S3x3x128.Slices ![1, 2, 0] S1x1x128
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S2x128x128_S1x128x128_1_0_0 : S2x128x128.Slices ![1, 0, 0] S1x128x128
  slices_S2x128_S1x128_1_0 : S2x128.Slices ![1, 0] S1x128
  slices_S3x3x128_S1x1x128_2_0_0 : S3x3x128.Slices ![2, 0, 0] S1x1x128
  slices_S3x3x128_S1x1x128_2_1_0 : S3x3x128.Slices ![2, 1, 0] S1x1x128
  slices_S3x3x128_S1x1x128_2_2_0 : S3x3x128.Slices ![2, 2, 0] S1x1x128
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  shapeCasts_S512_S1x512 : S512.ShapeCasts S1x512
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x128.size a ≤ S50000x128.size a
  hwx0_18 : ∀ i : grid0.Coords, EltTy.bits .f32 = 32 ∨ (Rect.block (s := S50000x128) S2000x128.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x128.size a ≤ S1x128.size a
  hwx1_17 : ∀ i : grid1.Coords, EltTy.bits .f32 = 32 ∨ (Rect.block (s := S1x128) S1x128.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2000x128.size a ≤ S50000x128.size a
  hwx1_18 : ∀ i : grid1.Coords, EltTy.bits .f32 = 32 ∨ (Rect.block (s := S50000x128) S2000x128.size (cc1_transform_18 i) (hinb1_18 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x512.size a ≤ S128x512.size a
  hwx2_12 : ∀ i : grid2.Coords, EltTy.bits .f32 = 32 ∨ (Rect.block (s := S128x512) S128x512.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x512.size a ≤ S1x512.size a
  hwx2_13 : ∀ i : grid2.Coords, EltTy.bits .f32 = 32 ∨ (Rect.block (s := S1x512) S1x512.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x512.size a ≤ S50000x512.size a
  hwx2_14 : ∀ i : grid2.Coords, EltTy.bits .f32 = 32 ∨ (Rect.block (s := S50000x512) S2000x512.size (cc2_transform_14 i) (hinb2_14 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v75) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v113) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v116) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v119) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v122) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v124) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v126) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v128) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v130) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v133) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v136) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v139) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v142) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v145) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v146) S2000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v165) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v184) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v203) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v206) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v209) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v212) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v214) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v216) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v218) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v220) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v223) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v226) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v229) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v232) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v235) S1x128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v236) S2000x128.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev win2_0 : Pipeline.Window sig grid2 :=
  Pipeline.Window.ofSpec (Memref.whole main_v255) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v274) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v293) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v296) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v299) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v302) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v304) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v306) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v308) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg7) S128x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v309) S1x512.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v310) S2000x512.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S50000x128 : Shape := ⟨2, ![50000, 128]⟩
abbrev S3x800000 : Shape := ⟨2, ![3, 800000]⟩
abbrev S3x3x128x128 : Shape := ⟨4, ![3, 3, 128, 128]⟩
abbrev S3x3x128 : Shape := ⟨3, ![3, 3, 128]⟩
abbrev S2x128x128 : Shape := ⟨3, ![2, 128, 128]⟩
abbrev S2x128 : Shape := ⟨2, ![2, 128]⟩
abbrev S128x512 : Shape := ⟨2, ![128, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1x128x128 : Shape := ⟨4, ![1, 1, 128, 128]⟩
abbrev S128x128 : Shape := ⟨2, ![128, 128]⟩
abbrev S800000x128 : Shape := ⟨2, ![800000, 128]⟩
abbrev S1x1x128 : Shape := ⟨3, ![1, 1, 128]⟩
abbrev S128 : Shape := ⟨1, ![128]⟩
abbrev S1x128 : Shape := ⟨2, ![1, 128]⟩
abbrev S1x128x128 : Shape := ⟨3, ![1, 128, 128]⟩
abbrev S50000x512 : Shape := ⟨2, ![50000, 512]⟩
abbrev S1x512 : Shape := ⟨2, ![1, 512]⟩

abbrev nBuf : Space → Nat
  | .hbm => 453
  | .vmem => 0
  | .smem => 0
  | _ => 0

abbrev hbmTy0_0 (i : Nat) : BufTy := match i % 128 with
  | 0 => ⟨S50000x128, .f32⟩
  | 1 => ⟨S3x800000, .i32⟩
  | 2 => ⟨S3x800000, .i32⟩
  | 3 => ⟨S3x3x128x128, .f32⟩
  | 4 => ⟨S3x3x128, .f32⟩
  | 5 => ⟨S2x128x128, .f32⟩
  | 6 => ⟨S2x128, .f32⟩
  | 7 => ⟨S128x512, .f32⟩
  | 8 => ⟨S512, .f32⟩
  | 9 => ⟨S2x128, .f32⟩
  | 10 => ⟨S2x128, .f32⟩
  | 11 => ⟨S2x128, .f32⟩
  | 12 => ⟨S2x128, .f32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S1x800000, .i32⟩
  | 26 => ⟨S800000, .i32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000, .f32⟩
  | 37 => ⟨S1x800000, .i32⟩
  | 38 => ⟨S800000, .i32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000, .f32⟩
  | 49 => ⟨S1x800000, .i32⟩
  | 50 => ⟨S800000, .i32⟩
  | 51 => ⟨S_, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S50000, .f32⟩
  | 61 => ⟨S1x800000, .i32⟩
  | 62 => ⟨S800000, .i32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S1x800000, .i32⟩
  | 74 => ⟨S800000, .i32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .f32⟩
  | 86 => ⟨S50000x128, .f32⟩
  | 87 => ⟨S50000x1, .f32⟩
  | 88 => ⟨S50000x128, .f32⟩
  | 89 => ⟨S50000x128, .f32⟩
  | 90 => ⟨S1x1x128x128, .f32⟩
  | 91 => ⟨S128x128, .f32⟩
  | 92 => ⟨S50000x128, .f32⟩
  | 93 => ⟨S1x800000, .i32⟩
  | 94 => ⟨S800000, .i32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S1x800000, .i32⟩
  | 105 => ⟨S800000, .i32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S50000x128, .f32⟩
  | 114 => ⟨S1x1x128, .f32⟩
  | 115 => ⟨S128, .f32⟩
  | 116 => ⟨S1x128, .f32⟩
  | 117 => ⟨S50000x128, .f32⟩
  | 118 => ⟨S50000x128, .f32⟩
  | 119 => ⟨S50000x1, .f32⟩
  | 120 => ⟨S50000x128, .f32⟩
  | 121 => ⟨S50000x128, .f32⟩
  | 122 => ⟨S1x1x128x128, .f32⟩
  | 123 => ⟨S128x128, .f32⟩
  | 124 => ⟨S50000x128, .f32⟩
  | 125 => ⟨S1x800000, .i32⟩
  | 126 => ⟨S800000, .i32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S1x800000, .i32⟩
  | 9 => ⟨S800000, .i32⟩
  | 10 => ⟨S_, .f32⟩
  | 11 => ⟨S50000x128, .f32⟩
  | 12 => ⟨S800000x1, .i32⟩
  | 13 => ⟨S50000x128, .f32⟩
  | 14 => ⟨S50000x1, .f32⟩
  | 15 => ⟨S50000x128, .f32⟩
  | 16 => ⟨S50000x128, .f32⟩
  | 17 => ⟨S50000x128, .f32⟩
  | 18 => ⟨S1x1x128, .f32⟩
  | 19 => ⟨S128, .f32⟩
  | 20 => ⟨S1x128, .f32⟩
  | 21 => ⟨S50000x128, .f32⟩
  | 22 => ⟨S50000x128, .f32⟩
  | 23 => ⟨S50000x1, .f32⟩
  | 24 => ⟨S50000x128, .f32⟩
  | 25 => ⟨S50000x128, .f32⟩
  | 26 => ⟨S1x1x128x128, .f32⟩
  | 27 => ⟨S128x128, .f32⟩
  | 28 => ⟨S50000x128, .f32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S1x800000, .i32⟩
  | 41 => ⟨S800000, .i32⟩
  | 42 => ⟨S_, .f32⟩
  | 43 => ⟨S50000x128, .f32⟩
  | 44 => ⟨S800000x1, .i32⟩
  | 45 => ⟨S50000x128, .f32⟩
  | 46 => ⟨S50000x1, .f32⟩
  | 47 => ⟨S50000x128, .f32⟩
  | 48 => ⟨S50000x128, .f32⟩
  | 49 => ⟨S50000x128, .f32⟩
  | 50 => ⟨S1x1x128, .f32⟩
  | 51 => ⟨S128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x1, .f32⟩
  | 93 => ⟨S50000x128, .f32⟩
  | 94 => ⟨S50000x128, .f32⟩
  | 95 => ⟨S1x1x128x128, .f32⟩
  | 96 => ⟨S128x128, .f32⟩
  | 97 => ⟨S50000x128, .f32⟩
  | 98 => ⟨S1x800000, .i32⟩
  | 99 => ⟨S800000, .i32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S1x800000, .i32⟩
  | 110 => ⟨S800000, .i32⟩
  | 111 => ⟨S_, .f32⟩
  | 112 => ⟨S50000x128, .f32⟩
  | 113 => ⟨S800000x1, .i32⟩
  | 114 => ⟨S50000x128, .f32⟩
  | 115 => ⟨S50000x1, .f32⟩
  | 116 => ⟨S50000x128, .f32⟩
  | 117 => ⟨S50000x128, .f32⟩
  | 118 => ⟨S50000x128, .f32⟩
  | 119 => ⟨S1x1x128, .f32⟩
  | 120 => ⟨S128, .f32⟩
  | 121 => ⟨S1x128, .f32⟩
  | 122 => ⟨S50000x128, .f32⟩
  | 123 => ⟨S50000x128, .f32⟩
  | 124 => ⟨S50000x1, .f32⟩
  | 125 => ⟨S50000x128, .f32⟩
  | 126 => ⟨S50000x128, .f32⟩
  | 127 => ⟨S1x1x128x128, .f32⟩
  | _ => ⟨S50000x128, .f32⟩

abbrev hbmTy0_2 (i : Nat) : BufTy := match i % 128 with
  | 0 => ⟨S128x128, .f32⟩
  | 1 => ⟨S50000x128, .f32⟩
  | 2 => ⟨S1x800000, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S1x800000, .i32⟩
  | 14 => ⟨S800000, .i32⟩
  | 15 => ⟨S_, .f32⟩
  | 16 => ⟨S50000x128, .f32⟩
  | 17 => ⟨S800000x1, .i32⟩
  | 18 => ⟨S50000x128, .f32⟩
  | 19 => ⟨S50000x1, .f32⟩
  | 20 => ⟨S50000x128, .f32⟩
  | 21 => ⟨S50000x128, .f32⟩
  | 22 => ⟨S50000x128, .f32⟩
  | 23 => ⟨S1x1x128, .f32⟩
  | 24 => ⟨S128, .f32⟩
  | 25 => ⟨S1x128, .f32⟩
  | 26 => ⟨S50000x128, .f32⟩
  | 27 => ⟨S50000x128, .f32⟩
  | 28 => ⟨S50000x1, .f32⟩
  | 29 => ⟨S50000x128, .f32⟩
  | 30 => ⟨S50000x128, .f32⟩
  | 31 => ⟨S1x1x128x128, .f32⟩
  | 32 => ⟨S128x128, .f32⟩
  | 33 => ⟨S50000x128, .f32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S1x800000, .i32⟩
  | 46 => ⟨S800000, .i32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S50000x128, .f32⟩
  | 55 => ⟨S1x1x128, .f32⟩
  | 56 => ⟨S128, .f32⟩
  | 57 => ⟨S1x128, .f32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x1, .f32⟩
  | 98 => ⟨S50000x128, .f32⟩
  | 99 => ⟨S50000x128, .f32⟩
  | 100 => ⟨S1x1x128x128, .f32⟩
  | 101 => ⟨S128x128, .f32⟩
  | 102 => ⟨S50000x128, .f32⟩
  | 103 => ⟨S1x800000, .i32⟩
  | 104 => ⟨S800000, .i32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S1x800000, .i32⟩
  | 115 => ⟨S800000, .i32⟩
  | 116 => ⟨S_, .f32⟩
  | 117 => ⟨S50000x128, .f32⟩
  | 118 => ⟨S800000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S1x1x128, .f32⟩
  | 125 => ⟨S128, .f32⟩
  | 126 => ⟨S1x128, .f32⟩
  | 127 => ⟨S50000x128, .f32⟩
  | _ => ⟨S50000x128, .f32⟩

abbrev hbmTy0_3 (i : Nat) : BufTy := match i % 128 with
  | 0 => ⟨S50000x128, .f32⟩
  | 1 => ⟨S50000x1, .f32⟩
  | 2 => ⟨S50000x128, .f32⟩
  | 3 => ⟨S50000x128, .f32⟩
  | 4 => ⟨S1x1x128x128, .f32⟩
  | 5 => ⟨S128x128, .f32⟩
  | 6 => ⟨S50000x128, .f32⟩
  | 7 => ⟨S1x800000, .i32⟩
  | 8 => ⟨S800000, .i32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S1x800000, .i32⟩
  | 19 => ⟨S800000, .i32⟩
  | 20 => ⟨S_, .f32⟩
  | 21 => ⟨S50000x128, .f32⟩
  | 22 => ⟨S800000x1, .i32⟩
  | 23 => ⟨S50000x128, .f32⟩
  | 24 => ⟨S50000x1, .f32⟩
  | 25 => ⟨S50000x128, .f32⟩
  | 26 => ⟨S50000x128, .f32⟩
  | 27 => ⟨S50000x128, .f32⟩
  | 28 => ⟨S1x1x128, .f32⟩
  | 29 => ⟨S128, .f32⟩
  | 30 => ⟨S1x128, .f32⟩
  | 31 => ⟨S50000x128, .f32⟩
  | 32 => ⟨S50000x128, .f32⟩
  | 33 => ⟨S50000x1, .f32⟩
  | 34 => ⟨S50000x128, .f32⟩
  | 35 => ⟨S50000x128, .f32⟩
  | 36 => ⟨S1x1x128x128, .f32⟩
  | 37 => ⟨S128x128, .f32⟩
  | 38 => ⟨S50000x128, .f32⟩
  | 39 => ⟨S1x800000, .i32⟩
  | 40 => ⟨S800000, .i32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S1x800000, .i32⟩
  | 51 => ⟨S800000, .i32⟩
  | 52 => ⟨S_, .f32⟩
  | 53 => ⟨S50000x128, .f32⟩
  | 54 => ⟨S800000x1, .i32⟩
  | 55 => ⟨S50000x128, .f32⟩
  | 56 => ⟨S50000x1, .f32⟩
  | 57 => ⟨S50000x128, .f32⟩
  | 58 => ⟨S50000x128, .f32⟩
  | 59 => ⟨S50000x128, .f32⟩
  | 60 => ⟨S1x1x128, .f32⟩
  | 61 => ⟨S128, .f32⟩
  | 62 => ⟨S1x128, .f32⟩
  | 63 => ⟨S50000x128, .f32⟩
  | 64 => ⟨S50000x128, .f32⟩
  | 65 => ⟨S50000x512, .f32⟩
  | 66 => ⟨S1x512, .f32⟩
  | 67 => ⟨S50000x512, .f32⟩
  | 68 => ⟨S50000x512, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_cst_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_20 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_23 : Ref sig .tc := ⟨.hbm, 159, rfl⟩
abbrev main_v121 : Ref sig .tc := ⟨.hbm, 160, rfl⟩
abbrev main_v122 : Ref sig .tc := ⟨.hbm, 161, rfl⟩
abbrev main_c_24 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_25 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_call0_cst : Ref sig .tc := ⟨.hbm, 191, rfl⟩
abbrev main_call0_v0 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_26 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_27 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_c_28 : Ref sig .tc := ⟨.hbm, 228, rfl⟩
abbrev main_v183 : Ref sig .tc := ⟨.hbm, 229, rfl⟩
abbrev main_v184 : Ref sig .tc := ⟨.hbm, 230, rfl⟩
abbrev main_c_29 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_30 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_c_31 : Ref sig .tc := ⟨.hbm, 260, rfl⟩
abbrev main_v212 : Ref sig .tc := ⟨.hbm, 261, rfl⟩
abbrev main_v213 : Ref sig .tc := ⟨.hbm, 262, rfl⟩
abbrev main_c_32 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_cst_33 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_c_34 : Ref sig .tc := ⟨.hbm, 292, rfl⟩
abbrev main_v241 : Ref sig .tc := ⟨.hbm, 293, rfl⟩
abbrev main_v242 : Ref sig .tc := ⟨.hbm, 294, rfl⟩
abbrev main_c_35 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_cst_36 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_call1_cst : Ref sig .tc := ⟨.hbm, 324, rfl⟩
abbrev main_call1_v0 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_cst_37 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_cst_38 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_c_39 : Ref sig .tc := ⟨.hbm, 361, rfl⟩
abbrev main_v303 : Ref sig .tc := ⟨.hbm, 362, rfl⟩
abbrev main_v304 : Ref sig .tc := ⟨.hbm, 363, rfl⟩
abbrev main_c_40 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_cst_41 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_c_42 : Ref sig .tc := ⟨.hbm, 393, rfl⟩
abbrev main_v332 : Ref sig .tc := ⟨.hbm, 394, rfl⟩
abbrev main_v333 : Ref sig .tc := ⟨.hbm, 395, rfl⟩
abbrev main_c_43 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_cst_44 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_c_45 : Ref sig .tc := ⟨.hbm, 425, rfl⟩
abbrev main_v361 : Ref sig .tc := ⟨.hbm, 426, rfl⟩
abbrev main_v362 : Ref sig .tc := ⟨.hbm, 427, rfl⟩
abbrev main_c_46 : Ref sig .tc := ⟨.hbm, 428, rfl⟩
abbrev main_v363 : Ref sig .tc := ⟨.hbm, 429, rfl⟩
abbrev main_v364 : Ref sig .tc := ⟨.hbm, 430, rfl⟩
abbrev main_v365 : Ref sig .tc := ⟨.hbm, 431, rfl⟩
abbrev main_v366 : Ref sig .tc := ⟨.hbm, 432, rfl⟩
abbrev main_v367 : Ref sig .tc := ⟨.hbm, 433, rfl⟩
abbrev main_v368 : Ref sig .tc := ⟨.hbm, 434, rfl⟩
abbrev main_v369 : Ref sig .tc := ⟨.hbm, 435, rfl⟩
abbrev main_cst_47 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_v383 : Ref sig .tc := ⟨.hbm, 450, rfl⟩
abbrev main_v384 : Ref sig .tc := ⟨.hbm, 451, rfl⟩
abbrev main_v385 : Ref sig .tc := ⟨.hbm, 452, rfl⟩

abbrev nD : Nat := 1
abbrev τ : Topo := Topo.v7x

variable {F : FTy → Type} [FloatOps F]

class Facts₀ : Prop where
  slices_S3x800000_S1x800000_0_0 : S3x800000.Slices ![0, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x800000_S1x800000_1_0 : S3x800000.Slices ![1, 0] S1x800000
  slices_S3x800000_S1x800000_2_0 : S3x800000.Slices ![2, 0] S1x800000
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x3x128x128_S1x1x128x128_0_0_0_0 : S3x3x128x128.Slices ![0, 0, 0, 0] S1x1x128x128
  shapeCasts_S1x1x128x128_S128x128 : S1x1x128x128.ShapeCasts S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S128 : S_.BroadcastsInDim S128 (![] : Fin 0 → Fin S128.rank)
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S2x128x128_S1x128x128_1_0_0 : S2x128x128.Slices ![1, 0, 0] S1x128x128
  slices_S2x128_S1x128_1_0 : S2x128.Slices ![1, 0] S1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.KernelRun.lean ====
/-
  The idealized kernel program's run with its result named: every weakly fair execution of @main terminates, nothing
  faulting, with the result buffer holding what the fold of the program's segments (host stretches and the three
  pallas_calls' write-backs) leaves there, and the arguments as launched.
-/
import proofs.«147366_j4853313044733_2_alg».proof.Proof.KernelIdealFrame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
set_option backward.isDefEq.respectTransparency.types false in
/-- The run of @main over its six segments, the thread state read back at the end: the result buffer holds the
    fold's contents `W6`, every argument its launch contents. -/
theorem run_value : θ_run defs (onTc (τ := τ) (main (F := F))) ⟨m, fun _ => 0, ρ⟩ (fun r => ∀ c : Dev nD,
      r.2.mem ((c.tc : Thread nD τ).loc main_v310) = W6 m ρ c (Proc.devRef .tc main_v310)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v310 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunValue

end
-- ==== Proof.GcnSpec.lean ====
/-
  The mathematics of a relational graph-convolution decoder, index by index on the extended reals.

  A layer takes node features X (N rows, H columns) and, for each of three relations, an edge list: edge e
  reads the row g e of X and lands on the node whose number is the integer d e.  With no / ni the source and
  destination degree factors of a relation, W its weight matrix and b its bias row, the layer forms

      h(p, j) = sum over the three relations of  ( Σ_{e : d e = p} Σ_k X(g e, k)·no(g e)·W(k, j) ) · ni(p) + b(j)

  and then a dense layer (followed, except in the last layer, by the rectifier and a batch normalisation with
  running statistics).  The sum over the edges can be taken BEFORE the product with W (aggregate the scaled
  features, then multiply: `relK` of `aggK`) or AFTER it (multiply every node's scaled features, then
  aggregate: `relR`).  On real entries the two agree by distributivity (`relK_aggK_eq_relR`); with infinite
  entries they need not, which is why every layer's input is shown to be real.
-/
import Idealize.ShloMosaic.PureOps.Ideal
import Idealize.ShloMosaic.PureOps.Ideal.Laws

noncomputable section

namespace Cert.GcnSpec

open Idealize.ShloMosaic

variable {N E H M : ℕ}

/-- Three relation terms and their three bias entries, added in the order t0 + b0 + t1 + b1 + t2 + b2. -/
def hidden3 (t0 t1 t2 b0 b1 b2 : EReal) : EReal := ((((t0 + b0) + t1) + b1) + t2) + b2

/-- One relation with the edges summed FIRST: the aggregate A, scaled by the destination factor, times W. -/
def relK (A : Fin N → Fin H → EReal) (ni : Fin N → EReal) (W : Fin H → Fin H → EReal) (p : Fin N) (j : Fin H) : EReal :=
  ∑ k : Fin H, (A p k * ni p) * W k j

/-- The aggregate of the source-scaled features over the edges landing on node p. -/
def aggK (X : Fin N → Fin H → EReal) (no : Fin N → EReal) (g : Fin E → Fin N) (d : Fin E → ℤ) (p : Fin N) (k : Fin H) : EReal :=
  ∑ e : Fin E, if d e = (p.val : ℤ) then X (g e) k * no (g e) else 0

/-- A node's message: its source-scaled features times W. -/
def msgR (X : Fin N → Fin H → EReal) (no : Fin N → EReal) (W : Fin H → Fin H → EReal) (n : Fin N) (j : Fin H) : EReal :=
  ∑ k : Fin H, (X n k * no n) * W k j

/-- One relation with the product by W taken FIRST: the messages summed over the edges landing on p, then
    scaled by the destination factor. -/
def relR (X : Fin N → Fin H → EReal) (no ni : Fin N → EReal) (W : Fin H → Fin H → EReal) (g : Fin E → Fin N) (d : Fin E → ℤ)
    (p : Fin N) (j : Fin H) : EReal :=
  (∑ e : Fin E, if d e = (p.val : ℤ) then msgR X no W (g e) j else 0) * ni p

/-- A dense layer on one row h: Σ_j h(j)·W(j, q) + b(q). -/
def dense (h : Fin H → EReal) (Wfc : Fin H → Fin M → EReal) (fcb : Fin M → EReal) (q : Fin M) : EReal :=
  ∑ j : Fin H, h j * Wfc j q + fcb q

/-- The batch-normalisation epsilon, the f32 nearest 1e-5. -/
def epsW : EReal := Ideal.ofBits .f32 0x3727C5AC#32

/-- Rectifier, then batch normalisation with running statistics: γ·(max(y,0) − μ)·rsqrt(v + ε) + β. -/
def bnRelu (y γ β μ v : EReal) : EReal := (γ * (max y 0 - μ)) * Ideal.rsqrt (v + epsW) + β

/-- Entry (p, q) of a hidden layer, the three aggregates A0 A1 A2 given. -/
def layerK (A0 A1 A2 : Fin N → Fin H → EReal) (n0 n1 n2 : Fin N → EReal) (b0 b1 b2 : Fin H → EReal)
    (W0 W1 W2 : Fin H → Fin H → EReal) (Wfc : Fin H → Fin M → EReal) (fcb γ β μ v : Fin M → EReal) (p : Fin N) (q : Fin M) : EReal :=
  bnRelu (dense (fun j => hidden3 (relK A0 n0 W0 p j) (relK A1 n1 W1 p j) (relK A2 n2 W2 p j) (b0 j) (b1 j) (b2 j)) Wfc fcb q)
    (γ q) (β q) (μ q) (v q)

/-- Entry (p, q) of the last layer (no rectifier, no normalisation), the three aggregates given. -/
def lastK (A0 A1 A2 : Fin N → Fin H → EReal) (n0 n1 n2 : Fin N → EReal) (b0 b1 b2 : Fin H → EReal)
    (W0 W1 W2 : Fin H → Fin H → EReal) (Wfc : Fin H → Fin M → EReal) (fcb : Fin M → EReal) (p : Fin N) (q : Fin M) : EReal :=
  dense (fun j => hidden3 (relK A0 n0 W0 p j) (relK A1 n1 W1 p j) (relK A2 n2 W2 p j) (b0 j) (b1 j) (b2 j)) Wfc fcb q

/-- Entry (p, q) of a hidden layer computed message-first from the features X. -/
def layerR (X : Fin N → Fin H → EReal) (no0 no1 no2 ni0 ni1 ni2 : Fin N → EReal) (g0 g1 g2 : Fin E → Fin N) (d0 d1 d2 : Fin E → ℤ)
    (b0 b1 b2 : Fin H → EReal) (W0 W1 W2 : Fin H → Fin H → EReal) (Wfc : Fin H → Fin M → EReal) (fcb γ β μ v : Fin M → EReal)
    (p : Fin N) (q : Fin M) : EReal :=
  bnRelu (dense (fun j => hidden3 (relR X no0 ni0 W0 g0 d0 p j) (relR X no1 ni1 W1 g1 d1 p j) (relR X no2 ni2 W2 g2 d2 p j)
      (b0 j) (b1 j) (b2 j)) Wfc fcb q) (γ q) (β q) (μ q) (v q)

/-- Entry (p, q) of the last layer computed message-first from the features X. -/
def lastR (X : Fin N → Fin H → EReal) (no0 no1 no2 ni0 ni1 ni2 : Fin N → EReal) (g0 g1 g2 : Fin E → Fin N) (d0 d1 d2 : Fin E → ℤ)
    (b0 b1 b2 : Fin H → EReal) (W0 W1 W2 : Fin H → Fin H → EReal) (Wfc : Fin H → Fin M → EReal) (fcb : Fin M → EReal)
    (p : Fin N) (q : Fin M) : EReal :=
  dense (fun j => hidden3 (relR X no0 ni0 W0 g0 d0 p j) (relR X no1 ni1 W1 g1 d1 p j) (relR X no2 ni2 W2 g2 d2 p j)
      (b0 j) (b1 j) (b2 j)) Wfc fcb q

end Cert.GcnSpec

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«147366_j4853313044733_2_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.RefLayout.lean ====
/-
  Host layout operations of a graph-convolution layer, read at coordinates (any extents), over any element type:
  * a scalar repeated over a whole array reads the scalar everywhere;
  * a row vector [b] lifted to [1, b] and repeated down the rows to [a, b] reads, at (p, q), the vector's entry q;
  * the slice at one or two leading positions of a stack of vectors or matrices, reshaped to drop the unit axes,
    reads the stack at those leading positions.
-/
import Idealize.ShloMosaic.Lib.Pipeline.Value
import Idealize.ShloMosaic.Lib.ValueIdx
import proofs.«147366_j4853313044733_2_alg».proof.Proof.LibLifts

namespace Cert.GcnLayout

open Idealize.ShloMosaic Idealize.ShloMosaic.ValueIdx

variable {α : Type}

/-- A scalar repeated over a whole array reads the scalar everywhere. -/
theorem bcast_scalar_apply {t : Shape} (y : (⟨0, ![]⟩ : Shape).Idx → α)
    (h : (⟨0, ![]⟩ : Shape).BroadcastsInDim t (![] : Fin 0 → Fin t.rank)) (i : t.Idx) :
    broadcastInDim t ![] h y i = y ix0 :=
  broadcastInDim_apply _ h y i ix0 (fun a => a.elim0)

/-- A row [1, b] repeated down the rows to [a, b] reads, at (p, q), the row's entry q. -/
theorem bcast_1b_ab_apply {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  have hq := q.isLt
  refine broadcastInDim_apply _ h w (ix2 p q) (ix2 (0 : Fin 1) q) fun ax => ?_
  match ax with
  | ⟨0, _⟩ => rfl
  | ⟨1, _⟩ =>
    show q.val = if b = 1 then 0 else q.val
    split
    · omega
    · rfl

/-- A vector [b] lifted to the row [1, b] and repeated to [a, b] reads, at (p, q), the vector's entry q. -/
theorem bcast_b_ab_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) :=
  (bcast_1b_ab_apply _ h2 p q).trans (Lifts.broadcastInDim_b_1b_apply v h1 0 q)

/-- Row l of a stack [A, c] of vectors. -/
theorem slice2_vec_apply {A c : ℕ} (b : (⟨2, ![A, c]⟩ : Shape).Idx → α) (l : Fin A)
    (hs : (⟨2, ![A, c]⟩ : Shape).Slices ![l.val, 0] ⟨2, ![1, c]⟩)
    (hc : (⟨2, ![1, c]⟩ : Shape).ShapeCasts ⟨1, ![c]⟩) (q : Fin c) :
    shapeCast ⟨1, ![c]⟩ (extractStridedSlice ⟨2, ![1, c]⟩ ![l.val, 0] b hs) hc (ix1 q) = b (ix2 l q) := by
  refine (shapeCast_apply _ hc (ix1 q) (ix2 (0 : Fin 1) q) ?_).trans ?_
  · rw [Shape.rowMajor_val_two, Shape.rowMajor_val_one]
    show 0 * c + q.val = q.val
    omega
  · refine extractStridedSlice_apply _ b hs _ (ix2 l q) fun a => ?_
    match a with
    | ⟨0, _⟩ => show l.val = l.val + 0; omega
    | ⟨1, _⟩ => show q.val = 0 + q.val; omega

/-- Vector (l, r) of a stack [A, B, c] of vectors. -/
theorem slice3_vec_apply {A B c : ℕ} (b : (⟨3, ![A, B, c]⟩ : Shape).Idx → α) (l : Fin A) (r : Fin B)
    (hs : (⟨3, ![A, B, c]⟩ : Shape).Slices ![l.val, r.val, 0] ⟨3, ![1, 1, c]⟩)
    (hc : (⟨3, ![1, 1, c]⟩ : Shape).ShapeCasts ⟨1, ![c]⟩) (q : Fin c) :
    shapeCast ⟨1, ![c]⟩ (extractStridedSlice ⟨3, ![1, 1, c]⟩ ![l.val, r.val, 0] b hs) hc (ix1 q) = b (ix3 l r q) := by
  refine (shapeCast_apply _ hc (ix1 q) (ix3 (0 : Fin 1) (0 : Fin 1) q) ?_).trans ?_
  · rw [Shape.rowMajor_val_three, Shape.rowMajor_val_one]
    show (0 * 1 + 0) * c + q.val = q.val
    omega
  · refine extractStridedSlice_apply _ b hs _ (ix3 l r q) fun a => ?_
    match a with
    | ⟨0, _⟩ => show l.val = l.val + 0; omega
    | ⟨1, _⟩ => show r.val = r.val + 0; omega
    | ⟨2, _⟩ => show q.val = 0 + q.val; omega

/-- Matrix l of a stack [A, c, d] of matrices. -/
theorem slice3_mat_apply {A c d : ℕ} (W : (⟨3, ![A, c, d]⟩ : Shape).Idx → α) (l : Fin A)
    (hs : (⟨3, ![A, c, d]⟩ : Shape).Slices ![l.val, 0, 0] ⟨3, ![1, c, d]⟩)
    (hc : (⟨3, ![1, c, d]⟩ : Shape).ShapeCasts ⟨2, ![c, d]⟩) (k : Fin c) (j : Fin d) :
    shapeCast ⟨2, ![c, d]⟩ (extractStridedSlice ⟨3, ![1, c, d]⟩ ![l.val, 0, 0] W hs) hc (ix2 k j) = W (ix3 l k j) := by
  refine (shapeCast_apply _ hc (ix2 k j) (ix3 (0 : Fin 1) k j) ?_).trans ?_
  · rw [Shape.rowMajor_val_three, Shape.rowMajor_val_two]
    show (0 * c + k.val) * d + j.val = k.val * d + j.val
    rw [Nat.zero_mul, Nat.zero_add]
  · refine extractStridedSlice_apply _ W hs _ (ix3 l k j) fun a => ?_
    match a with
    | ⟨0, _⟩ => show l.val = l.val + 0; omega
    | ⟨1, _⟩ => show k.val = 0 + k.val; omega
    | ⟨2, _⟩ => show j.val = 0 + j.val; omega

/-- Matrix (l, r) of a stack [A, B, c, d] of matrices. -/
theorem slice4_mat_apply {A B c d : ℕ} (W : (⟨4, ![A, B, c, d]⟩ : Shape).Idx → α) (l : Fin A) (r : Fin B)
    (hs : (⟨4, ![A, B, c, d]⟩ : Shape).Slices ![l.val, r.val, 0, 0] ⟨4, ![1, 1, c, d]⟩)
    (hc : (⟨4, ![1, 1, c, d]⟩ : Shape).ShapeCasts ⟨2, ![c, d]⟩) (k : Fin c) (j : Fin d) :
    shapeCast ⟨2, ![c, d]⟩ (extractStridedSlice ⟨4, ![1, 1, c, d]⟩ ![l.val, r.val, 0, 0] W hs) hc (ix2 k j)
      = W (ix4 l r k j) := by
  refine (shapeCast_apply _ hc (ix2 k j) (ix4 (0 : Fin 1) (0 : Fin 1) k j) ?_).trans ?_
  · rw [Shape.rowMajor_val_four, Shape.rowMajor_val_two]
    show ((0 * 1 + 0) * c + k.val) * d + j.val = k.val * d + j.val
    simp only [Nat.zero_mul, Nat.zero_add, Nat.add_zero]
  · refine extractStridedSlice_apply _ W hs _ (ix4 l r k j) fun a => ?_
    match a with
    | ⟨0, _⟩ => show l.val = l.val + 0; omega
    | ⟨1, _⟩ => show r.val = r.val + 0; omega
    | ⟨2, _⟩ => show k.val = 0 + k.val; omega
    | ⟨3, _⟩ => show j.val = 0 + j.val; omega

end Cert.GcnLayout
-- ==== Proof.KernelHostLaws.lean ====
/-
  The kernel program's host spelling of one relation's aggregate, read at an entry, over the extended reals.

  Before each pallas_call the host scales the features by a relation's source degree factor, rounds them to bf16
  (the identity on the extended reals), takes for every edge the scaled row of its source node (a gather of rows at
  the clamped source index), widens back, and adds the rows of the edges landing on each node (an accumulating
  scatter into zeros).  Entry (p, k) of the result is the specification's aggregate of the scaled features.
-/
import Idealize.ShloMosaic.PureOps.Ideal.Laws
import Idealize.ShloMosaic.Lib.ValueIdx
import Idealize.ShloMosaic.Lib.Pipeline.Value
import proofs.«147366_j4853313044733_2_alg».proof.Proof.GcnSpec
import proofs.«147366_j4853313044733_2_alg».proof.Proof.LibLifts
import proofs.«147366_j4853313044733_2_alg».proof.Proof.LibHostRow
import proofs.«147366_j4853313044733_2_alg».proof.Proof.LibLeadingAxis
import proofs.«147366_j4853313044733_2_alg».proof.Proof.RefLayout

noncomputable section

namespace Cert.GcnKernelHost

open Idealize.ShloMosaic Idealize.ShloMosaic.ValueIdx Cert.GcnLayout

variable {N C E : ℕ} {α : Type}

/-- A vector [b] recast as the one-row matrix [1, b] reads, at (0, q), the vector's entry q. -/
theorem cast_b_1b_apply {b : ℕ} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) := by
  refine shapeCast_apply _ h (ix2 (0 : Fin 1) q) (ix1 q) ?_
  rw [Shape.rowMajor_val_two, Shape.rowMajor_val_one]
  show q.val = 0 * b + q.val
  omega

/-- The aggregate of one relation, edges summed before any product with the weights. -/
theorem agg_apply (hN : 0 < N) (X : FVec Ideal ⟨2, ![N, C]⟩ .f32) (no : FVec Ideal ⟨1, ![N]⟩ .f32)
    (isrc idst : IVec ⟨1, ![E]⟩ 32)
    (hz : (⟨0, ![]⟩ : Shape).BroadcastsInDim ⟨2, ![N, C]⟩ (![] : Fin 0 → Fin 2))
    (h1 : (⟨1, ![N]⟩ : Shape).BroadcastsInDim ⟨2, ![N, 1]⟩ ![0])
    (h2 : (⟨2, ![N, 1]⟩ : Shape).BroadcastsInDim ⟨2, ![N, C]⟩ ![0, 1])
    (he : (⟨1, ![E]⟩ : Shape).BroadcastsInDim ⟨2, ![E, 1]⟩ ![0])
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (hlt : FTy.bf16.bits < FTy.f32.bits) (p : Fin N) (k : Fin C) :
    Host.scatterAdd (LeadingAxis.rowScatterDims N C E ws)
        (broadcastInDim ⟨2, ![N, C]⟩ ![] hz (constant (F := Ideal) ⟨0, ![]⟩ .f32 0x00000000#32))
        (broadcastInDim ⟨2, ![E, 1]⟩ ![0] he idst)
        (extf .f32 (Host.gather (LeadingAxis.rowGatherDims N C E wg)
            (truncf .bf16 (mulf X (broadcastInDim ⟨2, ![N, C]⟩ ![0, 1] h2 (broadcastInDim ⟨2, ![N, 1]⟩ ![0] h1 no))) hlt)
            (broadcastInDim ⟨2, ![E, 1]⟩ ![0] he isrc)) hlt) (ix2 p k)
      = Cert.GcnSpec.aggK (fun n k => X (ix2 n k)) (fun n => no (ix1 n))
          (fun e => LeadingAxis.clampRow N hN (isrc (ix1 e))) (fun e => (idst (ix1 e)).toInt) p k := by
  rw [LeadingAxis.scatterAdd_rows_apply, bcast_scalar_apply, constant_apply, Ideal.ofBits_zero_f32, zero_add]
  unfold Cert.GcnSpec.aggK
  refine Finset.sum_congr rfl fun e _ => ?_
  rw [Lifts.broadcastInDim_a_a1_apply, extf_apply, LeadingAxis.gather_rows_apply hN, Lifts.broadcastInDim_a_a1_apply,
    truncf_apply, mulf_apply, HostRow.bcast_a_ab_apply]

end Cert.GcnKernelHost

end
-- ==== Proof.KernelHostTerms.lean ====
/-
  The kernel program's host-side building blocks as named terms: row r of an edge-index array as a vector, the degree
  factor 1/√max(deg, 1) of an index row (deg counts the edges whose index is a node's number), and the index a
  negative entry is normalised to (idx + 50000 when idx < 0).  Both programs compute them with these operations.
-/
import proofs.«147366_j4853313044733_2_alg».proof.KernelIdeal
import proofs.«147366_j4853313044733_2_alg».proof.Proof.Gen.KernelIdeal
import Idealize.ShloMosaic.PureOps.Ideal

noncomputable section

namespace Cert.KernelIdeal.HostTerms

open Cert.KernelIdeal Cert.KernelIdeal.Facts₀ Idealize.ShloMosaic

/-- Row 0 of a [3, 800000] index array, as a vector. -/
def idxRow0 (x : IVec S3x800000 32) : IVec S800000 32 :=
  shapeCast S800000 (extractStridedSlice S1x800000 ![0, 0] x slices_S3x800000_S1x800000_0_0) shapeCasts_S1x800000_S800000
/-- Row 1 of a [3, 800000] index array, as a vector. -/
def idxRow1 (x : IVec S3x800000 32) : IVec S800000 32 :=
  shapeCast S800000 (extractStridedSlice S1x800000 ![1, 0] x slices_S3x800000_S1x800000_1_0) shapeCasts_S1x800000_S800000
/-- Row 2 of a [3, 800000] index array, as a vector. -/
def idxRow2 (x : IVec S3x800000 32) : IVec S800000 32 :=
  shapeCast S800000 (extractStridedSlice S1x800000 ![2, 0] x slices_S3x800000_S1x800000_2_0) shapeCasts_S1x800000_S800000

/-- The degree factor of an index row: 1/√max(deg, 1), deg(n) the number of entries equal to n. -/
def degNorm (row : IVec S800000 32) : FVec Ideal S50000 .f32 :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 row)
      (broadcastInDim S800000 ![] bcast_S_S800000 (constant S_ .f32 0x3F800000#32)))
    (broadcastInDim S50000 ![] bcast_S_S50000 (constant S_ .f32 0x3F800000#32)))

/-- A negative index counts from the end: idx + 50000 when idx < 0, else idx. -/
def normIdx (row : IVec S800000 32) : IVec S800000 32 :=
  select (cmpi .slt row (broadcastInDim S800000 ![] bcast_S_S800000 (constantI S_ 32 0#32)))
    (addi row (broadcastInDim S800000 ![] bcast_S_S800000 (constantI S_ 32 50000#32))) row

end Cert.KernelIdeal.HostTerms

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.KernelHost0.lean ====
/-
  The host operations before the first pallas_call, read at an entry for any contents V of the buffers at launch:
  the three aggregates of layer 0, the destination degree columns, and the layer's parameter slices.
-/
import proofs.«147366_j4853313044733_2_alg».proof.Proof.Gen.KernelIdeal.Launch
import Idealize.ShloMosaic.Lib.StableHlo.Run
import proofs.«147366_j4853313044733_2_alg».proof.Proof.KernelHostLaws
import proofs.«147366_j4853313044733_2_alg».proof.Proof.KernelHostTerms
import proofs.«147366_j4853313044733_2_alg».proof.Proof.LibColumn

set_option maxRecDepth 16384

noncomputable section

namespace Cert.KernelIdeal.HostValue

open Cert.KernelIdeal Cert.KernelIdeal.Gen Cert.KernelIdeal.HostTerms Idealize.ShloMosaic Idealize.ShloMosaic.TcCoe Idealize.SL.Sem
  Idealize.ShloMosaic.StableHlo Idealize.ShloMosaic.ValueIdx Cert.GcnLayout

variable (V : Valuation τ sig (Elt Ideal))

local macro "host_read" ops:ident : tactic =>
  `(tactic| (dsimp only [$ops:ident]; after_results_simp))

set_option maxHeartbeats 4000000 in
/-- Layer 0, relation 0: the aggregate of the source-scaled features at (p, k). -/
theorem agg_0_0 (p : Fin 50000) (k : Fin 128) :
    StableHlo.after (hostOps0 (F := Ideal)) V (Proc.devRef .tc main_v75) (ix2 p k)
      = Cert.GcnSpec.aggK (fun n k => (V (Proc.devRef .tc main_arg0)) (ix2 n k)) (fun n => degNorm (idxRow0 (V (Proc.devRef .tc main_arg1))) (ix1 n))
          (fun e => LeadingAxis.clampRow 50000 (by decide) (normIdx (idxRow0 (V (Proc.devRef .tc main_arg1))) (ix1 e)))
          (fun e => (idxRow0 (V (Proc.devRef .tc main_arg2)) (ix1 e)).toInt) p k := by
  host_read hostOps0
  exact Cert.GcnKernelHost.agg_apply (N := 50000) (C := 128) (E := 800000) (by decide) _ _ _ _ _ _ _ _ _ _ _ p k

/-- Layer 0, relation 0: the bias row at (0, j). -/
theorem bias_0_0 (j : Fin 128) :
    StableHlo.after (hostOps0 (F := Ideal)) V (Proc.devRef .tc main_v116) (ix2 0 j) = (V (Proc.devRef .tc main_arg4)) (ix3 0 0 j) := by
  host_read hostOps0
  exact (Cert.GcnKernelHost.cast_b_1b_apply _ _ j).trans (slice3_vec_apply _ 0 0 _ _ j)

/-- Layer 0, relation 0: the weight matrix at (k, j). -/
theorem wts_0_0 (k j : Fin 128) :
    StableHlo.after (hostOps0 (F := Ideal)) V (Proc.devRef .tc main_v124) (ix2 k j) = (V (Proc.devRef .tc main_arg3)) (ix4 0 0 k j) := by
  host_read hostOps0
  exact slice4_mat_apply _ 0 0 _ _ k j

set_option maxHeartbeats 4000000 in
/-- Layer 0, relation 1: the aggregate of the source-scaled features at (p, k). -/
theorem agg_0_1 (p : Fin 50000) (k : Fin 128) :
    StableHlo.after (hostOps0 (F := Ideal)) V (Proc.devRef .tc main_v94) (ix2 p k)
      = Cert.GcnSpec.aggK (fun n k => (V (Proc.devRef .tc main_arg0)) (ix2 n k)) (fun n => degNorm (idxRow1 (V (Proc.devRef .tc main_arg1))) (ix1 n))
          (fun e => LeadingAxis.clampRow 50000 (by decide) (normIdx (idxRow1 (V (Proc.devRef .tc main_arg1))) (ix1 e)))
          (fun e => (idxRow1 (V (Proc.devRef .tc main_arg2)) (ix1 e)).toInt) p k := by
  host_read hostOps0
  exact Cert.GcnKernelHost.agg_apply (N := 50000) (C := 128) (E := 800000) (by decide) _ _ _ _ _ _ _ _ _ _ _ p k

/-- Layer 0, relation 1: the bias row at (0, j). -/
theorem bias_0_1 (j : Fin 128) :
    StableHlo.after (hostOps0 (F := Ideal)) V (Proc.devRef .tc main_v119) (ix2 0 j) = (V (Proc.devRef .tc main_arg4)) (ix3 0 1 j) := by
  host_read hostOps0
  exact (Cert.GcnKernelHost.cast_b_1b_apply _ _ j).trans (slice3_vec_apply _ 0 1 _ _ j)

/-- Layer 0, relation 1: the weight matrix at (k, j). -/
theorem wts_0_1 (k j : Fin 128) :
    StableHlo.after (hostOps0 (F := Ideal)) V (Proc.devRef .tc main_v126) (ix2 k j) = (V (Proc.devRef .tc main_arg3)) (ix4 0 1 k j) := by
  host_read hostOps0
  exact slice4_mat_apply _ 0 1 _ _ k j

set_option maxHeartbeats 4000000 in
/-- Layer 0, relation 2: the aggregate of the source-scaled features at (p, k). -/
theorem agg_0_2 (p : Fin 50000) (k : Fin 128) :
    StableHlo.after (hostOps0 (F := Ideal)) V (Proc.devRef .tc main_v113) (ix2 p k)
      = Cert.GcnSpec.aggK (fun n k => (V (Proc.devRef .tc main_arg0)) (ix2 n k)) (fun n => degNorm (idxRow2 (V (Proc.devRef .tc main_arg1))) (ix1 n))
          (fun e => LeadingAxis.clampRow 50000 (by decide) (normIdx (idxRow2 (V (Proc.devRef .tc main_arg1))) (ix1 e)))
          (fun e => (idxRow2 (V (Proc.devRef .tc main_arg2)) (ix1 e)).toInt) p k := by
  host_read hostOps0
  exact Cert.GcnKernelHost.agg_apply (N := 50000) (C := 128) (E := 800000) (by decide) _ _ _ _ _ _ _ _ _ _ _ p k

/-- Layer 0, relation 2: the bias row at (0, j). -/
theorem bias_0_2 (j : Fin 128) :
    StableHlo.after (hostOps0 (F := Ideal)) V (Proc.devRef .tc main_v122) (ix2 0 j) = (V (Proc.devRef .tc main_arg4)) (ix3 0 2 j) := by
  host_read hostOps0
  exact (Cert.GcnKernelHost.cast_b_1b_apply _ _ j).trans (slice3_vec_apply _ 0 2 _ _ j)

/-- Layer 0, relation 2: the weight matrix at (k, j). -/
theorem wts_0_2 (k j : Fin 128) :
    StableHlo.after (hostOps0 (F := Ideal)) V (Proc.devRef .tc main_v128) (ix2 k j) = (V (Proc.devRef .tc main_arg3)) (ix4 0 2 k j) := by
  host_read hostOps0
  exact slice4_mat_apply _ 0 2 _ _ k j

/-- Layer 0: the dense layer's weights at (j, q). -/
theorem fcW_0 (j q : Fin 128) :
    StableHlo.after (hostOps0 (F := Ideal)) V (Proc.devRef .tc main_v130) (ix2 j q) = (V (Proc.devRef .tc main_arg5)) (ix3 0 j q) := by
  host_read hostOps0
  exact slice3_mat_apply _ 0 _ _ j q

/-- Layer 0: the fcb row at (0, q). -/
theorem fcb_0 (q : Fin 128) :
    StableHlo.after (hostOps0 (F := Ideal)) V (Proc.devRef .tc main_v133) (ix2 0 q) = (V (Proc.devRef .tc main_arg6)) (ix2 0 q) := by
  host_read hostOps0
  exact (Cert.GcnKernelHost.cast_b_1b_apply _ _ q).trans (slice2_vec_apply _ 0 _ _ q)

/-- Layer 0: the gamma row at (0, q). -/
theorem gamma_0 (q : Fin 128) :
    StableHlo.after (hostOps0 (F := Ideal)) V (Proc.devRef .tc main_v136) (ix2 0 q) = (V (Proc.devRef .tc main_arg9)) (ix2 0 q) := by
  host_read hostOps0
  exact (Cert.GcnKernelHost.cast_b_1b_apply _ _ q).trans (slice2_vec_apply _ 0 _ _ q)

/-- Layer 0: the beta row at (0, q). -/
theorem beta_0 (q : Fin 128) :
    StableHlo.after (hostOps0 (F := Ideal)) V (Proc.devRef .tc main_v139) (ix2 0 q) = (V (Proc.devRef .tc main_arg10)) (ix2 0 q) := by
  host_read hostOps0
  exact (Cert.GcnKernelHost.cast_b_1b_apply _ _ q).trans (slice2_vec_apply _ 0 _ _ q)

/-- Layer 0: the mean row at (0, q). -/
theorem mean_0 (q : Fin 128) :
    StableHlo.after (hostOps0 (F := Ideal)) V (Proc.devRef .tc main_v142) (ix2 0 q) = (V (Proc.devRef .tc main_arg11)) (ix2 0 q) := by
  host_read hostOps0
  exact (Cert.GcnKernelHost.cast_b_1b_apply _ _ q).trans (slice2_vec_apply _ 0 _ _ q)

/-- Layer 0: the var row at (0, q). -/
theorem var_0 (q : Fin 128) :
    StableHlo.after (hostOps0 (F := Ideal)) V (Proc.devRef .tc main_v145) (ix2 0 q) = (V (Proc.devRef .tc main_arg12)) (ix2 0 q) := by
  host_read hostOps0
  exact (Cert.GcnKernelHost.cast_b_1b_apply _ _ q).trans (slice2_vec_apply _ 0 _ _ q)

/-- Relation 0: the destination degree factor as a column, at (n, 0). -/
theorem nin_0 (n : Fin 50000) :
    StableHlo.after (hostOps0 (F := Ideal)) V (Proc.devRef .tc main_v54) (ix2 n 0) = degNorm (idxRow0 (V (Proc.devRef .tc main_arg2))) (ix1 n) := by
  host_read hostOps0
  exact Idealize.ShloMosaic.Column.shapeCast_a_a1_apply _ _ n 0

/-- Relation 0: the source degree factor. -/
theorem nout_0 :
    StableHlo.after (hostOps0 (F := Ideal)) V (Proc.devRef .tc main_v8) = degNorm (idxRow0 (V (Proc.devRef .tc main_arg1))) := by
  host_read hostOps0
  rfl

/-- Relation 1: the destination degree factor as a column, at (n, 0). -/
theorem nin_1 (n : Fin 50000) :
    StableHlo.after (hostOps0 (F := Ideal)) V (Proc.devRef .tc main_v55) (ix2 n 0) = degNorm (idxRow1 (V (Proc.devRef .tc main_arg2))) (ix1 n) := by
  host_read hostOps0
  exact Idealize.ShloMosaic.Column.shapeCast_a_a1_apply _ _ n 0

/-- Relation 1: the source degree factor. -/
theorem nout_1 :
    StableHlo.after (hostOps0 (F := Ideal)) V (Proc.devRef .tc main_v17) = degNorm (idxRow1 (V (Proc.devRef .tc main_arg1))) := by
  host_read hostOps0
  rfl

/-- Relation 2: the destination degree factor as a column, at (n, 0). -/
theorem nin_2 (n : Fin 50000) :
    StableHlo.after (hostOps0 (F := Ideal)) V (Proc.devRef .tc main_v56) (ix2 n 0) = degNorm (idxRow2 (V (Proc.devRef .tc main_arg2))) (ix1 n) := by
  host_read hostOps0
  exact Idealize.ShloMosaic.Column.shapeCast_a_a1_apply _ _ n 0

/-- Relation 2: the source degree factor. -/
theorem nout_2 :
    StableHlo.after (hostOps0 (F := Ideal)) V (Proc.devRef .tc main_v26) = degNorm (idxRow2 (V (Proc.devRef .tc main_arg1))) := by
  host_read hostOps0
  rfl

theorem keep_hostOps0_main_arg1 : StableHlo.after (hostOps0 (F := Ideal)) V (Proc.devRef .tc main_arg1) = V (Proc.devRef .tc main_arg1) := by
  host_read hostOps0

theorem keep_hostOps0_main_arg2 : StableHlo.after (hostOps0 (F := Ideal)) V (Proc.devRef .tc main_arg2) = V (Proc.devRef .tc main_arg2) := by
  host_read hostOps0

theorem keep_hostOps0_main_arg3 : StableHlo.after (hostOps0 (F := Ideal)) V (Proc.devRef .tc main_arg3) = V (Proc.devRef .tc main_arg3) := by
  host_read hostOps0

theorem keep_hostOps0_main_arg4 : StableHlo.after (hostOps0 (F := Ideal)) V (Proc.devRef .tc main_arg4) = V (Proc.devRef .tc main_arg4) := by
  host_read hostOps0

theorem keep_hostOps0_main_arg5 : StableHlo.after (hostOps0 (F := Ideal)) V (Proc.devRef .tc main_arg5) = V (Proc.devRef .tc main_arg5) := by
  host_read hostOps0

theorem keep_hostOps0_main_arg6 : StableHlo.after (hostOps0 (F := Ideal)) V (Proc.devRef .tc main_arg6) = V (Proc.devRef .tc main_arg6) := by
  host_read hostOps0

theorem keep_hostOps0_main_arg7 : StableHlo.after (hostOps0 (F := Ideal)) V (Proc.devRef .tc main_arg7) = V (Proc.devRef .tc main_arg7) := by
  host_read hostOps0

theorem keep_hostOps0_main_arg8 : StableHlo.after (hostOps0 (F := Ideal)) V (Proc.devRef .tc main_arg8) = V (Proc.devRef .tc main_arg8) := by
  host_read hostOps0

theorem keep_hostOps0_main_arg9 : StableHlo.after (hostOps0 (F := Ideal)) V (Proc.devRef .tc main_arg9) = V (Proc.devRef .tc main_arg9) := by
  host_read hostOps0

theorem keep_hostOps0_main_arg10 : StableHlo.after (hostOps0 (F := Ideal)) V (Proc.devRef .tc main_arg10) = V (Proc.devRef .tc main_arg10) := by
  host_read hostOps0

theorem keep_hostOps0_main_arg11 : StableHlo.after (hostOps0 (F := Ideal)) V (Proc.devRef .tc main_arg11) = V (Proc.devRef .tc main_arg11) := by
  host_read hostOps0

theorem keep_hostOps0_main_arg12 : StableHlo.after (hostOps0 (F := Ideal)) V (Proc.devRef .tc main_arg12) = V (Proc.devRef .tc main_arg12) := by
  host_read hostOps0

end Cert.KernelIdeal.HostValue

end
-- ==== Proof.KernelHost1.lean ====
/-
  The host operations between the first and the second pallas_call, read at an entry for any contents V of the
  buffers after the first call: the three aggregates of layer 1 (of the first call's result) and the layer's parameter slices.
-/
import proofs.«147366_j4853313044733_2_alg».proof.Proof.Gen.KernelIdeal.Launch
import Idealize.ShloMosaic.Lib.StableHlo.Run
import proofs.«147366_j4853313044733_2_alg».proof.Proof.KernelHostLaws
import proofs.«147366_j4853313044733_2_alg».proof.Proof.KernelHostTerms
import proofs.«147366_j4853313044733_2_alg».proof.Proof.LibColumn

set_option maxRecDepth 16384

noncomputable section

namespace Cert.KernelIdeal.HostValue

open Cert.KernelIdeal Cert.KernelIdeal.Gen Cert.KernelIdeal.HostTerms Idealize.ShloMosaic Idealize.ShloMosaic.TcCoe Idealize.SL.Sem
  Idealize.ShloMosaic.StableHlo Idealize.ShloMosaic.ValueIdx Cert.GcnLayout

variable (V : Valuation τ sig (Elt Ideal))

local macro "host_read" ops:ident : tactic =>
  `(tactic| (dsimp only [$ops:ident]; after_results_simp))

set_option maxHeartbeats 4000000 in
/-- Layer 1, relation 0: the aggregate of the source-scaled features at (p, k). -/
theorem agg_1_0 (p : Fin 50000) (k : Fin 128) :
    StableHlo.after (hostOps1 (F := Ideal)) V (Proc.devRef .tc main_v165) (ix2 p k)
      = Cert.GcnSpec.aggK (fun n k => (V (Proc.devRef .tc main_v146)) (ix2 n k)) (fun n => (V (Proc.devRef .tc main_v8)) (ix1 n))
          (fun e => LeadingAxis.clampRow 50000 (by decide) (normIdx (idxRow0 (V (Proc.devRef .tc main_arg1))) (ix1 e)))
          (fun e => (idxRow0 (V (Proc.devRef .tc main_arg2)) (ix1 e)).toInt) p k := by
  host_read hostOps1
  exact Cert.GcnKernelHost.agg_apply (N := 50000) (C := 128) (E := 800000) (by decide) _ _ _ _ _ _ _ _ _ _ _ p k

/-- Layer 1, relation 0: the bias row at (0, j). -/
theorem bias_1_0 (j : Fin 128) :
    StableHlo.after (hostOps1 (F := Ideal)) V (Proc.devRef .tc main_v206) (ix2 0 j) = (V (Proc.devRef .tc main_arg4)) (ix3 1 0 j) := by
  host_read hostOps1
  exact (Cert.GcnKernelHost.cast_b_1b_apply _ _ j).trans (slice3_vec_apply _ 1 0 _ _ j)

/-- Layer 1, relation 0: the weight matrix at (k, j). -/
theorem wts_1_0 (k j : Fin 128) :
    StableHlo.after (hostOps1 (F := Ideal)) V (Proc.devRef .tc main_v214) (ix2 k j) = (V (Proc.devRef .tc main_arg3)) (ix4 1 0 k j) := by
  host_read hostOps1
  exact slice4_mat_apply _ 1 0 _ _ k j

set_option maxHeartbeats 4000000 in
/-- Layer 1, relation 1: the aggregate of the source-scaled features at (p, k). -/
theorem agg_1_1 (p : Fin 50000) (k : Fin 128) :
    StableHlo.after (hostOps1 (F := Ideal)) V (Proc.devRef .tc main_v184) (ix2 p k)
      = Cert.GcnSpec.aggK (fun n k => (V (Proc.devRef .tc main_v146)) (ix2 n k)) (fun n => (V (Proc.devRef .tc main_v17)) (ix1 n))
          (fun e => LeadingAxis.clampRow 50000 (by decide) (normIdx (idxRow1 (V (Proc.devRef .tc main_arg1))) (ix1 e)))
          (fun e => (idxRow1 (V (Proc.devRef .tc main_arg2)) (ix1 e)).toInt) p k := by
  host_read hostOps1
  exact Cert.GcnKernelHost.agg_apply (N := 50000) (C := 128) (E := 800000) (by decide) _ _ _ _ _ _ _ _ _ _ _ p k

/-- Layer 1, relation 1: the bias row at (0, j). -/
theorem bias_1_1 (j : Fin 128) :
    StableHlo.after (hostOps1 (F := Ideal)) V (Proc.devRef .tc main_v209) (ix2 0 j) = (V (Proc.devRef .tc main_arg4)) (ix3 1 1 j) := by
  host_read hostOps1
  exact (Cert.GcnKernelHost.cast_b_1b_apply _ _ j).trans (slice3_vec_apply _ 1 1 _ _ j)

/-- Layer 1, relation 1: the weight matrix at (k, j). -/
theorem wts_1_1 (k j : Fin 128) :
    StableHlo.after (hostOps1 (F := Ideal)) V (Proc.devRef .tc main_v216) (ix2 k j) = (V (Proc.devRef .tc main_arg3)) (ix4 1 1 k j) := by
  host_read hostOps1
  exact slice4_mat_apply _ 1 1 _ _ k j

set_option maxHeartbeats 4000000 in
/-- Layer 1, relation 2: the aggregate of the source-scaled features at (p, k). -/
theorem agg_1_2 (p : Fin 50000) (k : Fin 128) :
    StableHlo.after (hostOps1 (F := Ideal)) V (Proc.devRef .tc main_v203) (ix2 p k)
      = Cert.GcnSpec.aggK (fun n k => (V (Proc.devRef .tc main_v146)) (ix2 n k)) (fun n => (V (Proc.devRef .tc main_v26)) (ix1 n))
          (fun e => LeadingAxis.clampRow 50000 (by decide) (normIdx (idxRow2 (V (Proc.devRef .tc main_arg1))) (ix1 e)))
          (fun e => (idxRow2 (V (Proc.devRef .tc main_arg2)) (ix1 e)).toInt) p k := by
  host_read hostOps1
  exact Cert.GcnKernelHost.agg_apply (N := 50000) (C := 128) (E := 800000) (by decide) _ _ _ _ _ _ _ _ _ _ _ p k

/-- Layer 1, relation 2: the bias row at (0, j). -/
theorem bias_1_2 (j : Fin 128) :
    StableHlo.after (hostOps1 (F := Ideal)) V (Proc.devRef .tc main_v212) (ix2 0 j) = (V (Proc.devRef .tc main_arg4)) (ix3 1 2 j) := by
  host_read hostOps1
  exact (Cert.GcnKernelHost.cast_b_1b_apply _ _ j).trans (slice3_vec_apply _ 1 2 _ _ j)

/-- Layer 1, relation 2: the weight matrix at (k, j). -/
theorem wts_1_2 (k j : Fin 128) :
    StableHlo.after (hostOps1 (F := Ideal)) V (Proc.devRef .tc main_v218) (ix2 k j) = (V (Proc.devRef .tc main_arg3)) (ix4 1 2 k j) := by
  host_read hostOps1
  exact slice4_mat_apply _ 1 2 _ _ k j

/-- Layer 1: the dense layer's weights at (j, q). -/
theorem fcW_1 (j q : Fin 128) :
    StableHlo.after (hostOps1 (F := Ideal)) V (Proc.devRef .tc main_v220) (ix2 j q) = (V (Proc.devRef .tc main_arg5)) (ix3 1 j q) := by
  host_read hostOps1
  exact slice3_mat_apply _ 1 _ _ j q

/-- Layer 1: the fcb row at (0, q). -/
theorem fcb_1 (q : Fin 128) :
    StableHlo.after (hostOps1 (F := Ideal)) V (Proc.devRef .tc main_v223) (ix2 0 q) = (V (Proc.devRef .tc main_arg6)) (ix2 1 q) := by
  host_read hostOps1
  exact (Cert.GcnKernelHost.cast_b_1b_apply _ _ q).trans (slice2_vec_apply _ 1 _ _ q)

/-- Layer 1: the gamma row at (0, q). -/
theorem gamma_1 (q : Fin 128) :
    StableHlo.after (hostOps1 (F := Ideal)) V (Proc.devRef .tc main_v226) (ix2 0 q) = (V (Proc.devRef .tc main_arg9)) (ix2 1 q) := by
  host_read hostOps1
  exact (Cert.GcnKernelHost.cast_b_1b_apply _ _ q).trans (slice2_vec_apply _ 1 _ _ q)

/-- Layer 1: the beta row at (0, q). -/
theorem beta_1 (q : Fin 128) :
    StableHlo.after (hostOps1 (F := Ideal)) V (Proc.devRef .tc main_v229) (ix2 0 q) = (V (Proc.devRef .tc main_arg10)) (ix2 1 q) := by
  host_read hostOps1
  exact (Cert.GcnKernelHost.cast_b_1b_apply _ _ q).trans (slice2_vec_apply _ 1 _ _ q)

/-- Layer 1: the mean row at (0, q). -/
theorem mean_1 (q : Fin 128) :
    StableHlo.after (hostOps1 (F := Ideal)) V (Proc.devRef .tc main_v232) (ix2 0 q) = (V (Proc.devRef .tc main_arg11)) (ix2 1 q) := by
  host_read hostOps1
  exact (Cert.GcnKernelHost.cast_b_1b_apply _ _ q).trans (slice2_vec_apply _ 1 _ _ q)

/-- Layer 1: the var row at (0, q). -/
theorem var_1 (q : Fin 128) :
    StableHlo.after (hostOps1 (F := Ideal)) V (Proc.devRef .tc main_v235) (ix2 0 q) = (V (Proc.devRef .tc main_arg12)) (ix2 1 q) := by
  host_read hostOps1
  exact (Cert.GcnKernelHost.cast_b_1b_apply _ _ q).trans (slice2_vec_apply _ 1 _ _ q)

theorem keep_hostOps1_main_v8 : StableHlo.after (hostOps1 (F := Ideal)) V (Proc.devRef .tc main_v8) = V (Proc.devRef .tc main_v8) := by
  host_read hostOps1

theorem keep_hostOps1_main_v17 : StableHlo.after (hostOps1 (F := Ideal)) V (Proc.devRef .tc main_v17) = V (Proc.devRef .tc main_v17) := by
  host_read hostOps1

theorem keep_hostOps1_main_v26 : StableHlo.after (hostOps1 (F := Ideal)) V (Proc.devRef .tc main_v26) = V (Proc.devRef .tc main_v26) := by
  host_read hostOps1

theorem keep_hostOps1_main_v54 : StableHlo.after (hostOps1 (F := Ideal)) V (Proc.devRef .tc main_v54) = V (Proc.devRef .tc main_v54) := by
  host_read hostOps1

theorem keep_hostOps1_main_v55 : StableHlo.after (hostOps1 (F := Ideal)) V (Proc.devRef .tc main_v55) = V (Proc.devRef .tc main_v55) := by
  host_read hostOps1

theorem keep_hostOps1_main_v56 : StableHlo.after (hostOps1 (F := Ideal)) V (Proc.devRef .tc main_v56) = V (Proc.devRef .tc main_v56) := by
  host_read hostOps1

theorem keep_hostOps1_main_arg1 : StableHlo.after (hostOps1 (F := Ideal)) V (Proc.devRef .tc main_arg1) = V (Proc.devRef .tc main_arg1) := by
  host_read hostOps1

theorem keep_hostOps1_main_arg2 : StableHlo.after (hostOps1 (F := Ideal)) V (Proc.devRef .tc main_arg2) = V (Proc.devRef .tc main_arg2) := by
  host_read hostOps1

theorem keep_hostOps1_main_arg3 : StableHlo.after (hostOps1 (F := Ideal)) V (Proc.devRef .tc main_arg3) = V (Proc.devRef .tc main_arg3) := by
  host_read hostOps1

theorem keep_hostOps1_main_arg4 : StableHlo.after (hostOps1 (F := Ideal)) V (Proc.devRef .tc main_arg4) = V (Proc.devRef .tc main_arg4) := by
  host_read hostOps1

theorem keep_hostOps1_main_arg5 : StableHlo.after (hostOps1 (F := Ideal)) V (Proc.devRef .tc main_arg5) = V (Proc.devRef .tc main_arg5) := by
  host_read hostOps1

theorem keep_hostOps1_main_arg6 : StableHlo.after (hostOps1 (F := Ideal)) V (Proc.devRef .tc main_arg6) = V (Proc.devRef .tc main_arg6) := by
  host_read hostOps1

theorem keep_hostOps1_main_arg7 : StableHlo.after (hostOps1 (F := Ideal)) V (Proc.devRef .tc main_arg7) = V (Proc.devRef .tc main_arg7) := by
  host_read hostOps1

theorem keep_hostOps1_main_arg8 : StableHlo.after (hostOps1 (F := Ideal)) V (Proc.devRef .tc main_arg8) = V (Proc.devRef .tc main_arg8) := by
  host_read hostOps1

theorem keep_hostOps1_main_arg9 : StableHlo.after (hostOps1 (F := Ideal)) V (Proc.devRef .tc main_arg9) = V (Proc.devRef .tc main_arg9) := by
  host_read hostOps1

theorem keep_hostOps1_main_arg10 : StableHlo.after (hostOps1 (F := Ideal)) V (Proc.devRef .tc main_arg10) = V (Proc.devRef .tc main_arg10) := by
  host_read hostOps1

theorem keep_hostOps1_main_arg11 : StableHlo.after (hostOps1 (F := Ideal)) V (Proc.devRef .tc main_arg11) = V (Proc.devRef .tc main_arg11) := by
  host_read hostOps1

theorem keep_hostOps1_main_arg12 : StableHlo.after (hostOps1 (F := Ideal)) V (Proc.devRef .tc main_arg12) = V (Proc.devRef .tc main_arg12) := by
  host_read hostOps1

end Cert.KernelIdeal.HostValue

end
-- ==== Proof.KernelHost2.lean ====
/-
  The host operations between the second and the third pallas_call, read at an entry for any contents V of the
  buffers after the second call: the three aggregates of layer 2 (of the second call's result) and the layer's parameter slices.
-/
import proofs.«147366_j4853313044733_2_alg».proof.Proof.Gen.KernelIdeal.Launch
import Idealize.ShloMosaic.Lib.StableHlo.Run
import proofs.«147366_j4853313044733_2_alg».proof.Proof.KernelHostLaws
import proofs.«147366_j4853313044733_2_alg».proof.Proof.KernelHostTerms
import proofs.«147366_j4853313044733_2_alg».proof.Proof.LibColumn

set_option maxRecDepth 16384

noncomputable section

namespace Cert.KernelIdeal.HostValue

open Cert.KernelIdeal Cert.KernelIdeal.Gen Cert.KernelIdeal.HostTerms Idealize.ShloMosaic Idealize.ShloMosaic.TcCoe Idealize.SL.Sem
  Idealize.ShloMosaic.StableHlo Idealize.ShloMosaic.ValueIdx Cert.GcnLayout

variable (V : Valuation τ sig (Elt Ideal))

local macro "host_read" ops:ident : tactic =>
  `(tactic| (dsimp only [$ops:ident]; after_results_simp))

set_option maxHeartbeats 4000000 in
/-- Layer 2, relation 0: the aggregate of the source-scaled features at (p, k). -/
theorem agg_2_0 (p : Fin 50000) (k : Fin 128) :
    StableHlo.after (hostOps2 (F := Ideal)) V (Proc.devRef .tc main_v255) (ix2 p k)
      = Cert.GcnSpec.aggK (fun n k => (V (Proc.devRef .tc main_v236)) (ix2 n k)) (fun n => (V (Proc.devRef .tc main_v8)) (ix1 n))
          (fun e => LeadingAxis.clampRow 50000 (by decide) (normIdx (idxRow0 (V (Proc.devRef .tc main_arg1))) (ix1 e)))
          (fun e => (idxRow0 (V (Proc.devRef .tc main_arg2)) (ix1 e)).toInt) p k := by
  host_read hostOps2
  exact Cert.GcnKernelHost.agg_apply (N := 50000) (C := 128) (E := 800000) (by decide) _ _ _ _ _ _ _ _ _ _ _ p k

/-- Layer 2, relation 0: the bias row at (0, j). -/
theorem bias_2_0 (j : Fin 128) :
    StableHlo.after (hostOps2 (F := Ideal)) V (Proc.devRef .tc main_v296) (ix2 0 j) = (V (Proc.devRef .tc main_arg4)) (ix3 2 0 j) := by
  host_read hostOps2
  exact (Cert.GcnKernelHost.cast_b_1b_apply _ _ j).trans (slice3_vec_apply _ 2 0 _ _ j)

/-- Layer 2, relation 0: the weight matrix at (k, j). -/
theorem wts_2_0 (k j : Fin 128) :
    StableHlo.after (hostOps2 (F := Ideal)) V (Proc.devRef .tc main_v304) (ix2 k j) = (V (Proc.devRef .tc main_arg3)) (ix4 2 0 k j) := by
  host_read hostOps2
  exact slice4_mat_apply _ 2 0 _ _ k j

set_option maxHeartbeats 4000000 in
/-- Layer 2, relation 1: the aggregate of the source-scaled features at (p, k). -/
theorem agg_2_1 (p : Fin 50000) (k : Fin 128) :
    StableHlo.after (hostOps2 (F := Ideal)) V (Proc.devRef .tc main_v274) (ix2 p k)
      = Cert.GcnSpec.aggK (fun n k => (V (Proc.devRef .tc main_v236)) (ix2 n k)) (fun n => (V (Proc.devRef .tc main_v17)) (ix1 n))
          (fun e => LeadingAxis.clampRow 50000 (by decide) (normIdx (idxRow1 (V (Proc.devRef .tc main_arg1))) (ix1 e)))
          (fun e => (idxRow1 (V (Proc.devRef .tc main_arg2)) (ix1 e)).toInt) p k := by
  host_read hostOps2
  exact Cert.GcnKernelHost.agg_apply (N := 50000) (C := 128) (E := 800000) (by decide) _ _ _ _ _ _ _ _ _ _ _ p k

/-- Layer 2, relation 1: the bias row at (0, j). -/
theorem bias_2_1 (j : Fin 128) :
    StableHlo.after (hostOps2 (F := Ideal)) V (Proc.devRef .tc main_v299) (ix2 0 j) = (V (Proc.devRef .tc main_arg4)) (ix3 2 1 j) := by
  host_read hostOps2
  exact (Cert.GcnKernelHost.cast_b_1b_apply _ _ j).trans (slice3_vec_apply _ 2 1 _ _ j)

/-- Layer 2, relation 1: the weight matrix at (k, j). -/
theorem wts_2_1 (k j : Fin 128) :
    StableHlo.after (hostOps2 (F := Ideal)) V (Proc.devRef .tc main_v306) (ix2 k j) = (V (Proc.devRef .tc main_arg3)) (ix4 2 1 k j) := by
  host_read hostOps2
  exact slice4_mat_apply _ 2 1 _ _ k j

set_option maxHeartbeats 4000000 in
/-- Layer 2, relation 2: the aggregate of the source-scaled features at (p, k). -/
theorem agg_2_2 (p : Fin 50000) (k : Fin 128) :
    StableHlo.after (hostOps2 (F := Ideal)) V (Proc.devRef .tc main_v293) (ix2 p k)
      = Cert.GcnSpec.aggK (fun n k => (V (Proc.devRef .tc main_v236)) (ix2 n k)) (fun n => (V (Proc.devRef .tc main_v26)) (ix1 n))
          (fun e => LeadingAxis.clampRow 50000 (by decide) (normIdx (idxRow2 (V (Proc.devRef .tc main_arg1))) (ix1 e)))
          (fun e => (idxRow2 (V (Proc.devRef .tc main_arg2)) (ix1 e)).toInt) p k := by
  host_read hostOps2
  exact Cert.GcnKernelHost.agg_apply (N := 50000) (C := 128) (E := 800000) (by decide) _ _ _ _ _ _ _ _ _ _ _ p k

/-- Layer 2, relation 2: the bias row at (0, j). -/
theorem bias_2_2 (j : Fin 128) :
    StableHlo.after (hostOps2 (F := Ideal)) V (Proc.devRef .tc main_v302) (ix2 0 j) = (V (Proc.devRef .tc main_arg4)) (ix3 2 2 j) := by
  host_read hostOps2
  exact (Cert.GcnKernelHost.cast_b_1b_apply _ _ j).trans (slice3_vec_apply _ 2 2 _ _ j)

/-- Layer 2, relation 2: the weight matrix at (k, j). -/
theorem wts_2_2 (k j : Fin 128) :
    StableHlo.after (hostOps2 (F := Ideal)) V (Proc.devRef .tc main_v308) (ix2 k j) = (V (Proc.devRef .tc main_arg3)) (ix4 2 2 k j) := by
  host_read hostOps2
  exact slice4_mat_apply _ 2 2 _ _ k j

/-- The last dense layer's bias, a vector [512] recast as a row, at (0, q). -/
theorem fcb_2 (q : Fin 512) :
    StableHlo.after (hostOps2 (F := Ideal)) V (Proc.devRef .tc main_v309) (ix2 0 q) = (V (Proc.devRef .tc main_arg8)) (ix1 q) := by
  host_read hostOps2
  exact Cert.GcnKernelHost.cast_b_1b_apply _ _ q

theorem keep_hostOps2_main_v8 : StableHlo.after (hostOps2 (F := Ideal)) V (Proc.devRef .tc main_v8) = V (Proc.devRef .tc main_v8) := by
  host_read hostOps2

theorem keep_hostOps2_main_v17 : StableHlo.after (hostOps2 (F := Ideal)) V (Proc.devRef .tc main_v17) = V (Proc.devRef .tc main_v17) := by
  host_read hostOps2

theorem keep_hostOps2_main_v26 : StableHlo.after (hostOps2 (F := Ideal)) V (Proc.devRef .tc main_v26) = V (Proc.devRef .tc main_v26) := by
  host_read hostOps2

theorem keep_hostOps2_main_v54 : StableHlo.after (hostOps2 (F := Ideal)) V (Proc.devRef .tc main_v54) = V (Proc.devRef .tc main_v54) := by
  host_read hostOps2

theorem keep_hostOps2_main_v55 : StableHlo.after (hostOps2 (F := Ideal)) V (Proc.devRef .tc main_v55) = V (Proc.devRef .tc main_v55) := by
  host_read hostOps2

theorem keep_hostOps2_main_v56 : StableHlo.after (hostOps2 (F := Ideal)) V (Proc.devRef .tc main_v56) = V (Proc.devRef .tc main_v56) := by
  host_read hostOps2

theorem keep_hostOps2_main_arg1 : StableHlo.after (hostOps2 (F := Ideal)) V (Proc.devRef .tc main_arg1) = V (Proc.devRef .tc main_arg1) := by
  host_read hostOps2

theorem keep_hostOps2_main_arg2 : StableHlo.after (hostOps2 (F := Ideal)) V (Proc.devRef .tc main_arg2) = V (Proc.devRef .tc main_arg2) := by
  host_read hostOps2

theorem keep_hostOps2_main_arg3 : StableHlo.after (hostOps2 (F := Ideal)) V (Proc.devRef .tc main_arg3) = V (Proc.devRef .tc main_arg3) := by
  host_read hostOps2

theorem keep_hostOps2_main_arg4 : StableHlo.after (hostOps2 (F := Ideal)) V (Proc.devRef .tc main_arg4) = V (Proc.devRef .tc main_arg4) := by
  host_read hostOps2

theorem keep_hostOps2_main_arg5 : StableHlo.after (hostOps2 (F := Ideal)) V (Proc.devRef .tc main_arg5) = V (Proc.devRef .tc main_arg5) := by
  host_read hostOps2

theorem keep_hostOps2_main_arg6 : StableHlo.after (hostOps2 (F := Ideal)) V (Proc.devRef .tc main_arg6) = V (Proc.devRef .tc main_arg6) := by
  host_read hostOps2

theorem keep_hostOps2_main_arg7 : StableHlo.after (hostOps2 (F := Ideal)) V (Proc.devRef .tc main_arg7) = V (Proc.devRef .tc main_arg7) := by
  host_read hostOps2

theorem keep_hostOps2_main_arg8 : StableHlo.after (hostOps2 (F := Ideal)) V (Proc.devRef .tc main_arg8) = V (Proc.devRef .tc main_arg8) := by
  host_read hostOps2

theorem keep_hostOps2_main_arg9 : StableHlo.after (hostOps2 (F := Ideal)) V (Proc.devRef .tc main_arg9) = V (Proc.devRef .tc main_arg9) := by
  host_read hostOps2

theorem keep_hostOps2_main_arg10 : StableHlo.after (hostOps2 (F := Ideal)) V (Proc.devRef .tc main_arg10) = V (Proc.devRef .tc main_arg10) := by
  host_read hostOps2

theorem keep_hostOps2_main_arg11 : StableHlo.after (hostOps2 (F := Ideal)) V (Proc.devRef .tc main_arg11) = V (Proc.devRef .tc main_arg11) := by
  host_read hostOps2

theorem keep_hostOps2_main_arg12 : StableHlo.after (hostOps2 (F := Ideal)) V (Proc.devRef .tc main_arg12) = V (Proc.devRef .tc main_arg12) := by
  host_read hostOps2

end Cert.KernelIdeal.HostValue

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«147366_j4853313044733_2_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.RegionBody.lean ====
/-
  One row block of a relational graph-convolution layer, read entry by entry on the extended reals.

  A block holds 2000 consecutive rows of the three aggregates A0, A1, A2 (128 columns each) and of the three
  destination-degree columns n0, n1, n2. For each relation the body scales the aggregate's row by the row's degree
  factor, rounds both operands to bf16 (the identity here) and multiplies by the relation's weights into a zero
  accumulator: entry (y, j) is  Σ_k (A(y,k)·n(y))·W(k,j). The three terms and the three bias rows are then added in
  the order  t0 + b0 + t1 + b1 + t2 + b2, the sum goes through a dense layer  Σ_j h(y,j)·Wfc(j,q) + fcb(q), and in a
  hidden layer through the rectifier and the batch normalisation  γ(q)·(max(·,0) − μ(q))·rsqrt(v(q) + ε) + β(q).
  Every entry (y, q) of the result reads row y of the block's aggregates and degree columns and nothing of any
  other row: this is what lets a block of rows be computed on its own.
-/
import proofs.«147366_j4853313044733_2_alg».proof.Proof.Gen.KernelIdeal.Skeleton
import proofs.«147366_j4853313044733_2_alg».proof.Proof.GcnSpec
import proofs.«147366_j4853313044733_2_alg».proof.Proof.LibRowProduct
import proofs.«147366_j4853313044733_2_alg».proof.Proof.LibColumn
import Idealize.ShloMosaic.Lib.ValueLayout

noncomputable section

namespace Cert.KernelIdeal.RegionValue

open Cert.KernelIdeal Cert.KernelIdeal.Gen Idealize.ShloMosaic Idealize.ShloMosaic.ValueIdx

/-- The block product's dimension numbers are the plain ones: rows by columns, no batch axis. -/
theorem dims_hidden : dot_S2000x128_S128x128_S2000x128_1_0_0_1_n_n = DotDims.plain 2000 128 128 := rfl

/-- The same for the last layer's wider dense product. -/
theorem dims_last : dot_S2000x128_S128x512_S2000x512_1_0_0_1_n_n = DotDims.plain 2000 128 512 := rfl

/-- One relation's term at (y, j): the aggregate's row y scaled by the row's degree factor, times the weights. -/
theorem rel_apply (x : Vec Ideal S2000x128 .f32) (n : Vec Ideal S2000x1 .f32) (w : Vec Ideal S128x128 .f32)
    (h1 : S2000x128.ShapeCasts S2000x128) (h2 : S2000x1.ShapeCasts S2000x1) (hb : S2000x1.Broadcasts S2000x128)
    (h3 : S128x128.ShapeCasts S128x128) (hlt : FTy.bf16.bits < FTy.f32.bits) (y : Fin 2000) (j : Fin 128) :
    (matmul (F := Ideal) dot_S2000x128_S128x128_S2000x128_1_0_0_1_n_n none
        (truncf .bf16 (mulf (shapeCast S2000x128 x h1 : FVec Ideal S2000x128 .f32)
          (broadcastTo S2000x128 (shapeCast S2000x1 n h2 : FVec Ideal S2000x1 .f32) hb)) hlt)
        (truncf .bf16 (shapeCast S128x128 w h3 : FVec Ideal S128x128 .f32) hlt)
        (constant S2000x128 .f32 0x00000000#32) : FVec Ideal S2000x128 .f32) (ix2 y j)
      = Cert.GcnSpec.relK (fun r k => x (ix2 r k)) (fun r => n (ix2 r 0)) (fun k c => w (ix2 k c)) y j := by
  rw [dims_hidden]
  refine (RowProduct.body_apply none _ _ hlt hlt y j).trans ?_
  unfold Cert.GcnSpec.relK
  refine Finset.sum_congr rfl fun k _ => ?_
  rw [mulf_apply, shapeCast_self, shapeCast_self, shapeCast_self, Column.broadcastTo_a1_ab_apply]

/-- The reciprocal square root, entry by entry. -/
theorem rsqrt_apply {s : Shape} {φ : FTy} (a : FVec Ideal s φ) (i : s.Idx) : rsqrt a i = Ideal.rsqrt (a i) := rfl

/-- A word read as a scalar is the extended real it encodes. -/
theorem scalar_ofBits (φ : FTy) (b : BitVec φ.bits) : Scalar.ofBits (F := Ideal) φ b = Ideal.ofBits φ b := rfl

/-- Entry (y, q) of a hidden layer's row block: the layer's formula on the block's own rows. -/
theorem hidden_apply (x0 x1 x2 : Vec Ideal S2000x128 .f32) (x3 x4 x5 : Vec Ideal S2000x1 .f32) (x6 x7 x8 : Vec Ideal S1x128 .f32)
    (x9 x10 x11 x12 : Vec Ideal S128x128 .f32) (x13 x14 x15 x16 x17 : Vec Ideal S1x128 .f32) (y : Fin 2000) (q : Fin 128) :
    k0_pay4 (k0_pay1 x2 x5) (k0_pay2 x11) (k0_pay3 x0 x3 x1 x4 x9 x10 x6) x7 x8 x12 x13 x17 x14 x16 x15 (ix2 y q)
      = Cert.GcnSpec.layerK (fun r k => x0 (ix2 r k)) (fun r k => x1 (ix2 r k)) (fun r k => x2 (ix2 r k))
          (fun r => x3 (ix2 r 0)) (fun r => x4 (ix2 r 0)) (fun r => x5 (ix2 r 0))
          (fun j => x6 (ix2 0 j)) (fun j => x7 (ix2 0 j)) (fun j => x8 (ix2 0 j))
          (fun k j => x9 (ix2 k j)) (fun k j => x10 (ix2 k j)) (fun k j => x11 (ix2 k j))
          (fun j c => x12 (ix2 j c)) (fun c => x13 (ix2 0 c))
          (fun c => x14 (ix2 0 c)) (fun c => x15 (ix2 0 c)) (fun c => x16 (ix2 0 c)) (fun c => x17 (ix2 0 c)) y q := by
  unfold k0_pay4 k0_pay3 k0_pay2 k0_pay1
  dsimp only
  simp only [addf_apply, mulf_apply, subf_apply, maximumf_apply, truncf_apply, broadcast_apply, rsqrt_apply, shapeCast_self,
    Column.broadcastTo_a1_ab_apply, broadcastTo_1b_ab_apply, dims_hidden, PlainDot.matmul_apply_ix2, scalar_ofBits,
    Ideal.ofBits_zero_f32]
  rfl

/-- The second hidden layer's body is the first's, word for word. -/
theorem hidden_apply' (x0 x1 x2 : Vec Ideal S2000x128 .f32) (x3 x4 x5 : Vec Ideal S2000x1 .f32) (x6 x7 x8 : Vec Ideal S1x128 .f32)
    (x9 x10 x11 x12 : Vec Ideal S128x128 .f32) (x13 x14 x15 x16 x17 : Vec Ideal S1x128 .f32) (y : Fin 2000) (q : Fin 128) :
    k1_pay4 (k1_pay1 x2 x5) (k1_pay2 x11) (k1_pay3 x0 x3 x1 x4 x9 x10 x6) x7 x8 x12 x13 x17 x14 x16 x15 (ix2 y q)
      = Cert.GcnSpec.layerK (fun r k => x0 (ix2 r k)) (fun r k => x1 (ix2 r k)) (fun r k => x2 (ix2 r k))
          (fun r => x3 (ix2 r 0)) (fun r => x4 (ix2 r 0)) (fun r => x5 (ix2 r 0))
          (fun j => x6 (ix2 0 j)) (fun j => x7 (ix2 0 j)) (fun j => x8 (ix2 0 j))
          (fun k j => x9 (ix2 k j)) (fun k j => x10 (ix2 k j)) (fun k j => x11 (ix2 k j))
          (fun j c => x12 (ix2 j c)) (fun c => x13 (ix2 0 c))
          (fun c => x14 (ix2 0 c)) (fun c => x15 (ix2 0 c)) (fun c => x16 (ix2 0 c)) (fun c => x17 (ix2 0 c)) y q :=
  hidden_apply x0 x1 x2 x3 x4 x5 x6 x7 x8 x9 x10 x11 x12 x13 x14 x15 x16 x17 y q

/-- Entry (y, q) of the last layer's row block: the three relation terms and biases, then the wide dense layer. -/
theorem last_apply (x0 x1 x2 : Vec Ideal S2000x128 .f32) (x3 x4 x5 : Vec Ideal S2000x1 .f32) (x6 x7 x8 : Vec Ideal S1x128 .f32)
    (x9 x10 x11 : Vec Ideal S128x128 .f32) (x12 : Vec Ideal S128x512 .f32) (x13 : Vec Ideal S1x512 .f32) (y : Fin 2000) (q : Fin 512) :
    k2_pay1 (k2_pay2 x2 x5) (k2_pay3 x11) (k2_pay4 x0 x3 x1 x4 x9 x10 x6) x7 x8 x12 x13 (ix2 y q)
      = Cert.GcnSpec.lastK (fun r k => x0 (ix2 r k)) (fun r k => x1 (ix2 r k)) (fun r k => x2 (ix2 r k))
          (fun r => x3 (ix2 r 0)) (fun r => x4 (ix2 r 0)) (fun r => x5 (ix2 r 0))
          (fun j => x6 (ix2 0 j)) (fun j => x7 (ix2 0 j)) (fun j => x8 (ix2 0 j))
          (fun k j => x9 (ix2 k j)) (fun k j => x10 (ix2 k j)) (fun k j => x11 (ix2 k j))
          (fun j c => x12 (ix2 j c)) (fun c => x13 (ix2 0 c)) y q := by
  unfold k2_pay1 k2_pay4 k2_pay3 k2_pay2
  dsimp only
  simp only [addf_apply, mulf_apply, truncf_apply, shapeCast_self,
    Column.broadcastTo_a1_ab_apply, broadcastTo_1b_ab_apply, dims_hidden, dims_last, PlainDot.matmul_apply_ix2]
  rfl

end Cert.KernelIdeal.RegionValue

end
-- ==== Proof.RegionCongr.lean ====
/-
  A layer's entry (p, q) reads row p of its three aggregates and of its three degree columns, and all of the
  small arrays (biases, weights, the dense layer, the normalisation's rows); nothing of any other row. So two
  families of arrays, possibly of different heights, that agree on one row each and on the small arrays give the
  same entry there. This is what identifies a block of rows, computed on its own, with the rows of the whole.
-/
import proofs.«147366_j4853313044733_2_alg».proof.Proof.GcnSpec

namespace Cert.KernelIdeal.RegionValue

open Cert.GcnSpec

variable {N N' H M : ℕ}

/-- The last layer's entry depends on one row of the aggregates and degree columns only. -/
theorem lastK_congr {A0 A1 A2 : Fin N → Fin H → EReal} {A0' A1' A2' : Fin N' → Fin H → EReal}
    {n0 n1 n2 : Fin N → EReal} {n0' n1' n2' : Fin N' → EReal} {b0 b1 b2 b0' b1' b2' : Fin H → EReal}
    {W0 W1 W2 W0' W1' W2' : Fin H → Fin H → EReal} {Wfc Wfc' : Fin H → Fin M → EReal} {fcb fcb' : Fin M → EReal}
    (p : Fin N) (p' : Fin N') (q q' : Fin M) (hq : q = q')
    (hA0 : ∀ k, A0 p k = A0' p' k) (hA1 : ∀ k, A1 p k = A1' p' k) (hA2 : ∀ k, A2 p k = A2' p' k)
    (hn0 : n0 p = n0' p') (hn1 : n1 p = n1' p') (hn2 : n2 p = n2' p')
    (hb0 : ∀ j, b0 j = b0' j) (hb1 : ∀ j, b1 j = b1' j) (hb2 : ∀ j, b2 j = b2' j)
    (hW0 : ∀ k j, W0 k j = W0' k j) (hW1 : ∀ k j, W1 k j = W1' k j) (hW2 : ∀ k j, W2 k j = W2' k j)
    (hWfc : ∀ j c, Wfc j c = Wfc' j c) (hfcb : ∀ c, fcb c = fcb' c) :
    lastK A0 A1 A2 n0 n1 n2 b0 b1 b2 W0 W1 W2 Wfc fcb p q
      = lastK A0' A1' A2' n0' n1' n2' b0' b1' b2' W0' W1' W2' Wfc' fcb' p' q' := by
  subst hq
  obtain rfl : b0 = b0' := funext hb0
  obtain rfl : b1 = b1' := funext hb1
  obtain rfl : b2 = b2' := funext hb2
  obtain rfl : W0 = W0' := funext fun k => funext (hW0 k)
  obtain rfl : W1 = W1' := funext fun k => funext (hW1 k)
  obtain rfl : W2 = W2' := funext fun k => funext (hW2 k)
  obtain rfl : Wfc = Wfc' := funext fun j => funext (hWfc j)
  obtain rfl : fcb = fcb' := funext hfcb
  simp only [lastK, relK, hA0, hA1, hA2, hn0, hn1, hn2]

/-- A hidden layer's entry likewise: the rectifier and the normalisation act entry by entry on the last layer's form. -/
theorem layerK_congr {A0 A1 A2 : Fin N → Fin H → EReal} {A0' A1' A2' : Fin N' → Fin H → EReal}
    {n0 n1 n2 : Fin N → EReal} {n0' n1' n2' : Fin N' → EReal} {b0 b1 b2 b0' b1' b2' : Fin H → EReal}
    {W0 W1 W2 W0' W1' W2' : Fin H → Fin H → EReal} {Wfc Wfc' : Fin H → Fin M → EReal}
    {fcb γ β μ v fcb' γ' β' μ' v' : Fin M → EReal}
    (p : Fin N) (p' : Fin N') (q q' : Fin M) (hq : q = q')
    (hA0 : ∀ k, A0 p k = A0' p' k) (hA1 : ∀ k, A1 p k = A1' p' k) (hA2 : ∀ k, A2 p k = A2' p' k)
    (hn0 : n0 p = n0' p') (hn1 : n1 p = n1' p') (hn2 : n2 p = n2' p')
    (hb0 : ∀ j, b0 j = b0' j) (hb1 : ∀ j, b1 j = b1' j) (hb2 : ∀ j, b2 j = b2' j)
    (hW0 : ∀ k j, W0 k j = W0' k j) (hW1 : ∀ k j, W1 k j = W1' k j) (hW2 : ∀ k j, W2 k j = W2' k j)
    (hWfc : ∀ j c, Wfc j c = Wfc' j c) (hfcb : ∀ c, fcb c = fcb' c)
    (hγ : ∀ c, γ c = γ' c) (hβ : ∀ c, β c = β' c) (hμ : ∀ c, μ c = μ' c) (hv : ∀ c, v c = v' c) :
    layerK A0 A1 A2 n0 n1 n2 b0 b1 b2 W0 W1 W2 Wfc fcb γ β μ v p q
      = layerK A0' A1' A2' n0' n1' n2' b0' b1' b2' W0' W1' W2' Wfc' fcb' γ' β' μ' v' p' q' := by
  have h := lastK_congr p p' q q' hq hA0 hA1 hA2 hn0 hn1 hn2 hb0 hb1 hb2 hW0 hW1 hW2 hWfc hfcb
  subst hq
  unfold lastK at h
  unfold layerK
  rw [h, hγ, hβ, hμ, hv]

end Cert.KernelIdeal.RegionValue
-- ==== Proof.RegionIndex.lean ====
/-
  Where each window's block sits, for the three layers' calls. The grid has 25 points; at point t a row-tiled window
  (a block of 2000 rows: the three aggregates, the three degree columns, the result) is at block row t and block
  column 0, so it holds rows 2000·t … 2000·t + 1999 of its array, all columns; a resident window (biases, weights,
  the dense layer, the normalisation's rows) is at block (0, 0) at every point: its one block is its whole array.
  Each fact is decided over the 25 points.
-/
import proofs.«147366_j4853313044733_2_alg».proof.Proof.Gen.KernelIdeal

namespace Cert.KernelIdeal.RegionValue

open Cert.KernelIdeal Idealize.ShloMosaic

/-! ## The first hidden layer's call -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = t.val ∧ win0_18.index t (1 : Fin 2) = 0 :=
  (by decide +kernel : ∀ t : Fin grid0.N, _)

/-! ## The second hidden layer's call -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = 0 ∧ win1_16.index t (1 : Fin 2) = 0 :=
  (by decide +kernel : ∀ t : Fin grid1.N, _)
theorem idx1_17 : ∀ t : Fin cfg1.N, win1_17.index t (0 : Fin 2) = 0 ∧ win1_17.index t (1 : Fin 2) = 0 :=
  (by decide +kernel : ∀ t : Fin grid1.N, _)
theorem idx1_18 : ∀ t : Fin cfg1.N, win1_18.index t (0 : Fin 2) = t.val ∧ win1_18.index t (1 : Fin 2) = 0 :=
  (by decide +kernel : ∀ t : Fin grid1.N, _)

/-! ## The last layer's call -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 2) = 0 ∧ win2_13.index t (1 : Fin 2) = 0 :=
  (by decide +kernel : ∀ t : Fin grid2.N, _)
theorem idx2_14 : ∀ t : Fin cfg2.N, win2_14.index t (0 : Fin 2) = t.val ∧ win2_14.index t (1 : Fin 2) = 0 :=
  (by decide +kernel : ∀ t : Fin grid2.N, _)

end Cert.KernelIdeal.RegionValue
-- ==== Proof.RegionWindows0.lean ====
/-
  The first hidden layer's input blocks as entries of the whole arrays. At grid point t the block of a row-tiled window,
  read at (r, k), is the array's entry (2000·t + r, k); the block of a resident window, read at (r, k), is the
  array's entry (r, k). Each is the block's embedding computed per axis: block index × block size + the coordinate
  inside the block, with the block index from the decided index maps.
-/
import proofs.«147366_j4853313044733_2_alg».proof.Proof.RegionIndex
import Idealize.ShloMosaic.Lib.ValueIdx
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx

variable (V : (c : Dev nD) → (b : Ref sig .tc) → Buf (Elt Ideal) ((c : Thread nD τ).loc b))

theorem win0_0_apply (c : Dev nD) (t : Fin cfg0.N) (r : Fin 2000) (k : Fin 128) (p : Fin 50000) (hp : p.val = t.val * 2000 + r.val) :
    (((cfg0.win 0).blk t).view.read (Elt Ideal) (V c (Pipeline.arrRef spec0 0)) : Vec Ideal S2000x128 .f32) (ix2 r k)
      = (V c main_v75 : S50000x128.Idx → EReal) (ix2 p k) := by
  obtain ⟨e0, e1⟩ := idx0_0 t
  show V c main_v75 (((cfg0.win 0).blk t).view.emb (ix2 r k)) = _
  refine congrArg _ (funext fun a => Fin.ext ?_)
  match a with
  | ⟨0, _⟩ => show win0_0.index t 0 * 2000 + 1 * r.val = p.val; rw [e0, hp]; omega
  | ⟨1, _⟩ => show win0_0.index t 1 * 128 + 1 * k.val = k.val; rw [e1]; omega

theorem win0_1_apply (c : Dev nD) (t : Fin cfg0.N) (r : Fin 2000) (k : Fin 128) (p : Fin 50000) (hp : p.val = t.val * 2000 + r.val) :
    (((cfg0.win 1).blk t).view.read (Elt Ideal) (V c (Pipeline.arrRef spec0 1)) : Vec Ideal S2000x128 .f32) (ix2 r k)
      = (V c main_v94 : S50000x128.Idx → EReal) (ix2 p k) := by
  obtain ⟨e0, e1⟩ := idx0_1 t
  show V c main_v94 (((cfg0.win 1).blk t).view.emb (ix2 r k)) = _
  refine congrArg _ (funext fun a => Fin.ext ?_)
  match a with
  | ⟨0, _⟩ => show win0_1.index t 0 * 2000 + 1 * r.val = p.val; rw [e0, hp]; omega
  | ⟨1, _⟩ => show win0_1.index t 1 * 128 + 1 * k.val = k.val; rw [e1]; omega

theorem win0_2_apply (c : Dev nD) (t : Fin cfg0.N) (r : Fin 2000) (k : Fin 128) (p : Fin 50000) (hp : p.val = t.val * 2000 + r.val) :
    (((cfg0.win 2).blk t).view.read (Elt Ideal) (V c (Pipeline.arrRef spec0 2)) : Vec Ideal S2000x128 .f32) (ix2 r k)
      = (V c main_v113 : S50000x128.Idx → EReal) (ix2 p k) := by
  obtain ⟨e0, e1⟩ := idx0_2 t
  show V c main_v113 (((cfg0.win 2).blk t).view.emb (ix2 r k)) = _
  refine congrArg _ (funext fun a => Fin.ext ?_)
  match a with
  | ⟨0, _⟩ => show win0_2.index t 0 * 2000 + 1 * r.val = p.val; rw [e0, hp]; omega
  | ⟨1, _⟩ => show win0_2.index t 1 * 128 + 1 * k.val = k.val; rw [e1]; omega

theorem win0_3_apply (c : Dev nD) (t : Fin cfg0.N) (r : Fin 2000) (k : Fin 1) (p : Fin 50000) (hp : p.val = t.val * 2000 + r.val) :
    (((cfg0.win 3).blk t).view.read (Elt Ideal) (V c (Pipeline.arrRef spec0 3)) : Vec Ideal S2000x1 .f32) (ix2 r k)
      = (V c main_v54 : S50000x1.Idx → EReal) (ix2 p k) := by
  obtain ⟨e0, e1⟩ := idx0_3 t
  show V c main_v54 (((cfg0.win 3).blk t).view.emb (ix2 r k)) = _
  refine congrArg _ (funext fun a => Fin.ext ?_)
  match a with
  | ⟨0, _⟩ => show win0_3.index t 0 * 2000 + 1 * r.val = p.val; rw [e0, hp]; omega
  | ⟨1, _⟩ => show win0_3.index t 1 * 1 + 1 * k.val = k.val; rw [e1]; omega

theorem win0_4_apply (c : Dev nD) (t : Fin cfg0.N) (r : Fin 2000) (k : Fin 1) (p : Fin 50000) (hp : p.val = t.val * 2000 + r.val) :
    (((cfg0.win 4).blk t).view.read (Elt Ideal) (V c (Pipeline.arrRef spec0 4)) : Vec Ideal S2000x1 .f32) (ix2 r k)
      = (V c main_v55 : S50000x1.Idx → EReal) (ix2 p k) := by
  obtain ⟨e0, e1⟩ := idx0_4 t
  show V c main_v55 (((cfg0.win 4).blk t).view.emb (ix2 r k)) = _
  refine congrArg _ (funext fun a => Fin.ext ?_)
  match a with
  | ⟨0, _⟩ => show win0_4.index t 0 * 2000 + 1 * r.val = p.val; rw [e0, hp]; omega
  | ⟨1, _⟩ => show win0_4.index t 1 * 1 + 1 * k.val = k.val; rw [e1]; omega

theorem win0_5_apply (c : Dev nD) (t : Fin cfg0.N) (r : Fin 2000) (k : Fin 1) (p : Fin 50000) (hp : p.val = t.val * 2000 + r.val) :
    (((cfg0.win 5).blk t).view.read (Elt Ideal) (V c (Pipeline.arrRef spec0 5)) : Vec Ideal S2000x1 .f32) (ix2 r k)
      = (V c main_v56 : S50000x1.Idx → EReal) (ix2 p k) := by
  obtain ⟨e0, e1⟩ := idx0_5 t
  show V c main_v56 (((cfg0.win 5).blk t).view.emb (ix2 r k)) = _
  refine congrArg _ (funext fun a => Fin.ext ?_)
  match a with
  | ⟨0, _⟩ => show win0_5.index t 0 * 2000 + 1 * r.val = p.val; rw [e0, hp]; omega
  | ⟨1, _⟩ => show win0_5.index t 1 * 1 + 1 * k.val = k.val; rw [e1]; omega

theorem win0_6_apply (c : Dev nD) (t : Fin cfg0.N) (r : Fin 1) (k : Fin 128) :
    (((cfg0.win 6).blk t).view.read (Elt Ideal) (V c (Pipeline.arrRef spec0 6)) : Vec Ideal S1x128 .f32) (ix2 r k)
      = (V c main_v116 : S1x128.Idx → EReal) (ix2 r k) := by
  obtain ⟨e0, e1⟩ := idx0_6 t
  show V c main_v116 (((cfg0.win 6).blk t).view.emb (ix2 r k)) = _
  refine congrArg _ (funext fun a => Fin.ext ?_)
  match a with
  | ⟨0, _⟩ => show win0_6.index t 0 * 1 + 1 * r.val = r.val; rw [e0]; omega
  | ⟨1, _⟩ => show win0_6.index t 1 * 128 + 1 * k.val = k.val; rw [e1]; omega

theorem win0_7_apply (c : Dev nD) (t : Fin cfg0.N) (r : Fin 1) (k : Fin 128) :
    (((cfg0.win 7).blk t).view.read (Elt Ideal) (V c (Pipeline.arrRef spec0 7)) : Vec Ideal S1x128 .f32) (ix2 r k)
      = (V c main_v119 : S1x128.Idx → EReal) (ix2 r k) := by
  obtain ⟨e0, e1⟩ := idx0_7 t
  show V c main_v119 (((cfg0.win 7).blk t).view.emb (ix2 r k)) = _
  refine congrArg _ (funext fun a => Fin.ext ?_)
  match a with
  | ⟨0, _⟩ => show win0_7.index t 0 * 1 + 1 * r.val = r.val; rw [e0]; omega
  | ⟨1, _⟩ => show win0_7.index t 1 * 128 + 1 * k.val = k.val; rw [e1]; omega

theorem win0_8_apply (c : Dev nD) (t : Fin cfg0.N) (r : Fin 1) (k : Fin 128) :
    (((cfg0.win 8).blk t).view.read (Elt Ideal) (V c (Pipeline.arrRef spec0 8)) : Vec Ideal S1x128 .f32) (ix2 r k)
      = (V c main_v122 : S1x128.Idx → EReal) (ix2 r k) := by
  obtain ⟨e0, e1⟩ := idx0_8 t
  show V c main_v122 (((cfg0.win 8).blk t).view.emb (ix2 r k)) = _
  refine congrArg _ (funext fun a => Fin.ext ?_)
  match a with
  | ⟨0, _⟩ => show win0_8.index t 0 * 1 + 1 * r.val = r.val; rw [e0]; omega
  | ⟨1, _⟩ => show win0_8.index t 1 * 128 + 1 * k.val = k.val; rw [e1]; omega

theorem win0_9_apply (c : Dev nD) (t : Fin cfg0.N) (r : Fin 128) (k : Fin 128) :
    (((cfg0.win 9).blk t).view.read (Elt Ideal) (V c (Pipeline.arrRef spec0 9)) : Vec Ideal S128x128 .f32) (ix2 r k)
      = (V c main_v124 : S128x128.Idx → EReal) (ix2 r k) := by
  obtain ⟨e0, e1⟩ := idx0_9 t
  show V c main_v124 (((cfg0.win 9).blk t).view.emb (ix2 r k)) = _
  refine congrArg _ (funext fun a => Fin.ext ?_)
  match a with
  | ⟨0, _⟩ => show win0_9.index t 0 * 128 + 1 * r.val = r.val; rw [e0]; omega
  | ⟨1, _⟩ => show win0_9.index t 1 * 128 + 1 * k.val = k.val; rw [e1]; omega

theorem win0_10_apply (c : Dev nD) (t : Fin cfg0.N) (r : Fin 128) (k : Fin 128) :
    (((cfg0.win 10).blk t).view.read (Elt Ideal) (V c (Pipeline.arrRef spec0 10)) : Vec Ideal S128x128 .f32) (ix2 r k)
      = (V c main_v126 : S128x128.Idx → EReal) (ix2 r k) := by
  obtain ⟨e0, e1⟩ := idx0_10 t
  show V c main_v126 (((cfg0.win 10).blk t).view.emb (ix2 r k)) = _
  refine congrArg _ (funext fun a => Fin.ext ?_)
  match a with
  | ⟨0, _⟩ => show win0_10.index t 0 * 128 + 1 * r.val = r.val; rw [e0]; omega
  | ⟨1, _⟩ => show win0_10.index t 1 * 128 + 1 * k.val = k.val; rw [e1]; omega

theorem win0_11_apply (c : Dev nD) (t : Fin cfg0.N) (r : Fin 128) (k : Fin 128) :
    (((cfg0.win 11).blk t).view.read (Elt Ideal) (V c (Pipeline.arrRef spec0 11)) : Vec Ideal S128x128 .f32) (ix2 r k)
      = (V c main_v128 : S128x128.Idx → EReal) (ix2 r k) := by
  obtain ⟨e0, e1⟩ := idx0_11 t
  show V c main_v128 (((cfg0.win 11).blk t).view.emb (ix2 r k)) = _
  refine congrArg _ (funext fun a => Fin.ext ?_)
  match a with
  | ⟨0, _⟩ => show win0_11.index t 0 * 128 + 1 * r.val = r.val; rw [e0]; omega
  | ⟨1, _⟩ => show win0_11.index t 1 * 128 + 1 * k.val = k.val; rw [e1]; omega

theorem win0_12_apply (c : Dev nD) (t : Fin cfg0.N) (r : Fin 128) (k : Fin 128) :
    (((cfg0.win 12).blk t).view.read (Elt Ideal) (V c (Pipeline.arrRef spec0 12)) : Vec Ideal S128x128 .f32) (ix2 r k)
      = (V c main_v130 : S128x128.Idx → EReal) (ix2 r k) := by
  obtain ⟨e0, e1⟩ := idx0_12 t
  show V c main_v130 (((cfg0.win 12).blk t).view.emb (ix2 r k)) = _
  refine congrArg _ (funext fun a => Fin.ext ?_)
  match a with
  | ⟨0, _⟩ => show win0_12.index t 0 * 128 + 1 * r.val = r.val; rw [e0]; omega
  | ⟨1, _⟩ => show win0_12.index t 1 * 128 + 1 * k.val = k.val; rw [e1]; omega

theorem win0_13_apply (c : Dev nD) (t : Fin cfg0.N) (r : Fin 1) (k : Fin 128) :
    (((cfg0.win 13).blk t).view.read (Elt Ideal) (V c (Pipeline.arrRef spec0 13)) : Vec Ideal S1x128 .f32) (ix2 r k)
      = (V c main_v133 : S1x128.Idx → EReal) (ix2 r k) := by
  obtain ⟨e0, e1⟩ := idx0_13 t
  show V c main_v133 (((cfg0.win 13).blk t).view.emb (ix2 r k)) = _
  refine congrArg _ (funext fun a => Fin.ext ?_)
  match a with
  | ⟨0, _⟩ => show win0_13.index t 0 * 1 + 1 * r.val = r.val; rw [e0]; omega
  | ⟨1, _⟩ => show win0_13.index t 1 * 128 + 1 * k.val = k.val; rw [e1]; omega

theorem win0_14_apply (c : Dev nD) (t : Fin cfg0.N) (r : Fin 1) (k : Fin 128) :
    (((cfg0.win 14).blk t).view.read (Elt Ideal) (V c (Pipeline.arrRef spec0 14)) : Vec Ideal S1x128 .f32) (ix2 r k)
      = (V c main_v136 : S1x128.Idx → EReal) (ix2 r k) := by
  obtain ⟨e0, e1⟩ := idx0_14 t
  show V c main_v136 (((cfg0.win 14).blk t).view.emb (ix2 r k)) = _
  refine congrArg _ (funext fun a => Fin.ext ?_)
  match a with
  | ⟨0, _⟩ => show win0_14.index t 0 * 1 + 1 * r.val = r.val; rw [e0]; omega
  | ⟨1, _⟩ => show win0_14.index t 1 * 128 + 1 * k.val = k.val; rw [e1]; omega

theorem win0_15_apply (c : Dev nD) (t : Fin cfg0.N) (r : Fin 1) (k : Fin 128) :
    (((cfg0.win 15).blk t).view.read (Elt Ideal) (V c (Pipeline.arrRef spec0 15)) : Vec Ideal S1x128 .f32) (ix2 r k)
      = (V c main_v139 : S1x128.Idx → EReal) (ix2 r k) := by
  obtain ⟨e0, e1⟩ := idx0_15 t
  show V c main_v139 (((cfg0.win 15).blk t).view.emb (ix2 r k)) = _
  refine congrArg _ (funext fun a => Fin.ext ?_)
  match a with
  | ⟨0, _⟩ => show win0_15.index t 0 * 1 + 1 * r.val = r.val; rw [e0]; omega
  | ⟨1, _⟩ => show win0_15.index t 1 * 128 + 1 * k.val = k.val; rw [e1]; omega

theorem win0_16_apply (c : Dev nD) (t : Fin cfg0.N) (r : Fin 1) (k : Fin 128) :
    (((cfg0.win 16).blk t).view.read (Elt Ideal) (V c (Pipeline.arrRef spec0 16)) : Vec Ideal S1x128 .f32) (ix2 r k)
      = (V c main_v142 : S1x128.Idx → EReal) (ix2 r k) := by
  obtain ⟨e0, e1⟩ := idx0_16 t
  show V c main_v142 (((cfg0.win 16).blk t).view.emb (ix2 r k)) = _
  refine congrArg _ (funext fun a => Fin.ext ?_)
  match a with
  | ⟨0, _⟩ => show win0_16.index t 0 * 1 + 1 * r.val = r.val; rw [e0]; omega
  | ⟨1, _⟩ => show win0_16.index t 1 * 128 + 1 * k.val = k.val; rw [e1]; omega

theorem win0_17_apply (c : Dev nD) (t : Fin cfg0.N) (r : Fin 1) (k : Fin 128) :
    (((cfg0.win 17).blk t).view.read (Elt Ideal) (V c (Pipeline.arrRef spec0 17)) : Vec Ideal S1x128 .f32) (ix2 r k)
      = (V c main_v145 : S1x128.Idx → EReal) (ix2 r k) := by
  obtain ⟨e0, e1⟩ := idx0_17 t
  show V c main_v145 (((cfg0.win 17).blk t).view.emb (ix2 r k)) = _
  refine congrArg _ (funext fun a => Fin.ext ?_)
  match a with
  | ⟨0, _⟩ => show win0_17.index t 0 * 1 + 1 * r.val = r.val; rw [e0]; omega
  | ⟨1, _⟩ => show win0_17.index t 1 * 128 + 1 * k.val = k.val; rw [e1]; omega

end Cert.KernelIdeal.RegionValue

end
-- ==== Proof.LibWholeStore.lean ====
/-
  A store through the rectangle of the whole shape at zero offsets, made last, leaves its payload at every index,
  whatever the buffer held and whatever the earlier stores were: every index lies in that rectangle, at its own position.
-/
import Idealize.ShloMosaic.Lib.WritesUnit

namespace Idealize.ShloMosaic.View

variable {sig : RefSig} {κ : Kind} {sp : Space} {S : Shape} {e : EltTy} {Val : EltTy → Type}

/-- Reading back a buffer whose newest store covers the whole shape from offset zero gives that store's payload. -/
theorem read_writes_cons_whole (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  funext y
  exact read_writes_cons_unit_of_mem v f inb w L y y h fun a => (Nat.zero_add _).symm

/-- The two-dimensional zero offsets, however spelt, are the constant zero. -/
theorem zero2 : (![0, 0] : Fin 2 → Nat) = fun _ => 0 := funext fun a => by fin_cases a <;> rfl

end Idealize.ShloMosaic.View
-- ==== Proof.RegionValue0.lean ====
/-
  The first hidden layer's call, read as a value, for any contents of the arrays when the call is entered.

  The call runs 25 grid points; point t stages rows 2000·t … 2000·t + 1999 of the three aggregates and of the three
  destination-degree columns, and the small arrays whole, computes the layer on that block of rows, and writes the
  block back to the same rows of the result. A layer's entry (p, q) reads row p of the aggregates and of the degree
  columns and nothing of any other row, so what point t writes back is block t of ONE function of the whole arrays
  — the layer's formula at every (p, q) — and since the 25 blocks cover all 50000 rows, the result array ends
  holding exactly that function.
-/
import proofs.«147366_j4853313044733_2_alg».proof.Proof.KernelIdealFrame
import proofs.«147366_j4853313044733_2_alg».proof.Proof.RegionBody
import proofs.«147366_j4853313044733_2_alg».proof.Proof.RegionCongr
import proofs.«147366_j4853313044733_2_alg».proof.Proof.RegionWindows0
import proofs.«147366_j4853313044733_2_alg».proof.Proof.LibWholeStore
import Idealize.ShloMosaic.Lib.Pipeline.Value

set_option maxRecDepth 16384

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Layer 1's result as ONE function of the arrays its call finds: entry i. -/
def layer0 (c : Dev nD) : S50000x128.Idx → EReal := fun i =>
  Cert.GcnSpec.layerK
    (fun n k => V c main_v75 (ix2 n k))
    (fun n k => V c main_v94 (ix2 n k))
    (fun n k => V c main_v113 (ix2 n k))
    (fun n => V c main_v54 (ix2 n 0))
    (fun n => V c main_v55 (ix2 n 0))
    (fun n => V c main_v56 (ix2 n 0))
    (fun j => V c main_v116 (ix2 0 j))
    (fun j => V c main_v119 (ix2 0 j))
    (fun j => V c main_v122 (ix2 0 j))
    (fun k j => V c main_v124 (ix2 k j))
    (fun k j => V c main_v126 (ix2 k j))
    (fun k j => V c main_v128 (ix2 k j))
    (fun j q => V c main_v130 (ix2 j q))
    (fun q => V c main_v133 (ix2 0 q))
    (fun q => V c main_v136 (ix2 0 q))
    (fun q => V c main_v139 (ix2 0 q))
    (fun q => V c main_v142 (ix2 0 q))
    (fun q => V c main_v145 (ix2 0 q))
    ⟨(i 0).val, idx2_lt0 i⟩ ⟨(i 1).val, idx2_lt1 i⟩

theorem layer0_apply (c : Dev nD) (i : S50000x128.Idx) : layer0 V c i = Cert.GcnSpec.layerK
    (fun n k => V c main_v75 (ix2 n k))
    (fun n k => V c main_v94 (ix2 n k))
    (fun n k => V c main_v113 (ix2 n k))
    (fun n => V c main_v54 (ix2 n 0))
    (fun n => V c main_v55 (ix2 n 0))
    (fun n => V c main_v56 (ix2 n 0))
    (fun j => V c main_v116 (ix2 0 j))
    (fun j => V c main_v119 (ix2 0 j))
    (fun j => V c main_v122 (ix2 0 j))
    (fun k j => V c main_v124 (ix2 k j))
    (fun k j => V c main_v126 (ix2 k j))
    (fun k j => V c main_v128 (ix2 k j))
    (fun j q => V c main_v130 (ix2 j q))
    (fun q => V c main_v133 (ix2 0 q))
    (fun q => V c main_v136 (ix2 0 q))
    (fun q => V c main_v139 (ix2 0 q))
    (fun q => V c main_v142 (ix2 0 q))
    (fun q => V c main_v145 (ix2 0 q))
    ⟨(i 0).val, idx2_lt0 i⟩ ⟨(i 1).val, idx2_lt1 i⟩ := rfl

/-- What the body leaves in the output block is one function of the input blocks: the layer's formula on the block's rows
    (the one store covers the block from offset zero; each load reads a whole block). -/
theorem out0_eq (x0 : Vec Ideal S2000x128 .f32) (x1 : Vec Ideal S2000x128 .f32) (x2 : Vec Ideal S2000x128 .f32) (x3 : Vec Ideal S2000x1 .f32) (x4 : Vec Ideal S2000x1 .f32) (x5 : Vec Ideal S2000x1 .f32) (x6 : Vec Ideal S1x128 .f32) (x7 : Vec Ideal S1x128 .f32) (x8 : Vec Ideal S1x128 .f32) (x9 : Vec Ideal S128x128 .f32) (x10 : Vec Ideal S128x128 .f32) (x11 : Vec Ideal S128x128 .f32) (x12 : Vec Ideal S128x128 .f32) (x13 : Vec Ideal S1x128 .f32) (x14 : Vec Ideal S1x128 .f32) (x15 : Vec Ideal S1x128 .f32) (x16 : Vec Ideal S1x128 .f32) (x17 : Vec Ideal S1x128 .f32) :
    out0_18 x0 x1 x2 x3 x4 x5 x6 x7 x8 x9 x10 x11 x12 x13 x14 x15 x16 x17 = fun j : S2000x128.Idx => Cert.GcnSpec.layerK
      (fun r k => x0 (ix2 r k))
      (fun r k => x1 (ix2 r k))
      (fun r k => x2 (ix2 r k))
      (fun r => x3 (ix2 r 0))
      (fun r => x4 (ix2 r 0))
      (fun r => x5 (ix2 r 0))
      (fun j => x6 (ix2 0 j))
      (fun j => x7 (ix2 0 j))
      (fun j => x8 (ix2 0 j))
      (fun k j => x9 (ix2 k j))
      (fun k j => x10 (ix2 k j))
      (fun k j => x11 (ix2 k j))
      (fun j q => x12 (ix2 j q))
      (fun q => x13 (ix2 0 q))
      (fun q => x14 (ix2 0 q))
      (fun q => x15 (ix2 0 q))
      (fun q => x16 (ix2 0 q))
      (fun q => x17 (ix2 0 q))
      ⟨(j 0).val, idx2_lt0 j⟩ ⟨(j 1).val, idx2_lt1 j⟩ := by
  unfold out0_18
  rw [View.canon_unit_zero View.zero2]
  simp only [View.ld_unit_zero (S := S2000x128) View.zero2, View.ld_unit_zero (S := S2000x1) View.zero2, View.ld_unit_zero (S := S128x128) View.zero2, View.ld_unit_zero (S := S1x128) View.zero2]
  funext j
  obtain ⟨y, q, rfl⟩ : ∃ (y : Fin 2000) (q : Fin 128), j = ix2 y q := ⟨j 0, j 1, eq_ix2 j⟩
  exact hidden_apply x0 x1 x2 x3 x4 x5 x6 x7 x8 x9 x10 x11 x12 x13 x14 x15 x16 x17 y q

/-- What grid point t writes back is block t of that one function of the whole arrays: row r of the block is row
    2000·t + r of the array, and the layer's entry there reads that row of the aggregates and degree columns only. -/
theorem flushed0_eq (c : Dev nD) (t : Fin cfg0.N) :
    (dat0 (F := Ideal) V c).flushed 18 t = ((cfg0.win 18).blk t).view.read (Elt Ideal) (layer0 V c) := by
  show (cfg0.win 18).cut (grid0.coords t) ((dat0 V c).after 18 t) = _
  rw [after0_18, out0_eq]
  obtain ⟨e0, e1⟩ := idx0_18 t
  funext j
  have h0 : (((cfg0.win 18).blk t).view.emb j 0).val = t.val * 2000 + (j 0).val := by
    show win0_18.index t 0 * 2000 + 1 * (j 0).val = _; rw [e0]; omega
  have h1 : (((cfg0.win 18).blk t).view.emb j 1).val = (j 1).val := by
    show win0_18.index t 1 * 128 + 1 * (j 1).val = _; rw [e1]; omega
  refine Eq.trans ?_ (layer0_apply V c (((cfg0.win 18).blk t).view.emb j)).symm
  exact layerK_congr _ _ _ _ (Fin.ext h1.symm)
    (fun k => win0_0_apply V c t _ k _ h0)
    (fun k => win0_1_apply V c t _ k _ h0)
    (fun k => win0_2_apply V c t _ k _ h0)
    (win0_3_apply V c t _ 0 _ h0)
    (win0_4_apply V c t _ 0 _ h0)
    (win0_5_apply V c t _ 0 _ h0)
    (fun j => win0_6_apply V c t 0 j)
    (fun j => win0_7_apply V c t 0 j)
    (fun j => win0_8_apply V c t 0 j)
    (fun k j => win0_9_apply V c t k j)
    (fun k j => win0_10_apply V c t k j)
    (fun k j => win0_11_apply V c t k j)
    (fun k j => win0_12_apply V c t k j)
    (fun q => win0_13_apply V c t 0 q)
    (fun q => win0_14_apply V c t 0 q)
    (fun q => win0_15_apply V c t 0 q)
    (fun q => win0_16_apply V c t 0 q)
    (fun q => win0_17_apply V c t 0 q)

/-- Every index of the result lies in some point's block: row i₀ in the block of point i₀ / 2000. -/
theorem cover0 (i : S50000x128.Idx) :
    ∃ t : Fin cfg0.N, (cfg0.win 18).flush t = true ∧ i ∈ ((cfg0.win 18).blk t).view.set := by
  have hN : grid0.N = 25 := N_0
  have hi0 : (i 0).val < 50000 := idx2_lt0 i
  have hi1 : (i 1).val < 128 := idx2_lt1 i
  obtain ⟨t, ht⟩ : ∃ t : Fin cfg0.N, t.val = (i 0).val / 2000 :=
    ⟨⟨(i 0).val / 2000, by show (i 0).val / 2000 < grid0.N; rw [hN]; omega⟩, rfl⟩
  obtain ⟨e0, e1⟩ := idx0_18 t
  refine ⟨t, flush0_18 t, ?_⟩
  show i ∈ ((View.whole main_v146).slice (win0_18.rect t)).set
  rw [View.set_slice_whole, Rect.mem_set_unit]
  intro a
  match a with
  | ⟨0, _⟩ =>
    show win0_18.index t 0 * 2000 ≤ (i 0).val ∧ (i 0).val < win0_18.index t 0 * 2000 + 2000
    rw [e0]; omega
  | ⟨1, _⟩ =>
    show win0_18.index t 1 * 128 ≤ (i 1).val ∧ (i 1).val < win0_18.index t 1 * 128 + 128
    rw [e1]; omega

/-- So the result array ends holding that one function. -/
theorem region0_array (c : Dev nD) : (dat0 (F := Ideal) V c).arrAt 18 cfg0.N = layer0 V c :=
  (dat0 (F := Ideal) V c).arrAt_eq_of_cover 18 (layer0 V c) (fun t _ => flushed0_eq V c t) cover0

/-- Entry (p, q) of the result: the layer's formula on the arrays the call found. -/
theorem region0_apply (c : Dev nD) (p : Fin 50000) (q : Fin 128) :
    (dat0 (F := Ideal) V c).arrAt 18 cfg0.N (ix2 p q)
      = Cert.GcnSpec.layerK
          (fun n k => V c main_v75 (ix2 n k))
          (fun n k => V c main_v94 (ix2 n k))
          (fun n k => V c main_v113 (ix2 n k))
          (fun n => V c main_v54 (ix2 n 0))
          (fun n => V c main_v55 (ix2 n 0))
          (fun n => V c main_v56 (ix2 n 0))
          (fun j => V c main_v116 (ix2 0 j))
          (fun j => V c main_v119 (ix2 0 j))
          (fun j => V c main_v122 (ix2 0 j))
          (fun k j => V c main_v124 (ix2 k j))
          (fun k j => V c main_v126 (ix2 k j))
          (fun k j => V c main_v128 (ix2 k j))
          (fun j q => V c main_v130 (ix2 j q))
          (fun q => V c main_v133 (ix2 0 q))
          (fun q => V c main_v136 (ix2 0 q))
          (fun q => V c main_v139 (ix2 0 q))
          (fun q => V c main_v142 (ix2 0 q))
          (fun q => V c main_v145 (ix2 0 q))
          p q := by
  rw [region0_array]
  rfl

end Cert.KernelIdeal.RegionValue

end
-- ==== Proof.RegionWindows1.lean ====
/-
  The second hidden layer's input blocks as entries of the whole arrays. At grid point t the block of a row-tiled window,
  read at (r, k), is the array's entry (2000·t + r, k); the block of a resident window, read at (r, k), is the
  array's entry (r, k). Each is the block's embedding computed per axis: block index × block size + the coordinate
  inside the block, with the block index from the decided index maps.
-/
import proofs.«147366_j4853313044733_2_alg».proof.Proof.RegionIndex
import Idealize.ShloMosaic.Lib.ValueIdx
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx

variable (V : (c : Dev nD) → (b : Ref sig .tc) → Buf (Elt Ideal) ((c : Thread nD τ).loc b))

theorem win1_0_apply (c : Dev nD) (t : Fin cfg1.N) (r : Fin 2000) (k : Fin 128) (p : Fin 50000) (hp : p.val = t.val * 2000 + r.val) :
    (((cfg1.win 0).blk t).view.read (Elt Ideal) (V c (Pipeline.arrRef spec1 0)) : Vec Ideal S2000x128 .f32) (ix2 r k)
      = (V c main_v165 : S50000x128.Idx → EReal) (ix2 p k) := by
  obtain ⟨e0, e1⟩ := idx1_0 t
  show V c main_v165 (((cfg1.win 0).blk t).view.emb (ix2 r k)) = _
  refine congrArg _ (funext fun a => Fin.ext ?_)
  match a with
  | ⟨0, _⟩ => show win1_0.index t 0 * 2000 + 1 * r.val = p.val; rw [e0, hp]; omega
  | ⟨1, _⟩ => show win1_0.index t 1 * 128 + 1 * k.val = k.val; rw [e1]; omega

theorem win1_1_apply (c : Dev nD) (t : Fin cfg1.N) (r : Fin 2000) (k : Fin 128) (p : Fin 50000) (hp : p.val = t.val * 2000 + r.val) :
    (((cfg1.win 1).blk t).view.read (Elt Ideal) (V c (Pipeline.arrRef spec1 1)) : Vec Ideal S2000x128 .f32) (ix2 r k)
      = (V c main_v184 : S50000x128.Idx → EReal) (ix2 p k) := by
  obtain ⟨e0, e1⟩ := idx1_1 t
  show V c main_v184 (((cfg1.win 1).blk t).view.emb (ix2 r k)) = _
  refine congrArg _ (funext fun a => Fin.ext ?_)
  match a with
  | ⟨0, _⟩ => show win1_1.index t 0 * 2000 + 1 * r.val = p.val; rw [e0, hp]; omega
  | ⟨1, _⟩ => show win1_1.index t 1 * 128 + 1 * k.val = k.val; rw [e1]; omega

theorem win1_2_apply (c : Dev nD) (t : Fin cfg1.N) (r : Fin 2000) (k : Fin 128) (p : Fin 50000) (hp : p.val = t.val * 2000 + r.val) :
    (((cfg1.win 2).blk t).view.read (Elt Ideal) (V c (Pipeline.arrRef spec1 2)) : Vec Ideal S2000x128 .f32) (ix2 r k)
      = (V c main_v203 : S50000x128.Idx → EReal) (ix2 p k) := by
  obtain ⟨e0, e1⟩ := idx1_2 t
  show V c main_v203 (((cfg1.win 2).blk t).view.emb (ix2 r k)) = _
  refine congrArg _ (funext fun a => Fin.ext ?_)
  match a with
  | ⟨0, _⟩ => show win1_2.index t 0 * 2000 + 1 * r.val = p.val; rw [e0, hp]; omega
  | ⟨1, _⟩ => show win1_2.index t 1 * 128 + 1 * k.val = k.val; rw [e1]; omega

theorem win1_3_apply (c : Dev nD) (t : Fin cfg1.N) (r : Fin 2000) (k : Fin 1) (p : Fin 50000) (hp : p.val = t.val * 2000 + r.val) :
    (((cfg1.win 3).blk t).view.read (Elt Ideal) (V c (Pipeline.arrRef spec1 3)) : Vec Ideal S2000x1 .f32) (ix2 r k)
      = (V c main_v54 : S50000x1.Idx → EReal) (ix2 p k) := by
  obtain ⟨e0, e1⟩ := idx1_3 t
  show V c main_v54 (((cfg1.win 3).blk t).view.emb (ix2 r k)) = _
  refine congrArg _ (funext fun a => Fin.ext ?_)
  match a with
  | ⟨0, _⟩ => show win1_3.index t 0 * 2000 + 1 * r.val = p.val; rw [e0, hp]; omega
  | ⟨1, _⟩ => show win1_3.index t 1 * 1 + 1 * k.val = k.val; rw [e1]; omega

theorem win1_4_apply (c : Dev nD) (t : Fin cfg1.N) (r : Fin 2000) (k : Fin 1) (p : Fin 50000) (hp : p.val = t.val * 2000 + r.val) :
    (((cfg1.win 4).blk t).view.read (Elt Ideal) (V c (Pipeline.arrRef spec1 4)) : Vec Ideal S2000x1 .f32) (ix2 r k)
      = (V c main_v55 : S50000x1.Idx → EReal) (ix2 p k) := by
  obtain ⟨e0, e1⟩ := idx1_4 t
  show V c main_v55 (((cfg1.win 4).blk t).view.emb (ix2 r k)) = _
  refine congrArg _ (funext fun a => Fin.ext ?_)
  match a with
  | ⟨0, _⟩ => show win1_4.index t 0 * 2000 + 1 * r.val = p.val; rw [e0, hp]; omega
  | ⟨1, _⟩ => show win1_4.index t 1 * 1 + 1 * k.val = k.val; rw [e1]; omega

theorem win1_5_apply (c : Dev nD) (t : Fin cfg1.N) (r : Fin 2000) (k : Fin 1) (p : Fin 50000) (hp : p.val = t.val * 2000 + r.val) :
    (((cfg1.win 5).blk t).view.read (Elt Ideal) (V c (Pipeline.arrRef spec1 5)) : Vec Ideal S2000x1 .f32) (ix2 r k)
      = (V c main_v56 : S50000x1.Idx → EReal) (ix2 p k) := by
  obtain ⟨e0, e1⟩ := idx1_5 t
  show V c main_v56 (((cfg1.win 5).blk t).view.emb (ix2 r k)) = _
  refine congrArg _ (funext fun a => Fin.ext ?_)
  match a with
  | ⟨0, _⟩ => show win1_5.index t 0 * 2000 + 1 * r.val = p.val; rw [e0, hp]; omega
  | ⟨1, _⟩ => show win1_5.index t 1 * 1 + 1 * k.val = k.val; rw [e1]; omega

theorem win1_6_apply (c : Dev nD) (t : Fin cfg1.N) (r : Fin 1) (k : Fin 128) :
    (((cfg1.win 6).blk t).view.read (Elt Ideal) (V c (Pipeline.arrRef spec1 6)) : Vec Ideal S1x128 .f32) (ix2 r k)
      = (V c main_v206 : S1x128.Idx → EReal) (ix2 r k) := by
  obtain ⟨e0, e1⟩ := idx1_6 t
  show V c main_v206 (((cfg1.win 6).blk t).view.emb (ix2 r k)) = _
  refine congrArg _ (funext fun a => Fin.ext ?_)
  match a with
  | ⟨0, _⟩ => show win1_6.index t 0 * 1 + 1 * r.val = r.val; rw [e0]; omega
  | ⟨1, _⟩ => show win1_6.index t 1 * 128 + 1 * k.val = k.val; rw [e1]; omega

theorem win1_7_apply (c : Dev nD) (t : Fin cfg1.N) (r : Fin 1) (k : Fin 128) :
    (((cfg1.win 7).blk t).view.read (Elt Ideal) (V c (Pipeline.arrRef spec1 7)) : Vec Ideal S1x128 .f32) (ix2 r k)
      = (V c main_v209 : S1x128.Idx → EReal) (ix2 r k) := by
  obtain ⟨e0, e1⟩ := idx1_7 t
  show V c main_v209 (((cfg1.win 7).blk t).view.emb (ix2 r k)) = _
  refine congrArg _ (funext fun a => Fin.ext ?_)
  match a with
  | ⟨0, _⟩ => show win1_7.index t 0 * 1 + 1 * r.val = r.val; rw [e0]; omega
  | ⟨1, _⟩ => show win1_7.index t 1 * 128 + 1 * k.val = k.val; rw [e1]; omega

theorem win1_8_apply (c : Dev nD) (t : Fin cfg1.N) (r : Fin 1) (k : Fin 128) :
    (((cfg1.win 8).blk t).view.read (Elt Ideal) (V c (Pipeline.arrRef spec1 8)) : Vec Ideal S1x128 .f32) (ix2 r k)
      = (V c main_v212 : S1x128.Idx → EReal) (ix2 r k) := by
  obtain ⟨e0, e1⟩ := idx1_8 t
  show V c main_v212 (((cfg1.win 8).blk t).view.emb (ix2 r k)) = _
  refine congrArg _ (funext fun a => Fin.ext ?_)
  match a with
  | ⟨0, _⟩ => show win1_8.index t 0 * 1 + 1 * r.val = r.val; rw [e0]; omega
  | ⟨1, _⟩ => show win1_8.index t 1 * 128 + 1 * k.val = k.val; rw [e1]; omega

theorem win1_9_apply (c : Dev nD) (t : Fin cfg1.N) (r : Fin 128) (k : Fin 128) :
    (((cfg1.win 9).blk t).view.read (Elt Ideal) (V c (Pipeline.arrRef spec1 9)) : Vec Ideal S128x128 .f32) (ix2 r k)
      = (V c main_v214 : S128x128.Idx → EReal) (ix2 r k) := by
  obtain ⟨e0, e1⟩ := idx1_9 t
  show V c main_v214 (((cfg1.win 9).blk t).view.emb (ix2 r k)) = _
  refine congrArg _ (funext fun a => Fin.ext ?_)
  match a with
  | ⟨0, _⟩ => show win1_9.index t 0 * 128 + 1 * r.val = r.val; rw [e0]; omega
  | ⟨1, _⟩ => show win1_9.index t 1 * 128 + 1 * k.val = k.val; rw [e1]; omega

theorem win1_10_apply (c : Dev nD) (t : Fin cfg1.N) (r : Fin 128) (k : Fin 128) :
    (((cfg1.win 10).blk t).view.read (Elt Ideal) (V c (Pipeline.arrRef spec1 10)) : Vec Ideal S128x128 .f32) (ix2 r k)
      = (V c main_v216 : S128x128.Idx → EReal) (ix2 r k) := by
  obtain ⟨e0, e1⟩ := idx1_10 t
  show V c main_v216 (((cfg1.win 10).blk t).view.emb (ix2 r k)) = _
  refine congrArg _ (funext fun a => Fin.ext ?_)
  match a with
  | ⟨0, _⟩ => show win1_10.index t 0 * 128 + 1 * r.val = r.val; rw [e0]; omega
  | ⟨1, _⟩ => show win1_10.index t 1 * 128 + 1 * k.val = k.val; rw [e1]; omega

theorem win1_11_apply (c : Dev nD) (t : Fin cfg1.N) (r : Fin 128) (k : Fin 128) :
    (((cfg1.win 11).blk t).view.read (Elt Ideal) (V c (Pipeline.arrRef spec1 11)) : Vec Ideal S128x128 .f32) (ix2 r k)
      = (V c main_v218 : S128x128.Idx → EReal) (ix2 r k) := by
  obtain ⟨e0, e1⟩ := idx1_11 t
  show V c main_v218 (((cfg1.win 11).blk t).view.emb (ix2 r k)) = _
  refine congrArg _ (funext fun a => Fin.ext ?_)
  match a with
  | ⟨0, _⟩ => show win1_11.index t 0 * 128 + 1 * r.val = r.val; rw [e0]; omega
  | ⟨1, _⟩ => show win1_11.index t 1 * 128 + 1 * k.val = k.val; rw [e1]; omega

theorem win1_12_apply (c : Dev nD) (t : Fin cfg1.N) (r : Fin 128) (k : Fin 128) :
    (((cfg1.win 12).blk t).view.read (Elt Ideal) (V c (Pipeline.arrRef spec1 12)) : Vec Ideal S128x128 .f32) (ix2 r k)
      = (V c main_v220 : S128x128.Idx → EReal) (ix2 r k) := by
  obtain ⟨e0, e1⟩ := idx1_12 t
  show V c main_v220 (((cfg1.win 12).blk t).view.emb (ix2 r k)) = _
  refine congrArg _ (funext fun a => Fin.ext ?_)
  match a with
  | ⟨0, _⟩ => show win1_12.index t 0 * 128 + 1 * r.val = r.val; rw [e0]; omega
  | ⟨1, _⟩ => show win1_12.index t 1 * 128 + 1 * k.val = k.val; rw [e1]; omega

theorem win1_13_apply (c : Dev nD) (t : Fin cfg1.N) (r : Fin 1) (k : Fin 128) :
    (((cfg1.win 13).blk t).view.read (Elt Ideal) (V c (Pipeline.arrRef spec1 13)) : Vec Ideal S1x128 .f32) (ix2 r k)
      = (V c main_v223 : S1x128.Idx → EReal) (ix2 r k) := by
  obtain ⟨e0, e1⟩ := idx1_13 t
  show V c main_v223 (((cfg1.win 13).blk t).view.emb (ix2 r k)) = _
  refine congrArg _ (funext fun a => Fin.ext ?_)
  match a with
  | ⟨0, _⟩ => show win1_13.index t 0 * 1 + 1 * r.val = r.val; rw [e0]; omega
  | ⟨1, _⟩ => show win1_13.index t 1 * 128 + 1 * k.val = k.val; rw [e1]; omega

theorem win1_14_apply (c : Dev nD) (t : Fin cfg1.N) (r : Fin 1) (k : Fin 128) :
    (((cfg1.win 14).blk t).view.read (Elt Ideal) (V c (Pipeline.arrRef spec1 14)) : Vec Ideal S1x128 .f32) (ix2 r k)
      = (V c main_v226 : S1x128.Idx → EReal) (ix2 r k) := by
  obtain ⟨e0, e1⟩ := idx1_14 t
  show V c main_v226 (((cfg1.win 14).blk t).view.emb (ix2 r k)) = _
  refine congrArg _ (funext fun a => Fin.ext ?_)
  match a with
  | ⟨0, _⟩ => show win1_14.index t 0 * 1 + 1 * r.val = r.val; rw [e0]; omega
  | ⟨1, _⟩ => show win1_14.index t 1 * 128 + 1 * k.val = k.val; rw [e1]; omega

theorem win1_15_apply (c : Dev nD) (t : Fin cfg1.N) (r : Fin 1) (k : Fin 128) :
    (((cfg1.win 15).blk t).view.read (Elt Ideal) (V c (Pipeline.arrRef spec1 15)) : Vec Ideal S1x128 .f32) (ix2 r k)
      = (V c main_v229 : S1x128.Idx → EReal) (ix2 r k) := by
  obtain ⟨e0, e1⟩ := idx1_15 t
  show V c main_v229 (((cfg1.win 15).blk t).view.emb (ix2 r k)) = _
  refine congrArg _ (funext fun a => Fin.ext ?_)
  match a with
  | ⟨0, _⟩ => show win1_15.index t 0 * 1 + 1 * r.val = r.val; rw [e0]; omega
  | ⟨1, _⟩ => show win1_15.index t 1 * 128 + 1 * k.val = k.val; rw [e1]; omega

theorem win1_16_apply (c : Dev nD) (t : Fin cfg1.N) (r : Fin 1) (k : Fin 128) :
    (((cfg1.win 16).blk t).view.read (Elt Ideal) (V c (Pipeline.arrRef spec1 16)) : Vec Ideal S1x128 .f32) (ix2 r k)
      = (V c main_v232 : S1x128.Idx → EReal) (ix2 r k) := by
  obtain ⟨e0, e1⟩ := idx1_16 t
  show V c main_v232 (((cfg1.win 16).blk t).view.emb (ix2 r k)) = _
  refine congrArg _ (funext fun a => Fin.ext ?_)
  match a with
  | ⟨0, _⟩ => show win1_16.index t 0 * 1 + 1 * r.val = r.val; rw [e0]; omega
  | ⟨1, _⟩ => show win1_16.index t 1 * 128 + 1 * k.val = k.val; rw [e1]; omega

theorem win1_17_apply (c : Dev nD) (t : Fin cfg1.N) (r : Fin 1) (k : Fin 128) :
    (((cfg1.win 17).blk t).view.read (Elt Ideal) (V c (Pipeline.arrRef spec1 17)) : Vec Ideal S1x128 .f32) (ix2 r k)
      = (V c main_v235 : S1x128.Idx → EReal) (ix2 r k) := by
  obtain ⟨e0, e1⟩ := idx1_17 t
  show V c main_v235 (((cfg1.win 17).blk t).view.emb (ix2 r k)) = _
  refine congrArg _ (funext fun a => Fin.ext ?_)
  match a with
  | ⟨0, _⟩ => show win1_17.index t 0 * 1 + 1 * r.val = r.val; rw [e0]; omega
  | ⟨1, _⟩ => show win1_17.index t 1 * 128 + 1 * k.val = k.val; rw [e1]; omega

end Cert.KernelIdeal.RegionValue

end
-- ==== Proof.RegionValue1.lean ====
/-
  The second hidden layer's call, read as a value, for any contents of the arrays when the call is entered.

  The call runs 25 grid points; point t stages rows 2000·t … 2000·t + 1999 of the three aggregates and of the three
  destination-degree columns, and the small arrays whole, computes the layer on that block of rows, and writes the
  block back to the same rows of the result. A layer's entry (p, q) reads row p of the aggregates and of the degree
  columns and nothing of any other row, so what point t writes back is block t of ONE function of the whole arrays
  — the layer's formula at every (p, q) — and since the 25 blocks cover all 50000 rows, the result array ends
  holding exactly that function.
-/
import proofs.«147366_j4853313044733_2_alg».proof.Proof.KernelIdealFrame
import proofs.«147366_j4853313044733_2_alg».proof.Proof.RegionBody
import proofs.«147366_j4853313044733_2_alg».proof.Proof.RegionCongr
import proofs.«147366_j4853313044733_2_alg».proof.Proof.RegionWindows1
import proofs.«147366_j4853313044733_2_alg».proof.Proof.LibWholeStore
import Idealize.ShloMosaic.Lib.Pipeline.Value

set_option maxRecDepth 16384

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Layer 2's result as ONE function of the arrays its call finds: entry i. -/
def layer1 (c : Dev nD) : S50000x128.Idx → EReal := fun i =>
  Cert.GcnSpec.layerK
    (fun n k => V c main_v165 (ix2 n k))
    (fun n k => V c main_v184 (ix2 n k))
    (fun n k => V c main_v203 (ix2 n k))
    (fun n => V c main_v54 (ix2 n 0))
    (fun n => V c main_v55 (ix2 n 0))
    (fun n => V c main_v56 (ix2 n 0))
    (fun j => V c main_v206 (ix2 0 j))
    (fun j => V c main_v209 (ix2 0 j))
    (fun j => V c main_v212 (ix2 0 j))
    (fun k j => V c main_v214 (ix2 k j))
    (fun k j => V c main_v216 (ix2 k j))
    (fun k j => V c main_v218 (ix2 k j))
    (fun j q => V c main_v220 (ix2 j q))
    (fun q => V c main_v223 (ix2 0 q))
    (fun q => V c main_v226 (ix2 0 q))
    (fun q => V c main_v229 (ix2 0 q))
    (fun q => V c main_v232 (ix2 0 q))
    (fun q => V c main_v235 (ix2 0 q))
    ⟨(i 0).val, idx2_lt0 i⟩ ⟨(i 1).val, idx2_lt1 i⟩

theorem layer1_apply (c : Dev nD) (i : S50000x128.Idx) : layer1 V c i = Cert.GcnSpec.layerK
    (fun n k => V c main_v165 (ix2 n k))
    (fun n k => V c main_v184 (ix2 n k))
    (fun n k => V c main_v203 (ix2 n k))
    (fun n => V c main_v54 (ix2 n 0))
    (fun n => V c main_v55 (ix2 n 0))
    (fun n => V c main_v56 (ix2 n 0))
    (fun j => V c main_v206 (ix2 0 j))
    (fun j => V c main_v209 (ix2 0 j))
    (fun j => V c main_v212 (ix2 0 j))
    (fun k j => V c main_v214 (ix2 k j))
    (fun k j => V c main_v216 (ix2 k j))
    (fun k j => V c main_v218 (ix2 k j))
    (fun j q => V c main_v220 (ix2 j q))
    (fun q => V c main_v223 (ix2 0 q))
    (fun q => V c main_v226 (ix2 0 q))
    (fun q => V c main_v229 (ix2 0 q))
    (fun q => V c main_v232 (ix2 0 q))
    (fun q => V c main_v235 (ix2 0 q))
    ⟨(i 0).val, idx2_lt0 i⟩ ⟨(i 1).val, idx2_lt1 i⟩ := rfl

/-- What the body leaves in the output block is one function of the input blocks: the layer's formula on the block's rows
    (the one store covers the block from offset zero; each load reads a whole block). -/
theorem out1_eq (x0 : Vec Ideal S2000x128 .f32) (x1 : Vec Ideal S2000x128 .f32) (x2 : Vec Ideal S2000x128 .f32) (x3 : Vec Ideal S2000x1 .f32) (x4 : Vec Ideal S2000x1 .f32) (x5 : Vec Ideal S2000x1 .f32) (x6 : Vec Ideal S1x128 .f32) (x7 : Vec Ideal S1x128 .f32) (x8 : Vec Ideal S1x128 .f32) (x9 : Vec Ideal S128x128 .f32) (x10 : Vec Ideal S128x128 .f32) (x11 : Vec Ideal S128x128 .f32) (x12 : Vec Ideal S128x128 .f32) (x13 : Vec Ideal S1x128 .f32) (x14 : Vec Ideal S1x128 .f32) (x15 : Vec Ideal S1x128 .f32) (x16 : Vec Ideal S1x128 .f32) (x17 : Vec Ideal S1x128 .f32) :
    out1_18 x0 x1 x2 x3 x4 x5 x6 x7 x8 x9 x10 x11 x12 x13 x14 x15 x16 x17 = fun j : S2000x128.Idx => Cert.GcnSpec.layerK
      (fun r k => x0 (ix2 r k))
      (fun r k => x1 (ix2 r k))
      (fun r k => x2 (ix2 r k))
      (fun r => x3 (ix2 r 0))
      (fun r => x4 (ix2 r 0))
      (fun r => x5 (ix2 r 0))
      (fun j => x6 (ix2 0 j))
      (fun j => x7 (ix2 0 j))
      (fun j => x8 (ix2 0 j))
      (fun k j => x9 (ix2 k j))
      (fun k j => x10 (ix2 k j))
      (fun k j => x11 (ix2 k j))
      (fun j q => x12 (ix2 j q))
      (fun q => x13 (ix2 0 q))
      (fun q => x14 (ix2 0 q))
      (fun q => x15 (ix2 0 q))
      (fun q => x16 (ix2 0 q))
      (fun q => x17 (ix2 0 q))
      ⟨(j 0).val, idx2_lt0 j⟩ ⟨(j 1).val, idx2_lt1 j⟩ := by
  unfold out1_18
  rw [View.canon_unit_zero View.zero2]
  simp only [View.ld_unit_zero (S := S2000x128) View.zero2, View.ld_unit_zero (S := S2000x1) View.zero2, View.ld_unit_zero (S := S128x128) View.zero2, View.ld_unit_zero (S := S1x128) View.zero2]
  funext j
  obtain ⟨y, q, rfl⟩ : ∃ (y : Fin 2000) (q : Fin 128), j = ix2 y q := ⟨j 0, j 1, eq_ix2 j⟩
  exact hidden_apply' x0 x1 x2 x3 x4 x5 x6 x7 x8 x9 x10 x11 x12 x13 x14 x15 x16 x17 y q

/-- What grid point t writes back is block t of that one function of the whole arrays: row r of the block is row
    2000·t + r of the array, and the layer's entry there reads that row of the aggregates and degree columns only. -/
theorem flushed1_eq (c : Dev nD) (t : Fin cfg1.N) :
    (dat1 (F := Ideal) V c).flushed 18 t = ((cfg1.win 18).blk t).view.read (Elt Ideal) (layer1 V c) := by
  show (cfg1.win 18).cut (grid1.coords t) ((dat1 V c).after 18 t) = _
  rw [after1_18, out1_eq]
  obtain ⟨e0, e1⟩ := idx1_18 t
  funext j
  have h0 : (((cfg1.win 18).blk t).view.emb j 0).val = t.val * 2000 + (j 0).val := by
    show win1_18.index t 0 * 2000 + 1 * (j 0).val = _; rw [e0]; omega
  have h1 : (((cfg1.win 18).blk t).view.emb j 1).val = (j 1).val := by
    show win1_18.index t 1 * 128 + 1 * (j 1).val = _; rw [e1]; omega
  refine Eq.trans ?_ (layer1_apply V c (((cfg1.win 18).blk t).view.emb j)).symm
  exact layerK_congr _ _ _ _ (Fin.ext h1.symm)
    (fun k => win1_0_apply V c t _ k _ h0)
    (fun k => win1_1_apply V c t _ k _ h0)
    (fun k => win1_2_apply V c t _ k _ h0)
    (win1_3_apply V c t _ 0 _ h0)
    (win1_4_apply V c t _ 0 _ h0)
    (win1_5_apply V c t _ 0 _ h0)
    (fun j => win1_6_apply V c t 0 j)
    (fun j => win1_7_apply V c t 0 j)
    (fun j => win1_8_apply V c t 0 j)
    (fun k j => win1_9_apply V c t k j)
    (fun k j => win1_10_apply V c t k j)
    (fun k j => win1_11_apply V c t k j)
    (fun k j => win1_12_apply V c t k j)
    (fun q => win1_13_apply V c t 0 q)
    (fun q => win1_14_apply V c t 0 q)
    (fun q => win1_15_apply V c t 0 q)
    (fun q => win1_16_apply V c t 0 q)
    (fun q => win1_17_apply V c t 0 q)

/-- Every index of the result lies in some point's block: row i₀ in the block of point i₀ / 2000. -/
theorem cover1 (i : S50000x128.Idx) :
    ∃ t : Fin cfg1.N, (cfg1.win 18).flush t = true ∧ i ∈ ((cfg1.win 18).blk t).view.set := by
  have hN : grid1.N = 25 := N_1
  have hi0 : (i 0).val < 50000 := idx2_lt0 i
  have hi1 : (i 1).val < 128 := idx2_lt1 i
  obtain ⟨t, ht⟩ : ∃ t : Fin cfg1.N, t.val = (i 0).val / 2000 :=
    ⟨⟨(i 0).val / 2000, by show (i 0).val / 2000 < grid1.N; rw [hN]; omega⟩, rfl⟩
  obtain ⟨e0, e1⟩ := idx1_18 t
  refine ⟨t, flush1_18 t, ?_⟩
  show i ∈ ((View.whole main_v236).slice (win1_18.rect t)).set
  rw [View.set_slice_whole, Rect.mem_set_unit]
  intro a
  match a with
  | ⟨0, _⟩ =>
    show win1_18.index t 0 * 2000 ≤ (i 0).val ∧ (i 0).val < win1_18.index t 0 * 2000 + 2000
    rw [e0]; omega
  | ⟨1, _⟩ =>
    show win1_18.index t 1 * 128 ≤ (i 1).val ∧ (i 1).val < win1_18.index t 1 * 128 + 128
    rw [e1]; omega

/-- So the result array ends holding that one function. -/
theorem region1_array (c : Dev nD) : (dat1 (F := Ideal) V c).arrAt 18 cfg1.N = layer1 V c :=
  (dat1 (F := Ideal) V c).arrAt_eq_of_cover 18 (layer1 V c) (fun t _ => flushed1_eq V c t) cover1

/-- Entry (p, q) of the result: the layer's formula on the arrays the call found. -/
theorem region1_apply (c : Dev nD) (p : Fin 50000) (q : Fin 128) :
    (dat1 (F := Ideal) V c).arrAt 18 cfg1.N (ix2 p q)
      = Cert.GcnSpec.layerK
          (fun n k => V c main_v165 (ix2 n k))
          (fun n k => V c main_v184 (ix2 n k))
          (fun n k => V c main_v203 (ix2 n k))
          (fun n => V c main_v54 (ix2 n 0))
          (fun n => V c main_v55 (ix2 n 0))
          (fun n => V c main_v56 (ix2 n 0))
          (fun j => V c main_v206 (ix2 0 j))
          (fun j => V c main_v209 (ix2 0 j))
          (fun j => V c main_v212 (ix2 0 j))
          (fun k j => V c main_v214 (ix2 k j))
          (fun k j => V c main_v216 (ix2 k j))
          (fun k j => V c main_v218 (ix2 k j))
          (fun j q => V c main_v220 (ix2 j q))
          (fun q => V c main_v223 (ix2 0 q))
          (fun q => V c main_v226 (ix2 0 q))
          (fun q => V c main_v229 (ix2 0 q))
          (fun q => V c main_v232 (ix2 0 q))
          (fun q => V c main_v235 (ix2 0 q))
          p q := by
  rw [region1_array]
  rfl

end Cert.KernelIdeal.RegionValue

end
-- ==== Proof.RegionWindows2.lean ====
/-
  The last layer's input blocks as entries of the whole arrays. At grid point t the block of a row-tiled window,
  read at (r, k), is the array's entry (2000·t + r, k); the block of a resident window, read at (r, k), is the
  array's entry (r, k). Each is the block's embedding computed per axis: block index × block size + the coordinate
  inside the block, with the block index from the decided index maps.
-/
import proofs.«147366_j4853313044733_2_alg».proof.Proof.RegionIndex
import Idealize.ShloMosaic.Lib.ValueIdx
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx

variable (V : (c : Dev nD) → (b : Ref sig .tc) → Buf (Elt Ideal) ((c : Thread nD τ).loc b))

theorem win2_0_apply (c : Dev nD) (t : Fin cfg2.N) (r : Fin 2000) (k : Fin 128) (p : Fin 50000) (hp : p.val = t.val * 2000 + r.val) :
    (((cfg2.win 0).blk t).view.read (Elt Ideal) (V c (Pipeline.arrRef spec2 0)) : Vec Ideal S2000x128 .f32) (ix2 r k)
      = (V c main_v255 : S50000x128.Idx → EReal) (ix2 p k) := by
  obtain ⟨e0, e1⟩ := idx2_0 t
  show V c main_v255 (((cfg2.win 0).blk t).view.emb (ix2 r k)) = _
  refine congrArg _ (funext fun a => Fin.ext ?_)
  match a with
  | ⟨0, _⟩ => show win2_0.index t 0 * 2000 + 1 * r.val = p.val; rw [e0, hp]; omega
  | ⟨1, _⟩ => show win2_0.index t 1 * 128 + 1 * k.val = k.val; rw [e1]; omega

theorem win2_1_apply (c : Dev nD) (t : Fin cfg2.N) (r : Fin 2000) (k : Fin 128) (p : Fin 50000) (hp : p.val = t.val * 2000 + r.val) :
    (((cfg2.win 1).blk t).view.read (Elt Ideal) (V c (Pipeline.arrRef spec2 1)) : Vec Ideal S2000x128 .f32) (ix2 r k)
      = (V c main_v274 : S50000x128.Idx → EReal) (ix2 p k) := by
  obtain ⟨e0, e1⟩ := idx2_1 t
  show V c main_v274 (((cfg2.win 1).blk t).view.emb (ix2 r k)) = _
  refine congrArg _ (funext fun a => Fin.ext ?_)
  match a with
  | ⟨0, _⟩ => show win2_1.index t 0 * 2000 + 1 * r.val = p.val; rw [e0, hp]; omega
  | ⟨1, _⟩ => show win2_1.index t 1 * 128 + 1 * k.val = k.val; rw [e1]; omega

theorem win2_2_apply (c : Dev nD) (t : Fin cfg2.N) (r : Fin 2000) (k : Fin 128) (p : Fin 50000) (hp : p.val = t.val * 2000 + r.val) :
    (((cfg2.win 2).blk t).view.read (Elt Ideal) (V c (Pipeline.arrRef spec2 2)) : Vec Ideal S2000x128 .f32) (ix2 r k)
      = (V c main_v293 : S50000x128.Idx → EReal) (ix2 p k) := by
  obtain ⟨e0, e1⟩ := idx2_2 t
  show V c main_v293 (((cfg2.win 2).blk t).view.emb (ix2 r k)) = _
  refine congrArg _ (funext fun a => Fin.ext ?_)
  match a with
  | ⟨0, _⟩ => show win2_2.index t 0 * 2000 + 1 * r.val = p.val; rw [e0, hp]; omega
  | ⟨1, _⟩ => show win2_2.index t 1 * 128 + 1 * k.val = k.val; rw [e1]; omega

theorem win2_3_apply (c : Dev nD) (t : Fin cfg2.N) (r : Fin 2000) (k : Fin 1) (p : Fin 50000) (hp : p.val = t.val * 2000 + r.val) :
    (((cfg2.win 3).blk t).view.read (Elt Ideal) (V c (Pipeline.arrRef spec2 3)) : Vec Ideal S2000x1 .f32) (ix2 r k)
      = (V c main_v54 : S50000x1.Idx → EReal) (ix2 p k) := by
  obtain ⟨e0, e1⟩ := idx2_3 t
  show V c main_v54 (((cfg2.win 3).blk t).view.emb (ix2 r k)) = _
  refine congrArg _ (funext fun a => Fin.ext ?_)
  match a with
  | ⟨0, _⟩ => show win2_3.index t 0 * 2000 + 1 * r.val = p.val; rw [e0, hp]; omega
  | ⟨1, _⟩ => show win2_3.index t 1 * 1 + 1 * k.val = k.val; rw [e1]; omega

theorem win2_4_apply (c : Dev nD) (t : Fin cfg2.N) (r : Fin 2000) (k : Fin 1) (p : Fin 50000) (hp : p.val = t.val * 2000 + r.val) :
    (((cfg2.win 4).blk t).view.read (Elt Ideal) (V c (Pipeline.arrRef spec2 4)) : Vec Ideal S2000x1 .f32) (ix2 r k)
      = (V c main_v55 : S50000x1.Idx → EReal) (ix2 p k) := by
  obtain ⟨e0, e1⟩ := idx2_4 t
  show V c main_v55 (((cfg2.win 4).blk t).view.emb (ix2 r k)) = _
  refine congrArg _ (funext fun a => Fin.ext ?_)
  match a with
  | ⟨0, _⟩ => show win2_4.index t 0 * 2000 + 1 * r.val = p.val; rw [e0, hp]; omega
  | ⟨1, _⟩ => show win2_4.index t 1 * 1 + 1 * k.val = k.val; rw [e1]; omega

theorem win2_5_apply (c : Dev nD) (t : Fin cfg2.N) (r : Fin 2000) (k : Fin 1) (p : Fin 50000) (hp : p.val = t.val * 2000 + r.val) :
    (((cfg2.win 5).blk t).view.read (Elt Ideal) (V c (Pipeline.arrRef spec2 5)) : Vec Ideal S2000x1 .f32) (ix2 r k)
      = (V c main_v56 : S50000x1.Idx → EReal) (ix2 p k) := by
  obtain ⟨e0, e1⟩ := idx2_5 t
  show V c main_v56 (((cfg2.win 5).blk t).view.emb (ix2 r k)) = _
  refine congrArg _ (funext fun a => Fin.ext ?_)
  match a with
  | ⟨0, _⟩ => show win2_5.index t 0 * 2000 + 1 * r.val = p.val; rw [e0, hp]; omega
  | ⟨1, _⟩ => show win2_5.index t 1 * 1 + 1 * k.val = k.val; rw [e1]; omega

theorem win2_6_apply (c : Dev nD) (t : Fin cfg2.N) (r : Fin 1) (k : Fin 128) :
    (((cfg2.win 6).blk t).view.read (Elt Ideal) (V c (Pipeline.arrRef spec2 6)) : Vec Ideal S1x128 .f32) (ix2 r k)
      = (V c main_v296 : S1x128.Idx → EReal) (ix2 r k) := by
  obtain ⟨e0, e1⟩ := idx2_6 t
  show V c main_v296 (((cfg2.win 6).blk t).view.emb (ix2 r k)) = _
  refine congrArg _ (funext fun a => Fin.ext ?_)
  match a with
  | ⟨0, _⟩ => show win2_6.index t 0 * 1 + 1 * r.val = r.val; rw [e0]; omega
  | ⟨1, _⟩ => show win2_6.index t 1 * 128 + 1 * k.val = k.val; rw [e1]; omega

theorem win2_7_apply (c : Dev nD) (t : Fin cfg2.N) (r : Fin 1) (k : Fin 128) :
    (((cfg2.win 7).blk t).view.read (Elt Ideal) (V c (Pipeline.arrRef spec2 7)) : Vec Ideal S1x128 .f32) (ix2 r k)
      = (V c main_v299 : S1x128.Idx → EReal) (ix2 r k) := by
  obtain ⟨e0, e1⟩ := idx2_7 t
  show V c main_v299 (((cfg2.win 7).blk t).view.emb (ix2 r k)) = _
  refine congrArg _ (funext fun a => Fin.ext ?_)
  match a with
  | ⟨0, _⟩ => show win2_7.index t 0 * 1 + 1 * r.val = r.val; rw [e0]; omega
  | ⟨1, _⟩ => show win2_7.index t 1 * 128 + 1 * k.val = k.val; rw [e1]; omega

theorem win2_8_apply (c : Dev nD) (t : Fin cfg2.N) (r : Fin 1) (k : Fin 128) :
    (((cfg2.win 8).blk t).view.read (Elt Ideal) (V c (Pipeline.arrRef spec2 8)) : Vec Ideal S1x128 .f32) (ix2 r k)
      = (V c main_v302 : S1x128.Idx → EReal) (ix2 r k) := by
  obtain ⟨e0, e1⟩ := idx2_8 t
  show V c main_v302 (((cfg2.win 8).blk t).view.emb (ix2 r k)) = _
  refine congrArg _ (funext fun a => Fin.ext ?_)
  match a with
  | ⟨0, _⟩ => show win2_8.index t 0 * 1 + 1 * r.val = r.val; rw [e0]; omega
  | ⟨1, _⟩ => show win2_8.index t 1 * 128 + 1 * k.val = k.val; rw [e1]; omega

theorem win2_9_apply (c : Dev nD) (t : Fin cfg2.N) (r : Fin 128) (k : Fin 128) :
    (((cfg2.win 9).blk t).view.read (Elt Ideal) (V c (Pipeline.arrRef spec2 9)) : Vec Ideal S128x128 .f32) (ix2 r k)
      = (V c main_v304 : S128x128.Idx → EReal) (ix2 r k) := by
  obtain ⟨e0, e1⟩ := idx2_9 t
  show V c main_v304 (((cfg2.win 9).blk t).view.emb (ix2 r k)) = _
  refine congrArg _ (funext fun a => Fin.ext ?_)
  match a with
  | ⟨0, _⟩ => show win2_9.index t 0 * 128 + 1 * r.val = r.val; rw [e0]; omega
  | ⟨1, _⟩ => show win2_9.index t 1 * 128 + 1 * k.val = k.val; rw [e1]; omega

theorem win2_10_apply (c : Dev nD) (t : Fin cfg2.N) (r : Fin 128) (k : Fin 128) :
    (((cfg2.win 10).blk t).view.read (Elt Ideal) (V c (Pipeline.arrRef spec2 10)) : Vec Ideal S128x128 .f32) (ix2 r k)
      = (V c main_v306 : S128x128.Idx → EReal) (ix2 r k) := by
  obtain ⟨e0, e1⟩ := idx2_10 t
  show V c main_v306 (((cfg2.win 10).blk t).view.emb (ix2 r k)) = _
  refine congrArg _ (funext fun a => Fin.ext ?_)
  match a with
  | ⟨0, _⟩ => show win2_10.index t 0 * 128 + 1 * r.val = r.val; rw [e0]; omega
  | ⟨1, _⟩ => show win2_10.index t 1 * 128 + 1 * k.val = k.val; rw [e1]; omega

theorem win2_11_apply (c : Dev nD) (t : Fin cfg2.N) (r : Fin 128) (k : Fin 128) :
    (((cfg2.win 11).blk t).view.read (Elt Ideal) (V c (Pipeline.arrRef spec2 11)) : Vec Ideal S128x128 .f32) (ix2 r k)
      = (V c main_v308 : S128x128.Idx → EReal) (ix2 r k) := by
  obtain ⟨e0, e1⟩ := idx2_11 t
  show V c main_v308 (((cfg2.win 11).blk t).view.emb (ix2 r k)) = _
  refine congrArg _ (funext fun a => Fin.ext ?_)
  match a with
  | ⟨0, _⟩ => show win2_11.index t 0 * 128 + 1 * r.val = r.val; rw [e0]; omega
  | ⟨1, _⟩ => show win2_11.index t 1 * 128 + 1 * k.val = k.val; rw [e1]; omega

theorem win2_12_apply (c : Dev nD) (t : Fin cfg2.N) (r : Fin 128) (k : Fin 512) :
    (((cfg2.win 12).blk t).view.read (Elt Ideal) (V c (Pipeline.arrRef spec2 12)) : Vec Ideal S128x512 .f32) (ix2 r k)
      = (V c main_arg7 : S128x512.Idx → EReal) (ix2 r k) := by
  obtain ⟨e0, e1⟩ := idx2_12 t
  show V c main_arg7 (((cfg2.win 12).blk t).view.emb (ix2 r k)) = _
  refine congrArg _ (funext fun a => Fin.ext ?_)
  match a with
  | ⟨0, _⟩ => show win2_12.index t 0 * 128 + 1 * r.val = r.val; rw [e0]; omega
  | ⟨1, _⟩ => show win2_12.index t 1 * 512 + 1 * k.val = k.val; rw [e1]; omega

theorem win2_13_apply (c : Dev nD) (t : Fin cfg2.N) (r : Fin 1) (k : Fin 512) :
    (((cfg2.win 13).blk t).view.read (Elt Ideal) (V c (Pipeline.arrRef spec2 13)) : Vec Ideal S1x512 .f32) (ix2 r k)
      = (V c main_v309 : S1x512.Idx → EReal) (ix2 r k) := by
  obtain ⟨e0, e1⟩ := idx2_13 t
  show V c main_v309 (((cfg2.win 13).blk t).view.emb (ix2 r k)) = _
  refine congrArg _ (funext fun a => Fin.ext ?_)
  match a with
  | ⟨0, _⟩ => show win2_13.index t 0 * 1 + 1 * r.val = r.val; rw [e0]; omega
  | ⟨1, _⟩ => show win2_13.index t 1 * 512 + 1 * k.val = k.val; rw [e1]; omega

end Cert.KernelIdeal.RegionValue

end
-- ==== Proof.RegionValue2.lean ====
/-
  The last layer's call, read as a value, for any contents of the arrays when the call is entered.

  The call runs 25 grid points; point t stages rows 2000·t … 2000·t + 1999 of the three aggregates and of the three
  destination-degree columns, and the small arrays whole, computes the layer on that block of rows, and writes the
  block back to the same rows of the result. A layer's entry (p, q) reads row p of the aggregates and of the degree
  columns and nothing of any other row, so what point t writes back is block t of ONE function of the whole arrays
  — the layer's formula at every (p, q) — and since the 25 blocks cover all 50000 rows, the result array ends
  holding exactly that function.
-/
import proofs.«147366_j4853313044733_2_alg».proof.Proof.KernelIdealFrame
import proofs.«147366_j4853313044733_2_alg».proof.Proof.RegionBody
import proofs.«147366_j4853313044733_2_alg».proof.Proof.RegionCongr
import proofs.«147366_j4853313044733_2_alg».proof.Proof.RegionWindows2
import proofs.«147366_j4853313044733_2_alg».proof.Proof.LibWholeStore
import Idealize.ShloMosaic.Lib.Pipeline.Value

set_option maxRecDepth 16384

noncomputable section

namespace Cert.KernelIdeal.RegionValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Layer 3's result as ONE function of the arrays its call finds: entry i. -/
def layer2 (c : Dev nD) : S50000x512.Idx → EReal := fun i =>
  Cert.GcnSpec.lastK
    (fun n k => V c main_v255 (ix2 n k))
    (fun n k => V c main_v274 (ix2 n k))
    (fun n k => V c main_v293 (ix2 n k))
    (fun n => V c main_v54 (ix2 n 0))
    (fun n => V c main_v55 (ix2 n 0))
    (fun n => V c main_v56 (ix2 n 0))
    (fun j => V c main_v296 (ix2 0 j))
    (fun j => V c main_v299 (ix2 0 j))
    (fun j => V c main_v302 (ix2 0 j))
    (fun k j => V c main_v304 (ix2 k j))
    (fun k j => V c main_v306 (ix2 k j))
    (fun k j => V c main_v308 (ix2 k j))
    (fun j q => V c main_arg7 (ix2 j q))
    (fun q => V c main_v309 (ix2 0 q))
    ⟨(i 0).val, idx2_lt0 i⟩ ⟨(i 1).val, idx2_lt1 i⟩

theorem layer2_apply (c : Dev nD) (i : S50000x512.Idx) : layer2 V c i = Cert.GcnSpec.lastK
    (fun n k => V c main_v255 (ix2 n k))
    (fun n k => V c main_v274 (ix2 n k))
    (fun n k => V c main_v293 (ix2 n k))
    (fun n => V c main_v54 (ix2 n 0))
    (fun n => V c main_v55 (ix2 n 0))
    (fun n => V c main_v56 (ix2 n 0))
    (fun j => V c main_v296 (ix2 0 j))
    (fun j => V c main_v299 (ix2 0 j))
    (fun j => V c main_v302 (ix2 0 j))
    (fun k j => V c main_v304 (ix2 k j))
    (fun k j => V c main_v306 (ix2 k j))
    (fun k j => V c main_v308 (ix2 k j))
    (fun j q => V c main_arg7 (ix2 j q))
    (fun q => V c main_v309 (ix2 0 q))
    ⟨(i 0).val, idx2_lt0 i⟩ ⟨(i 1).val, idx2_lt1 i⟩ := rfl

/-- What the body leaves in the output block is one function of the input blocks: the layer's formula on the block's rows
    (the one store covers the block from offset zero; each load reads a whole block). -/
theorem out2_eq (x0 : Vec Ideal S2000x128 .f32) (x1 : Vec Ideal S2000x128 .f32) (x2 : Vec Ideal S2000x128 .f32) (x3 : Vec Ideal S2000x1 .f32) (x4 : Vec Ideal S2000x1 .f32) (x5 : Vec Ideal S2000x1 .f32) (x6 : Vec Ideal S1x128 .f32) (x7 : Vec Ideal S1x128 .f32) (x8 : Vec Ideal S1x128 .f32) (x9 : Vec Ideal S128x128 .f32) (x10 : Vec Ideal S128x128 .f32) (x11 : Vec Ideal S128x128 .f32) (x12 : Vec Ideal S128x512 .f32) (x13 : Vec Ideal S1x512 .f32) :
    out2_14 x0 x1 x2 x3 x4 x5 x6 x7 x8 x9 x10 x11 x12 x13 = fun j : S2000x512.Idx => Cert.GcnSpec.lastK
      (fun r k => x0 (ix2 r k))
      (fun r k => x1 (ix2 r k))
      (fun r k => x2 (ix2 r k))
      (fun r => x3 (ix2 r 0))
      (fun r => x4 (ix2 r 0))
      (fun r => x5 (ix2 r 0))
      (fun j => x6 (ix2 0 j))
      (fun j => x7 (ix2 0 j))
      (fun j => x8 (ix2 0 j))
      (fun k j => x9 (ix2 k j))
      (fun k j => x10 (ix2 k j))
      (fun k j => x11 (ix2 k j))
      (fun j q => x12 (ix2 j q))
      (fun q => x13 (ix2 0 q))
      ⟨(j 0).val, idx2_lt0 j⟩ ⟨(j 1).val, idx2_lt1 j⟩ := by
  unfold out2_14
  rw [View.canon_unit_zero View.zero2]
  simp only [View.ld_unit_zero (S := S2000x128) View.zero2, View.ld_unit_zero (S := S2000x1) View.zero2, View.ld_unit_zero (S := S128x128) View.zero2, View.ld_unit_zero (S := S1x128) View.zero2, View.ld_unit_zero (S := S128x512) View.zero2, View.ld_unit_zero (S := S1x512) View.zero2]
  funext j
  obtain ⟨y, q, rfl⟩ : ∃ (y : Fin 2000) (q : Fin 512), j = ix2 y q := ⟨j 0, j 1, eq_ix2 j⟩
  exact last_apply x0 x1 x2 x3 x4 x5 x6 x7 x8 x9 x10 x11 x12 x13 y q

/-- What grid point t writes back is block t of that one function of the whole arrays: row r of the block is row
    2000·t + r of the array, and the layer's entry there reads that row of the aggregates and degree columns only. -/
theorem flushed2_eq (c : Dev nD) (t : Fin cfg2.N) :
    (dat2 (F := Ideal) V c).flushed 14 t = ((cfg2.win 14).blk t).view.read (Elt Ideal) (layer2 V c) := by
  show (cfg2.win 14).cut (grid2.coords t) ((dat2 V c).after 14 t) = _
  rw [after2_14, out2_eq]
  obtain ⟨e0, e1⟩ := idx2_14 t
  funext j
  have h0 : (((cfg2.win 14).blk t).view.emb j 0).val = t.val * 2000 + (j 0).val := by
    show win2_14.index t 0 * 2000 + 1 * (j 0).val = _; rw [e0]; omega
  have h1 : (((cfg2.win 14).blk t).view.emb j 1).val = (j 1).val := by
    show win2_14.index t 1 * 512 + 1 * (j 1).val = _; rw [e1]; omega
  refine Eq.trans ?_ (layer2_apply V c (((cfg2.win 14).blk t).view.emb j)).symm
  exact lastK_congr _ _ _ _ (Fin.ext h1.symm)
    (fun k => win2_0_apply V c t _ k _ h0)
    (fun k => win2_1_apply V c t _ k _ h0)
    (fun k => win2_2_apply V c t _ k _ h0)
    (win2_3_apply V c t _ 0 _ h0)
    (win2_4_apply V c t _ 0 _ h0)
    (win2_5_apply V c t _ 0 _ h0)
    (fun j => win2_6_apply V c t 0 j)
    (fun j => win2_7_apply V c t 0 j)
    (fun j => win2_8_apply V c t 0 j)
    (fun k j => win2_9_apply V c t k j)
    (fun k j => win2_10_apply V c t k j)
    (fun k j => win2_11_apply V c t k j)
    (fun k j => win2_12_apply V c t k j)
    (fun q => win2_13_apply V c t 0 q)

/-- Every index of the result lies in some point's block: row i₀ in the block of point i₀ / 2000. -/
theorem cover2 (i : S50000x512.Idx) :
    ∃ t : Fin cfg2.N, (cfg2.win 14).flush t = true ∧ i ∈ ((cfg2.win 14).blk t).view.set := by
  have hN : grid2.N = 25 := N_2
  have hi0 : (i 0).val < 50000 := idx2_lt0 i
  have hi1 : (i 1).val < 512 := idx2_lt1 i
  obtain ⟨t, ht⟩ : ∃ t : Fin cfg2.N, t.val = (i 0).val / 2000 :=
    ⟨⟨(i 0).val / 2000, by show (i 0).val / 2000 < grid2.N; rw [hN]; omega⟩, rfl⟩
  obtain ⟨e0, e1⟩ := idx2_14 t
  refine ⟨t, flush2_14 t, ?_⟩
  show i ∈ ((View.whole main_v310).slice (win2_14.rect t)).set
  rw [View.set_slice_whole, Rect.mem_set_unit]
  intro a
  match a with
  | ⟨0, _⟩ =>
    show win2_14.index t 0 * 2000 ≤ (i 0).val ∧ (i 0).val < win2_14.index t 0 * 2000 + 2000
    rw [e0]; omega
  | ⟨1, _⟩ =>
    show win2_14.index t 1 * 512 ≤ (i 1).val ∧ (i 1).val < win2_14.index t 1 * 512 + 512
    rw [e1]; omega

/-- So the result array ends holding that one function. -/
theorem region2_array (c : Dev nD) : (dat2 (F := Ideal) V c).arrAt 14 cfg2.N = layer2 V c :=
  (dat2 (F := Ideal) V c).arrAt_eq_of_cover 14 (layer2 V c) (fun t _ => flushed2_eq V c t) cover2

/-- Entry (p, q) of the result: the layer's formula on the arrays the call found. -/
theorem region2_apply (c : Dev nD) (p : Fin 50000) (q : Fin 512) :
    (dat2 (F := Ideal) V c).arrAt 14 cfg2.N (ix2 p q)
      = Cert.GcnSpec.lastK
          (fun n k => V c main_v255 (ix2 n k))
          (fun n k => V c main_v274 (ix2 n k))
          (fun n k => V c main_v293 (ix2 n k))
          (fun n => V c main_v54 (ix2 n 0))
          (fun n => V c main_v55 (ix2 n 0))
          (fun n => V c main_v56 (ix2 n 0))
          (fun j => V c main_v296 (ix2 0 j))
          (fun j => V c main_v299 (ix2 0 j))
          (fun j => V c main_v302 (ix2 0 j))
          (fun k j => V c main_v304 (ix2 k j))
          (fun k j => V c main_v306 (ix2 k j))
          (fun k j => V c main_v308 (ix2 k j))
          (fun j q => V c main_arg7 (ix2 j q))
          (fun q => V c main_v309 (ix2 0 q))
          p q := by
  rw [region2_array]
  rfl

end Cert.KernelIdeal.RegionValue

end
-- ==== Proof.KernelValue.lean ====
/-
  The idealized kernel program's result, layer by layer, as the specification's aggregate-first layers of the launch
  contents: each pallas_call's output array is the layer function of the three aggregates the host stretch before it
  leaves, and every degree factor, index row and parameter slice a later stretch reads is what the first stretch
  computed from the arguments (no later segment writes them).
-/
import proofs.«147366_j4853313044733_2_alg».proof.Proof.KernelIdealFrame
import proofs.«147366_j4853313044733_2_alg».proof.Proof.KernelHost0
import proofs.«147366_j4853313044733_2_alg».proof.Proof.KernelHost1
import proofs.«147366_j4853313044733_2_alg».proof.Proof.KernelHost2
import proofs.«147366_j4853313044733_2_alg».proof.Proof.RegionValue0
import proofs.«147366_j4853313044733_2_alg».proof.Proof.RegionValue1
import proofs.«147366_j4853313044733_2_alg».proof.Proof.RegionValue2

set_option maxRecDepth 16384

noncomputable section

namespace Cert.KernelIdeal.KernelValue

open Cert.KernelIdeal Cert.KernelIdeal.Gen Cert.KernelIdeal.GenP Cert.KernelIdeal.HostTerms Cert.KernelIdeal.HostValue
  Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## What the later segments find in the buffers the first stretch wrote -/

theorem w1_main_arg1 : W1 m ρ c (Proc.devRef .tc main_arg1) = W0 m ρ c (Proc.devRef .tc main_arg1) := keep_hostOps0_main_arg1 (W0 m ρ c)
theorem w1_main_arg2 : W1 m ρ c (Proc.devRef .tc main_arg2) = W0 m ρ c (Proc.devRef .tc main_arg2) := keep_hostOps0_main_arg2 (W0 m ρ c)
theorem w1_main_arg3 : W1 m ρ c (Proc.devRef .tc main_arg3) = W0 m ρ c (Proc.devRef .tc main_arg3) := keep_hostOps0_main_arg3 (W0 m ρ c)
theorem w1_main_arg4 : W1 m ρ c (Proc.devRef .tc main_arg4) = W0 m ρ c (Proc.devRef .tc main_arg4) := keep_hostOps0_main_arg4 (W0 m ρ c)
theorem w1_main_arg5 : W1 m ρ c (Proc.devRef .tc main_arg5) = W0 m ρ c (Proc.devRef .tc main_arg5) := keep_hostOps0_main_arg5 (W0 m ρ c)
theorem w1_main_arg6 : W1 m ρ c (Proc.devRef .tc main_arg6) = W0 m ρ c (Proc.devRef .tc main_arg6) := keep_hostOps0_main_arg6 (W0 m ρ c)
theorem w1_main_arg7 : W1 m ρ c (Proc.devRef .tc main_arg7) = W0 m ρ c (Proc.devRef .tc main_arg7) := keep_hostOps0_main_arg7 (W0 m ρ c)
theorem w1_main_arg8 : W1 m ρ c (Proc.devRef .tc main_arg8) = W0 m ρ c (Proc.devRef .tc main_arg8) := keep_hostOps0_main_arg8 (W0 m ρ c)
theorem w1_main_arg9 : W1 m ρ c (Proc.devRef .tc main_arg9) = W0 m ρ c (Proc.devRef .tc main_arg9) := keep_hostOps0_main_arg9 (W0 m ρ c)
theorem w1_main_arg10 : W1 m ρ c (Proc.devRef .tc main_arg10) = W0 m ρ c (Proc.devRef .tc main_arg10) := keep_hostOps0_main_arg10 (W0 m ρ c)
theorem w1_main_arg11 : W1 m ρ c (Proc.devRef .tc main_arg11) = W0 m ρ c (Proc.devRef .tc main_arg11) := keep_hostOps0_main_arg11 (W0 m ρ c)
theorem w1_main_arg12 : W1 m ρ c (Proc.devRef .tc main_arg12) = W0 m ρ c (Proc.devRef .tc main_arg12) := keep_hostOps0_main_arg12 (W0 m ρ c)
theorem w1_nout0 : W1 m ρ c (Proc.devRef .tc main_v8) = degNorm (idxRow0 (W0 m ρ c (Proc.devRef .tc main_arg1))) := nout_0 (W0 m ρ c)
theorem w1_nout1 : W1 m ρ c (Proc.devRef .tc main_v17) = degNorm (idxRow1 (W0 m ρ c (Proc.devRef .tc main_arg1))) := nout_1 (W0 m ρ c)
theorem w1_nout2 : W1 m ρ c (Proc.devRef .tc main_v26) = degNorm (idxRow2 (W0 m ρ c (Proc.devRef .tc main_arg1))) := nout_2 (W0 m ρ c)
theorem w1_nin0 (n : Fin 50000) : W1 m ρ c (Proc.devRef .tc main_v54) (ix2 n 0) = degNorm (idxRow0 (W0 m ρ c (Proc.devRef .tc main_arg2))) (ix1 n) := nin_0 (W0 m ρ c) n
theorem w1_nin1 (n : Fin 50000) : W1 m ρ c (Proc.devRef .tc main_v55) (ix2 n 0) = degNorm (idxRow1 (W0 m ρ c (Proc.devRef .tc main_arg2))) (ix1 n) := nin_1 (W0 m ρ c) n
theorem w1_nin2 (n : Fin 50000) : W1 m ρ c (Proc.devRef .tc main_v56) (ix2 n 0) = degNorm (idxRow2 (W0 m ρ c (Proc.devRef .tc main_arg2))) (ix1 n) := nin_2 (W0 m ρ c) n

theorem w2_main_arg1 : W2 m ρ c (Proc.devRef .tc main_arg1) = W1 m ρ c (Proc.devRef .tc main_arg1) := W2_of_ne m ρ c main_arg1 (by decide)
theorem w2_main_arg2 : W2 m ρ c (Proc.devRef .tc main_arg2) = W1 m ρ c (Proc.devRef .tc main_arg2) := W2_of_ne m ρ c main_arg2 (by decide)
theorem w2_main_arg3 : W2 m ρ c (Proc.devRef .tc main_arg3) = W1 m ρ c (Proc.devRef .tc main_arg3) := W2_of_ne m ρ c main_arg3 (by decide)
theorem w2_main_arg4 : W2 m ρ c (Proc.devRef .tc main_arg4) = W1 m ρ c (Proc.devRef .tc main_arg4) := W2_of_ne m ρ c main_arg4 (by decide)
theorem w2_main_arg5 : W2 m ρ c (Proc.devRef .tc main_arg5) = W1 m ρ c (Proc.devRef .tc main_arg5) := W2_of_ne m ρ c main_arg5 (by decide)
theorem w2_main_arg6 : W2 m ρ c (Proc.devRef .tc main_arg6) = W1 m ρ c (Proc.devRef .tc main_arg6) := W2_of_ne m ρ c main_arg6 (by decide)
theorem w2_main_arg7 : W2 m ρ c (Proc.devRef .tc main_arg7) = W1 m ρ c (Proc.devRef .tc main_arg7) := W2_of_ne m ρ c main_arg7 (by decide)
theorem w2_main_arg8 : W2 m ρ c (Proc.devRef .tc main_arg8) = W1 m ρ c (Proc.devRef .tc main_arg8) := W2_of_ne m ρ c main_arg8 (by decide)
theorem w2_main_arg9 : W2 m ρ c (Proc.devRef .tc main_arg9) = W1 m ρ c (Proc.devRef .tc main_arg9) := W2_of_ne m ρ c main_arg9 (by decide)
theorem w2_main_arg10 : W2 m ρ c (Proc.devRef .tc main_arg10) = W1 m ρ c (Proc.devRef .tc main_arg10) := W2_of_ne m ρ c main_arg10 (by decide)
theorem w2_main_arg11 : W2 m ρ c (Proc.devRef .tc main_arg11) = W1 m ρ c (Proc.devRef .tc main_arg11) := W2_of_ne m ρ c main_arg11 (by decide)
theorem w2_main_arg12 : W2 m ρ c (Proc.devRef .tc main_arg12) = W1 m ρ c (Proc.devRef .tc main_arg12) := W2_of_ne m ρ c main_arg12 (by decide)
theorem w2_main_v8 : W2 m ρ c (Proc.devRef .tc main_v8) = W1 m ρ c (Proc.devRef .tc main_v8) := W2_of_ne m ρ c main_v8 (by decide)
theorem w2_main_v17 : W2 m ρ c (Proc.devRef .tc main_v17) = W1 m ρ c (Proc.devRef .tc main_v17) := W2_of_ne m ρ c main_v17 (by decide)
theorem w2_main_v26 : W2 m ρ c (Proc.devRef .tc main_v26) = W1 m ρ c (Proc.devRef .tc main_v26) := W2_of_ne m ρ c main_v26 (by decide)
/-- The destination-degree columns are input windows of the first pallas_call: an input window's array is never written
    back, so at the region's exit it holds what it held at entry. -/
theorem w2_main_v54 : W2 m ρ c (Proc.devRef .tc main_v54) = W1 m ρ c (Proc.devRef .tc main_v54) :=
  (W2_arr m ρ c 3).trans (((dat0 (V1 m ρ) c).arrAt_in 3 rfl cfg0.N).trans (A_eq0 (V1 m ρ) c 3))
theorem w2_main_v55 : W2 m ρ c (Proc.devRef .tc main_v55) = W1 m ρ c (Proc.devRef .tc main_v55) :=
  (W2_arr m ρ c 4).trans (((dat0 (V1 m ρ) c).arrAt_in 4 rfl cfg0.N).trans (A_eq0 (V1 m ρ) c 4))
theorem w2_main_v56 : W2 m ρ c (Proc.devRef .tc main_v56) = W1 m ρ c (Proc.devRef .tc main_v56) :=
  (W2_arr m ρ c 5).trans (((dat0 (V1 m ρ) c).arrAt_in 5 rfl cfg0.N).trans (A_eq0 (V1 m ρ) c 5))
theorem w3_main_arg1 : W3 m ρ c (Proc.devRef .tc main_arg1) = W2 m ρ c (Proc.devRef .tc main_arg1) := keep_hostOps1_main_arg1 (W2 m ρ c)
theorem w3_main_arg2 : W3 m ρ c (Proc.devRef .tc main_arg2) = W2 m ρ c (Proc.devRef .tc main_arg2) := keep_hostOps1_main_arg2 (W2 m ρ c)
theorem w3_main_arg3 : W3 m ρ c (Proc.devRef .tc main_arg3) = W2 m ρ c (Proc.devRef .tc main_arg3) := keep_hostOps1_main_arg3 (W2 m ρ c)
theorem w3_main_arg4 : W3 m ρ c (Proc.devRef .tc main_arg4) = W2 m ρ c (Proc.devRef .tc main_arg4) := keep_hostOps1_main_arg4 (W2 m ρ c)
theorem w3_main_arg5 : W3 m ρ c (Proc.devRef .tc main_arg5) = W2 m ρ c (Proc.devRef .tc main_arg5) := keep_hostOps1_main_arg5 (W2 m ρ c)
theorem w3_main_arg6 : W3 m ρ c (Proc.devRef .tc main_arg6) = W2 m ρ c (Proc.devRef .tc main_arg6) := keep_hostOps1_main_arg6 (W2 m ρ c)
theorem w3_main_arg7 : W3 m ρ c (Proc.devRef .tc main_arg7) = W2 m ρ c (Proc.devRef .tc main_arg7) := keep_hostOps1_main_arg7 (W2 m ρ c)
theorem w3_main_arg8 : W3 m ρ c (Proc.devRef .tc main_arg8) = W2 m ρ c (Proc.devRef .tc main_arg8) := keep_hostOps1_main_arg8 (W2 m ρ c)
theorem w3_main_arg9 : W3 m ρ c (Proc.devRef .tc main_arg9) = W2 m ρ c (Proc.devRef .tc main_arg9) := keep_hostOps1_main_arg9 (W2 m ρ c)
theorem w3_main_arg10 : W3 m ρ c (Proc.devRef .tc main_arg10) = W2 m ρ c (Proc.devRef .tc main_arg10) := keep_hostOps1_main_arg10 (W2 m ρ c)
theorem w3_main_arg11 : W3 m ρ c (Proc.devRef .tc main_arg11) = W2 m ρ c (Proc.devRef .tc main_arg11) := keep_hostOps1_main_arg11 (W2 m ρ c)
theorem w3_main_arg12 : W3 m ρ c (Proc.devRef .tc main_arg12) = W2 m ρ c (Proc.devRef .tc main_arg12) := keep_hostOps1_main_arg12 (W2 m ρ c)
theorem w3_main_v8 : W3 m ρ c (Proc.devRef .tc main_v8) = W2 m ρ c (Proc.devRef .tc main_v8) := keep_hostOps1_main_v8 (W2 m ρ c)
theorem w3_main_v17 : W3 m ρ c (Proc.devRef .tc main_v17) = W2 m ρ c (Proc.devRef .tc main_v17) := keep_hostOps1_main_v17 (W2 m ρ c)
theorem w3_main_v26 : W3 m ρ c (Proc.devRef .tc main_v26) = W2 m ρ c (Proc.devRef .tc main_v26) := keep_hostOps1_main_v26 (W2 m ρ c)
theorem w3_main_v54 : W3 m ρ c (Proc.devRef .tc main_v54) = W2 m ρ c (Proc.devRef .tc main_v54) := keep_hostOps1_main_v54 (W2 m ρ c)
theorem w3_main_v55 : W3 m ρ c (Proc.devRef .tc main_v55) = W2 m ρ c (Proc.devRef .tc main_v55) := keep_hostOps1_main_v55 (W2 m ρ c)
theorem w3_main_v56 : W3 m ρ c (Proc.devRef .tc main_v56) = W2 m ρ c (Proc.devRef .tc main_v56) := keep_hostOps1_main_v56 (W2 m ρ c)
theorem w4_main_arg1 : W4 m ρ c (Proc.devRef .tc main_arg1) = W3 m ρ c (Proc.devRef .tc main_arg1) := W4_of_ne m ρ c main_arg1 (by decide)
theorem w4_main_arg2 : W4 m ρ c (Proc.devRef .tc main_arg2) = W3 m ρ c (Proc.devRef .tc main_arg2) := W4_of_ne m ρ c main_arg2 (by decide)
theorem w4_main_arg3 : W4 m ρ c (Proc.devRef .tc main_arg3) = W3 m ρ c (Proc.devRef .tc main_arg3) := W4_of_ne m ρ c main_arg3 (by decide)
theorem w4_main_arg4 : W4 m ρ c (Proc.devRef .tc main_arg4) = W3 m ρ c (Proc.devRef .tc main_arg4) := W4_of_ne m ρ c main_arg4 (by decide)
theorem w4_main_arg5 : W4 m ρ c (Proc.devRef .tc main_arg5) = W3 m ρ c (Proc.devRef .tc main_arg5) := W4_of_ne m ρ c main_arg5 (by decide)
theorem w4_main_arg6 : W4 m ρ c (Proc.devRef .tc main_arg6) = W3 m ρ c (Proc.devRef .tc main_arg6) := W4_of_ne m ρ c main_arg6 (by decide)
theorem w4_main_arg7 : W4 m ρ c (Proc.devRef .tc main_arg7) = W3 m ρ c (Proc.devRef .tc main_arg7) := W4_of_ne m ρ c main_arg7 (by decide)
theorem w4_main_arg8 : W4 m ρ c (Proc.devRef .tc main_arg8) = W3 m ρ c (Proc.devRef .tc main_arg8) := W4_of_ne m ρ c main_arg8 (by decide)
theorem w4_main_arg9 : W4 m ρ c (Proc.devRef .tc main_arg9) = W3 m ρ c (Proc.devRef .tc main_arg9) := W4_of_ne m ρ c main_arg9 (by decide)
theorem w4_main_arg10 : W4 m ρ c (Proc.devRef .tc main_arg10) = W3 m ρ c (Proc.devRef .tc main_arg10) := W4_of_ne m ρ c main_arg10 (by decide)
theorem w4_main_arg11 : W4 m ρ c (Proc.devRef .tc main_arg11) = W3 m ρ c (Proc.devRef .tc main_arg11) := W4_of_ne m ρ c main_arg11 (by decide)
theorem w4_main_arg12 : W4 m ρ c (Proc.devRef .tc main_arg12) = W3 m ρ c (Proc.devRef .tc main_arg12) := W4_of_ne m ρ c main_arg12 (by decide)
theorem w4_main_v8 : W4 m ρ c (Proc.devRef .tc main_v8) = W3 m ρ c (Proc.devRef .tc main_v8) := W4_of_ne m ρ c main_v8 (by decide)
theorem w4_main_v17 : W4 m ρ c (Proc.devRef .tc main_v17) = W3 m ρ c (Proc.devRef .tc main_v17) := W4_of_ne m ρ c main_v17 (by decide)
theorem w4_main_v26 : W4 m ρ c (Proc.devRef .tc main_v26) = W3 m ρ c (Proc.devRef .tc main_v26) := W4_of_ne m ρ c main_v26 (by decide)
/-- The same columns are input windows of the second pallas_call, and are again left as found. -/
theorem w4_main_v54 : W4 m ρ c (Proc.devRef .tc main_v54) = W3 m ρ c (Proc.devRef .tc main_v54) :=
  (W4_arr m ρ c 3).trans (((dat1 (V3 m ρ) c).arrAt_in 3 rfl cfg1.N).trans (A_eq1 (V3 m ρ) c 3))
theorem w4_main_v55 : W4 m ρ c (Proc.devRef .tc main_v55) = W3 m ρ c (Proc.devRef .tc main_v55) :=
  (W4_arr m ρ c 4).trans (((dat1 (V3 m ρ) c).arrAt_in 4 rfl cfg1.N).trans (A_eq1 (V3 m ρ) c 4))
theorem w4_main_v56 : W4 m ρ c (Proc.devRef .tc main_v56) = W3 m ρ c (Proc.devRef .tc main_v56) :=
  (W4_arr m ρ c 5).trans (((dat1 (V3 m ρ) c).arrAt_in 5 rfl cfg1.N).trans (A_eq1 (V3 m ρ) c 5))
theorem w5_main_arg1 : W5 m ρ c (Proc.devRef .tc main_arg1) = W4 m ρ c (Proc.devRef .tc main_arg1) := keep_hostOps2_main_arg1 (W4 m ρ c)
theorem w5_main_arg2 : W5 m ρ c (Proc.devRef .tc main_arg2) = W4 m ρ c (Proc.devRef .tc main_arg2) := keep_hostOps2_main_arg2 (W4 m ρ c)
theorem w5_main_arg3 : W5 m ρ c (Proc.devRef .tc main_arg3) = W4 m ρ c (Proc.devRef .tc main_arg3) := keep_hostOps2_main_arg3 (W4 m ρ c)
theorem w5_main_arg4 : W5 m ρ c (Proc.devRef .tc main_arg4) = W4 m ρ c (Proc.devRef .tc main_arg4) := keep_hostOps2_main_arg4 (W4 m ρ c)
theorem w5_main_arg5 : W5 m ρ c (Proc.devRef .tc main_arg5) = W4 m ρ c (Proc.devRef .tc main_arg5) := keep_hostOps2_main_arg5 (W4 m ρ c)
theorem w5_main_arg6 : W5 m ρ c (Proc.devRef .tc main_arg6) = W4 m ρ c (Proc.devRef .tc main_arg6) := keep_hostOps2_main_arg6 (W4 m ρ c)
theorem w5_main_arg7 : W5 m ρ c (Proc.devRef .tc main_arg7) = W4 m ρ c (Proc.devRef .tc main_arg7) := keep_hostOps2_main_arg7 (W4 m ρ c)
theorem w5_main_arg8 : W5 m ρ c (Proc.devRef .tc main_arg8) = W4 m ρ c (Proc.devRef .tc main_arg8) := keep_hostOps2_main_arg8 (W4 m ρ c)
theorem w5_main_arg9 : W5 m ρ c (Proc.devRef .tc main_arg9) = W4 m ρ c (Proc.devRef .tc main_arg9) := keep_hostOps2_main_arg9 (W4 m ρ c)
theorem w5_main_arg10 : W5 m ρ c (Proc.devRef .tc main_arg10) = W4 m ρ c (Proc.devRef .tc main_arg10) := keep_hostOps2_main_arg10 (W4 m ρ c)
theorem w5_main_arg11 : W5 m ρ c (Proc.devRef .tc main_arg11) = W4 m ρ c (Proc.devRef .tc main_arg11) := keep_hostOps2_main_arg11 (W4 m ρ c)
theorem w5_main_arg12 : W5 m ρ c (Proc.devRef .tc main_arg12) = W4 m ρ c (Proc.devRef .tc main_arg12) := keep_hostOps2_main_arg12 (W4 m ρ c)
theorem w5_main_v8 : W5 m ρ c (Proc.devRef .tc main_v8) = W4 m ρ c (Proc.devRef .tc main_v8) := keep_hostOps2_main_v8 (W4 m ρ c)
theorem w5_main_v17 : W5 m ρ c (Proc.devRef .tc main_v17) = W4 m ρ c (Proc.devRef .tc main_v17) := keep_hostOps2_main_v17 (W4 m ρ c)
theorem w5_main_v26 : W5 m ρ c (Proc.devRef .tc main_v26) = W4 m ρ c (Proc.devRef .tc main_v26) := keep_hostOps2_main_v26 (W4 m ρ c)
theorem w5_main_v54 : W5 m ρ c (Proc.devRef .tc main_v54) = W4 m ρ c (Proc.devRef .tc main_v54) := keep_hostOps2_main_v54 (W4 m ρ c)
theorem w5_main_v55 : W5 m ρ c (Proc.devRef .tc main_v55) = W4 m ρ c (Proc.devRef .tc main_v55) := keep_hostOps2_main_v55 (W4 m ρ c)
theorem w5_main_v56 : W5 m ρ c (Proc.devRef .tc main_v56) = W4 m ρ c (Proc.devRef .tc main_v56) := keep_hostOps2_main_v56 (W4 m ρ c)

/-! ## The three layers -/

/-- The first pallas_call's output is layer 0 of the launch features. -/
theorem layer0_out (p : Fin 50000) (q : Fin 128) :
    W2 m ρ c (Proc.devRef .tc main_v146) (ix2 p q)
      = Cert.GcnSpec.layerK
          (Cert.GcnSpec.aggK (fun n k => (W0 m ρ c (Proc.devRef .tc main_arg0)) (ix2 n k)) (fun n => degNorm (idxRow0 (W0 m ρ c (Proc.devRef .tc main_arg1))) (ix1 n))
            (fun e => LeadingAxis.clampRow 50000 (by decide) (normIdx (idxRow0 (W0 m ρ c (Proc.devRef .tc main_arg1))) (ix1 e))) (fun e => (idxRow0 (W0 m ρ c (Proc.devRef .tc main_arg2)) (ix1 e)).toInt))
          (Cert.GcnSpec.aggK (fun n k => (W0 m ρ c (Proc.devRef .tc main_arg0)) (ix2 n k)) (fun n => degNorm (idxRow1 (W0 m ρ c (Proc.devRef .tc main_arg1))) (ix1 n))
            (fun e => LeadingAxis.clampRow 50000 (by decide) (normIdx (idxRow1 (W0 m ρ c (Proc.devRef .tc main_arg1))) (ix1 e))) (fun e => (idxRow1 (W0 m ρ c (Proc.devRef .tc main_arg2)) (ix1 e)).toInt))
          (Cert.GcnSpec.aggK (fun n k => (W0 m ρ c (Proc.devRef .tc main_arg0)) (ix2 n k)) (fun n => degNorm (idxRow2 (W0 m ρ c (Proc.devRef .tc main_arg1))) (ix1 n))
            (fun e => LeadingAxis.clampRow 50000 (by decide) (normIdx (idxRow2 (W0 m ρ c (Proc.devRef .tc main_arg1))) (ix1 e))) (fun e => (idxRow2 (W0 m ρ c (Proc.devRef .tc main_arg2)) (ix1 e)).toInt))
          (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
          (fun j => (W0 m ρ c (Proc.devRef .tc main_arg4)) (ix3 0 0 j)) (fun j => (W0 m ρ c (Proc.devRef .tc main_arg4)) (ix3 0 1 j)) (fun j => (W0 m ρ c (Proc.devRef .tc main_arg4)) (ix3 0 2 j))
          (fun k j => (W0 m ρ c (Proc.devRef .tc main_arg3)) (ix4 0 0 k j)) (fun k j => (W0 m ρ c (Proc.devRef .tc main_arg3)) (ix4 0 1 k j)) (fun k j => (W0 m ρ c (Proc.devRef .tc main_arg3)) (ix4 0 2 k j))
          (fun j q => (W0 m ρ c (Proc.devRef .tc main_arg5)) (ix3 0 j q)) (fun q => (W0 m ρ c (Proc.devRef .tc main_arg6)) (ix2 0 q)) (fun q => (W0 m ρ c (Proc.devRef .tc main_arg9)) (ix2 0 q)) (fun q => (W0 m ρ c (Proc.devRef .tc main_arg10)) (ix2 0 q))
          (fun q => (W0 m ρ c (Proc.devRef .tc main_arg11)) (ix2 0 q)) (fun q => (W0 m ρ c (Proc.devRef .tc main_arg12)) (ix2 0 q)) p q := by
  rw [show W2 m ρ c (Proc.devRef .tc main_v146) = (dat0 (V1 m ρ) c).arrAt 18 cfg0.N from W2_arr m ρ c 18,
    Cert.KernelIdeal.RegionValue.region0_apply (V1 m ρ) c p q]
  dsimp only [V1, W1]
  simp only [agg_0_0 (W0 m ρ c), agg_0_1 (W0 m ρ c), agg_0_2 (W0 m ρ c), bias_0_0 (W0 m ρ c), bias_0_1 (W0 m ρ c), bias_0_2 (W0 m ρ c), wts_0_0 (W0 m ρ c), wts_0_1 (W0 m ρ c), wts_0_2 (W0 m ρ c), fcW_0 (W0 m ρ c), fcb_0 (W0 m ρ c), gamma_0 (W0 m ρ c), beta_0 (W0 m ρ c), mean_0 (W0 m ρ c), var_0 (W0 m ρ c), nin_0 (W0 m ρ c), nin_1 (W0 m ρ c), nin_2 (W0 m ρ c), keep_hostOps0_main_arg1 (W0 m ρ c), keep_hostOps0_main_arg2 (W0 m ρ c)]

/-- The second pallas_call's output is layer 1 of the first call's output. -/
theorem layer1_out (p : Fin 50000) (q : Fin 128) :
    W4 m ρ c (Proc.devRef .tc main_v236) (ix2 p q)
      = Cert.GcnSpec.layerK
          (Cert.GcnSpec.aggK (fun n k => W2 m ρ c (Proc.devRef .tc main_v146) (ix2 n k)) (fun n => degNorm (idxRow0 (W0 m ρ c (Proc.devRef .tc main_arg1))) (ix1 n))
            (fun e => LeadingAxis.clampRow 50000 (by decide) (normIdx (idxRow0 (W0 m ρ c (Proc.devRef .tc main_arg1))) (ix1 e))) (fun e => (idxRow0 (W0 m ρ c (Proc.devRef .tc main_arg2)) (ix1 e)).toInt))
          (Cert.GcnSpec.aggK (fun n k => W2 m ρ c (Proc.devRef .tc main_v146) (ix2 n k)) (fun n => degNorm (idxRow1 (W0 m ρ c (Proc.devRef .tc main_arg1))) (ix1 n))
            (fun e => LeadingAxis.clampRow 50000 (by decide) (normIdx (idxRow1 (W0 m ρ c (Proc.devRef .tc main_arg1))) (ix1 e))) (fun e => (idxRow1 (W0 m ρ c (Proc.devRef .tc main_arg2)) (ix1 e)).toInt))
          (Cert.GcnSpec.aggK (fun n k => W2 m ρ c (Proc.devRef .tc main_v146) (ix2 n k)) (fun n => degNorm (idxRow2 (W0 m ρ c (Proc.devRef .tc main_arg1))) (ix1 n))
            (fun e => LeadingAxis.clampRow 50000 (by decide) (normIdx (idxRow2 (W0 m ρ c (Proc.devRef .tc main_arg1))) (ix1 e))) (fun e => (idxRow2 (W0 m ρ c (Proc.devRef .tc main_arg2)) (ix1 e)).toInt))
          (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
          (fun j => (W0 m ρ c (Proc.devRef .tc main_arg4)) (ix3 1 0 j)) (fun j => (W0 m ρ c (Proc.devRef .tc main_arg4)) (ix3 1 1 j)) (fun j => (W0 m ρ c (Proc.devRef .tc main_arg4)) (ix3 1 2 j))
          (fun k j => (W0 m ρ c (Proc.devRef .tc main_arg3)) (ix4 1 0 k j)) (fun k j => (W0 m ρ c (Proc.devRef .tc main_arg3)) (ix4 1 1 k j)) (fun k j => (W0 m ρ c (Proc.devRef .tc main_arg3)) (ix4 1 2 k j))
          (fun j q => (W0 m ρ c (Proc.devRef .tc main_arg5)) (ix3 1 j q)) (fun q => (W0 m ρ c (Proc.devRef .tc main_arg6)) (ix2 1 q)) (fun q => (W0 m ρ c (Proc.devRef .tc main_arg9)) (ix2 1 q)) (fun q => (W0 m ρ c (Proc.devRef .tc main_arg10)) (ix2 1 q))
          (fun q => (W0 m ρ c (Proc.devRef .tc main_arg11)) (ix2 1 q)) (fun q => (W0 m ρ c (Proc.devRef .tc main_arg12)) (ix2 1 q)) p q := by
  rw [show W4 m ρ c (Proc.devRef .tc main_v236) = (dat1 (V3 m ρ) c).arrAt 18 cfg1.N from W4_arr m ρ c 18,
    Cert.KernelIdeal.RegionValue.region1_apply (V3 m ρ) c p q]
  dsimp only [V3, W3]
  simp only [agg_1_0 (W2 m ρ c), agg_1_1 (W2 m ρ c), agg_1_2 (W2 m ρ c), bias_1_0 (W2 m ρ c), bias_1_1 (W2 m ρ c), bias_1_2 (W2 m ρ c), wts_1_0 (W2 m ρ c), wts_1_1 (W2 m ρ c), wts_1_2 (W2 m ρ c), fcW_1 (W2 m ρ c), fcb_1 (W2 m ρ c), gamma_1 (W2 m ρ c), beta_1 (W2 m ρ c), mean_1 (W2 m ρ c), var_1 (W2 m ρ c), keep_hostOps1_main_arg1 (W2 m ρ c), keep_hostOps1_main_arg2 (W2 m ρ c), keep_hostOps1_main_arg3 (W2 m ρ c), keep_hostOps1_main_arg4 (W2 m ρ c), keep_hostOps1_main_arg5 (W2 m ρ c), keep_hostOps1_main_arg6 (W2 m ρ c), keep_hostOps1_main_arg7 (W2 m ρ c), keep_hostOps1_main_arg8 (W2 m ρ c), keep_hostOps1_main_arg9 (W2 m ρ c), keep_hostOps1_main_arg10 (W2 m ρ c), keep_hostOps1_main_arg11 (W2 m ρ c), keep_hostOps1_main_arg12 (W2 m ρ c), keep_hostOps1_main_v8 (W2 m ρ c), keep_hostOps1_main_v17 (W2 m ρ c), keep_hostOps1_main_v26 (W2 m ρ c), keep_hostOps1_main_v54 (W2 m ρ c), keep_hostOps1_main_v55 (W2 m ρ c), keep_hostOps1_main_v56 (W2 m ρ c)]
  simp only [w2_main_arg1 m ρ c, w2_main_arg2 m ρ c, w2_main_arg3 m ρ c, w2_main_arg4 m ρ c, w2_main_arg5 m ρ c, w2_main_arg6 m ρ c, w2_main_arg7 m ρ c, w2_main_arg8 m ρ c, w2_main_arg9 m ρ c, w2_main_arg10 m ρ c, w2_main_arg11 m ρ c, w2_main_arg12 m ρ c, w2_main_v8 m ρ c, w2_main_v17 m ρ c, w2_main_v26 m ρ c, w2_main_v54 m ρ c, w2_main_v55 m ρ c, w2_main_v56 m ρ c, w1_nin0 m ρ c, w1_nin1 m ρ c, w1_nin2 m ρ c, w1_nout0 m ρ c, w1_nout1 m ρ c, w1_nout2 m ρ c, w1_main_arg1 m ρ c, w1_main_arg2 m ρ c, w1_main_arg3 m ρ c, w1_main_arg4 m ρ c, w1_main_arg5 m ρ c, w1_main_arg6 m ρ c, w1_main_arg7 m ρ c, w1_main_arg8 m ρ c, w1_main_arg9 m ρ c, w1_main_arg10 m ρ c, w1_main_arg11 m ρ c, w1_main_arg12 m ρ c]

/-- The third pallas_call's output is the last layer of the second call's output. -/
theorem last_out (p : Fin 50000) (q : Fin 512) :
    W6 m ρ c (Proc.devRef .tc main_v310) (ix2 p q)
      = Cert.GcnSpec.lastK
          (Cert.GcnSpec.aggK (fun n k => W4 m ρ c (Proc.devRef .tc main_v236) (ix2 n k)) (fun n => degNorm (idxRow0 (W0 m ρ c (Proc.devRef .tc main_arg1))) (ix1 n))
            (fun e => LeadingAxis.clampRow 50000 (by decide) (normIdx (idxRow0 (W0 m ρ c (Proc.devRef .tc main_arg1))) (ix1 e))) (fun e => (idxRow0 (W0 m ρ c (Proc.devRef .tc main_arg2)) (ix1 e)).toInt))
          (Cert.GcnSpec.aggK (fun n k => W4 m ρ c (Proc.devRef .tc main_v236) (ix2 n k)) (fun n => degNorm (idxRow1 (W0 m ρ c (Proc.devRef .tc main_arg1))) (ix1 n))
            (fun e => LeadingAxis.clampRow 50000 (by decide) (normIdx (idxRow1 (W0 m ρ c (Proc.devRef .tc main_arg1))) (ix1 e))) (fun e => (idxRow1 (W0 m ρ c (Proc.devRef .tc main_arg2)) (ix1 e)).toInt))
          (Cert.GcnSpec.aggK (fun n k => W4 m ρ c (Proc.devRef .tc main_v236) (ix2 n k)) (fun n => degNorm (idxRow2 (W0 m ρ c (Proc.devRef .tc main_arg1))) (ix1 n))
            (fun e => LeadingAxis.clampRow 50000 (by decide) (normIdx (idxRow2 (W0 m ρ c (Proc.devRef .tc main_arg1))) (ix1 e))) (fun e => (idxRow2 (W0 m ρ c (Proc.devRef .tc main_arg2)) (ix1 e)).toInt))
          (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
          (fun j => (W0 m ρ c (Proc.devRef .tc main_arg4)) (ix3 2 0 j)) (fun j => (W0 m ρ c (Proc.devRef .tc main_arg4)) (ix3 2 1 j)) (fun j => (W0 m ρ c (Proc.devRef .tc main_arg4)) (ix3 2 2 j))
          (fun k j => (W0 m ρ c (Proc.devRef .tc main_arg3)) (ix4 2 0 k j)) (fun k j => (W0 m ρ c (Proc.devRef .tc main_arg3)) (ix4 2 1 k j)) (fun k j => (W0 m ρ c (Proc.devRef .tc main_arg3)) (ix4 2 2 k j))
          (fun j q => (W0 m ρ c (Proc.devRef .tc main_arg7)) (ix2 j q)) (fun q => (W0 m ρ c (Proc.devRef .tc main_arg8)) (ix1 q)) p q := by
  rw [show W6 m ρ c (Proc.devRef .tc main_v310) = (dat2 (V5 m ρ) c).arrAt 14 cfg2.N from W6_arr m ρ c 14,
    Cert.KernelIdeal.RegionValue.region2_apply (V5 m ρ) c p q]
  dsimp only [V5, W5]
  simp only [agg_2_0 (W4 m ρ c), agg_2_1 (W4 m ρ c), agg_2_2 (W4 m ρ c), bias_2_0 (W4 m ρ c), bias_2_1 (W4 m ρ c), bias_2_2 (W4 m ρ c), wts_2_0 (W4 m ρ c), wts_2_1 (W4 m ρ c), wts_2_2 (W4 m ρ c), fcb_2 (W4 m ρ c), keep_hostOps2_main_arg1 (W4 m ρ c), keep_hostOps2_main_arg2 (W4 m ρ c), keep_hostOps2_main_arg3 (W4 m ρ c), keep_hostOps2_main_arg4 (W4 m ρ c), keep_hostOps2_main_arg5 (W4 m ρ c), keep_hostOps2_main_arg6 (W4 m ρ c), keep_hostOps2_main_arg7 (W4 m ρ c), keep_hostOps2_main_arg8 (W4 m ρ c), keep_hostOps2_main_arg9 (W4 m ρ c), keep_hostOps2_main_arg10 (W4 m ρ c), keep_hostOps2_main_arg11 (W4 m ρ c), keep_hostOps2_main_arg12 (W4 m ρ c), keep_hostOps2_main_v8 (W4 m ρ c), keep_hostOps2_main_v17 (W4 m ρ c), keep_hostOps2_main_v26 (W4 m ρ c), keep_hostOps2_main_v54 (W4 m ρ c), keep_hostOps2_main_v55 (W4 m ρ c), keep_hostOps2_main_v56 (W4 m ρ c)]
  simp only [w4_main_arg1 m ρ c, w4_main_arg2 m ρ c, w4_main_arg3 m ρ c, w4_main_arg4 m ρ c, w4_main_arg5 m ρ c, w4_main_arg6 m ρ c, w4_main_arg7 m ρ c, w4_main_arg8 m ρ c, w4_main_arg9 m ρ c, w4_main_arg10 m ρ c, w4_main_arg11 m ρ c, w4_main_arg12 m ρ c, w4_main_v8 m ρ c, w4_main_v17 m ρ c, w4_main_v26 m ρ c, w4_main_v54 m ρ c, w4_main_v55 m ρ c, w4_main_v56 m ρ c, w3_main_arg1 m ρ c, w3_main_arg2 m ρ c, w3_main_arg3 m ρ c, w3_main_arg4 m ρ c, w3_main_arg5 m ρ c, w3_main_arg6 m ρ c, w3_main_arg7 m ρ c, w3_main_arg8 m ρ c, w3_main_arg9 m ρ c, w3_main_arg10 m ρ c, w3_main_arg11 m ρ c, w3_main_arg12 m ρ c, w3_main_v8 m ρ c, w3_main_v17 m ρ c, w3_main_v26 m ρ c, w3_main_v54 m ρ c, w3_main_v55 m ρ c, w3_main_v56 m ρ c, w2_main_arg1 m ρ c, w2_main_arg2 m ρ c, w2_main_arg3 m ρ c, w2_main_arg4 m ρ c, w2_main_arg5 m ρ c, w2_main_arg6 m ρ c, w2_main_arg7 m ρ c, w2_main_arg8 m ρ c, w2_main_arg9 m ρ c, w2_main_arg10 m ρ c, w2_main_arg11 m ρ c, w2_main_arg12 m ρ c, w2_main_v8 m ρ c, w2_main_v17 m ρ c, w2_main_v26 m ρ c, w2_main_v54 m ρ c, w2_main_v55 m ρ c, w2_main_v56 m ρ c, w1_nin0 m ρ c, w1_nin1 m ρ c, w1_nin2 m ρ c, w1_nout0 m ρ c, w1_nout1 m ρ c, w1_nout2 m ρ c, w1_main_arg1 m ρ c, w1_main_arg2 m ρ c, w1_main_arg3 m ρ c, w1_main_arg4 m ρ c, w1_main_arg5 m ρ c, w1_main_arg6 m ρ c, w1_main_arg7 m ρ c, w1_main_arg8 m ρ c, w1_main_arg9 m ρ c, w1_main_arg10 m ρ c, w1_main_arg11 m ρ c, w1_main_arg12 m ρ c]

end Cert.KernelIdeal.KernelValue

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.GcnAlgebra.lean ====
/-
  Real entries: the law that joins the two orders of summation, and that every layer maps real features to
  real features.

  An extended real is "real" when it is the image of a real number.  Sums, products, differences, maxima and
  finite sums of reals are real, and so is 1/√x of a positive real.  On real entries a finite sum of products
  obeys distributivity, so the aggregate-then-multiply form of one relation equals the multiply-then-aggregate
  form: both are the real number  ni(p) · Σ_{e : d e = p} Σ_k X(g e, k)·no(g e)·W(k, j).
-/
import proofs.«147366_j4853313044733_2_alg».proof.Proof.GcnSpec
import proofs.«147366_j4853313044733_2_alg».proof.Proof.LibERealSum

open scoped BigOperators

noncomputable section

namespace Cert.GcnSpec

open Idealize.ShloMosaic

/-- An extended real that is the image of a real number. -/
def IsReal (x : EReal) : Prop := ∃ r : ℝ, x = r

namespace IsReal

theorem zero : IsReal 0 := ⟨0, rfl⟩
theorem coe (r : ℝ) : IsReal (r : EReal) := ⟨r, rfl⟩
theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem maxR {x y : EReal} (hx : IsReal x) (hy : IsReal y) : IsReal (Max.max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩
theorem ite {c : Prop} [Decidable c] {x y : EReal} (hx : IsReal x) (hy : IsReal y) : IsReal (if c then x else y) := by
  split_ifs <;> assumption
theorem sum {ι : Type*} (s : Finset ι) {f : ι → EReal} (hf : ∀ i, IsReal (f i)) : IsReal (∑ i ∈ s, f i) := by
  classical
  induction s using Finset.induction_on with
  | empty => simpa using zero
  | insert a s ha ih => rw [Finset.sum_insert ha]; exact (hf a).add ih

/-- 1/√x of a positive real is real. -/
theorem rsqrt_pos {x : EReal} (hx : ∃ r : ℝ, x = r ∧ 0 < r) : IsReal (Ideal.rsqrt x) := by
  obtain ⟨r, rfl, hr⟩ := hx
  refine ⟨(Real.sqrt r)⁻¹, ?_⟩
  rw [Ideal.rsqrt_coe, if_neg (not_lt.mpr hr.le), if_neg hr.ne']

end IsReal

/-- The batch-normalisation epsilon is a positive real. -/
theorem epsW_pos : ∃ r : ℝ, epsW = r ∧ 0 < r := by
  refine ⟨(10995116 : ℝ) * (2 : ℝ) ^ (-40 : ℤ), ?_, by positivity⟩
  unfold epsW
  simp [Ideal.ofBits, Ideal.ieee, -EReal.coe_mul]

variable {N E H M : ℕ}

/-- On real features, real degree factors and real weights, one relation computed aggregate-first equals the
    relation computed message-first. -/
theorem relK_aggK_eq_relR (X : Fin N → Fin H → EReal) (no ni : Fin N → EReal) (W : Fin H → Fin H → EReal)
    (g : Fin E → Fin N) (d : Fin E → ℤ)
    (hX : ∀ n k, IsReal (X n k)) (hno : ∀ n, IsReal (no n)) (hni : ∀ n, IsReal (ni n)) (hW : ∀ k j, IsReal (W k j))
    (p : Fin N) (j : Fin H) :
    relK (aggK X no g d) ni W p j = relR X no ni W g d p j := by
  choose X' hX using hX
  choose no' hno using hno
  choose ni' hni using hni
  choose W' hW using hW
  have ite_coe : ∀ (c : Prop) [Decidable c] (a : ℝ), (if c then (a : EReal) else 0) = ((if c then a else 0 : ℝ) : EReal) := by
    intro c _ a; split_ifs <;> simp
  unfold relK aggK relR msgR
  simp only [hX, hno, hni, hW, ← EReal.coe_mul, ← ERealSum.coe_finset_sum, ite_coe]
  congr 1
  rw [Finset.sum_mul]
  have : ∀ k : Fin H, (∑ e : Fin E, if d e = (p.val : ℤ) then X' (g e) k * no' (g e) else 0) * ni' p * W' k j
      = ∑ e : Fin E, (if d e = (p.val : ℤ) then X' (g e) k * no' (g e) else 0) * ni' p * W' k j := by
    intro k; rw [Finset.sum_mul, Finset.sum_mul]
  simp only [this]
  rw [Finset.sum_comm]
  refine Finset.sum_congr rfl fun e _ => ?_
  by_cases h : d e = (p.val : ℤ)
  · simp only [h, if_true]
    rw [Finset.sum_mul]
    exact Finset.sum_congr rfl fun k _ => by ring
  · simp [h]

/-! ## Every layer maps real features to real features -/

theorem IsReal.msgR (X : Fin N → Fin H → EReal) (no : Fin N → EReal) (W : Fin H → Fin H → EReal)
    (hX : ∀ n k, IsReal (X n k)) (hno : ∀ n, IsReal (no n)) (hW : ∀ k j, IsReal (W k j)) (n : Fin N) (j : Fin H) :
    IsReal (msgR X no W n j) :=
  IsReal.sum _ fun k => ((hX n k).mul (hno n)).mul (hW k j)

theorem IsReal.relR (X : Fin N → Fin H → EReal) (no ni : Fin N → EReal) (W : Fin H → Fin H → EReal)
    (g : Fin E → Fin N) (d : Fin E → ℤ)
    (hX : ∀ n k, IsReal (X n k)) (hno : ∀ n, IsReal (no n)) (hni : ∀ n, IsReal (ni n)) (hW : ∀ k j, IsReal (W k j))
    (p : Fin N) (j : Fin H) : IsReal (relR X no ni W g d p j) :=
  (IsReal.sum _ fun e => IsReal.ite (IsReal.msgR X no W hX hno hW (g e) j) IsReal.zero).mul (hni p)

theorem IsReal.hidden3 {t0 t1 t2 b0 b1 b2 : EReal} (h0 : IsReal t0) (h1 : IsReal t1) (h2 : IsReal t2)
    (c0 : IsReal b0) (c1 : IsReal b1) (c2 : IsReal b2) : IsReal (hidden3 t0 t1 t2 b0 b1 b2) :=
  ((((h0.add c0).add h1).add c1).add h2).add c2

theorem IsReal.dense (h : Fin H → EReal) (Wfc : Fin H → Fin M → EReal) (fcb : Fin M → EReal)
    (hh : ∀ j, IsReal (h j)) (hW : ∀ j q, IsReal (Wfc j q)) (hb : ∀ q, IsReal (fcb q)) (q : Fin M) :
    IsReal (dense h Wfc fcb q) :=
  (IsReal.sum _ fun j => (hh j).mul (hW j q)).add (hb q)

/-- With a nonnegative real variance the normalised value is real: v + ε is a positive real. -/
theorem IsReal.bnRelu {y γ β μ v : EReal} (hy : IsReal y) (hγ : IsReal γ) (hβ : IsReal β) (hμ : IsReal μ)
    (hv : ∃ r : ℝ, v = r ∧ 0 ≤ r) : IsReal (bnRelu y γ β μ v) := by
  obtain ⟨r, rfl, hr⟩ := hv
  obtain ⟨e, he, hepos⟩ := epsW_pos
  refine ((hγ.mul ((hy.maxR IsReal.zero).sub hμ)).mul (IsReal.rsqrt_pos ⟨r + e, ?_, by positivity⟩)).add hβ
  rw [he, EReal.coe_add]

section Layers

variable (X : Fin N → Fin H → EReal) (no0 no1 no2 ni0 ni1 ni2 : Fin N → EReal) (g0 g1 g2 : Fin E → Fin N) (d0 d1 d2 : Fin E → ℤ)
  (b0 b1 b2 : Fin H → EReal) (W0 W1 W2 : Fin H → Fin H → EReal) (Wfc : Fin H → Fin M → EReal) (fcb γ β μ v : Fin M → EReal)

/-- The hidden layer aggregate-first equals the hidden layer message-first, on real features, factors and weights. -/
theorem layerK_aggK_eq_layerR (hX : ∀ n k, IsReal (X n k))
    (hno0 : ∀ n, IsReal (no0 n)) (hno1 : ∀ n, IsReal (no1 n)) (hno2 : ∀ n, IsReal (no2 n))
    (hni0 : ∀ n, IsReal (ni0 n)) (hni1 : ∀ n, IsReal (ni1 n)) (hni2 : ∀ n, IsReal (ni2 n))
    (hW0 : ∀ k j, IsReal (W0 k j)) (hW1 : ∀ k j, IsReal (W1 k j)) (hW2 : ∀ k j, IsReal (W2 k j)) (p : Fin N) (q : Fin M) :
    layerK (aggK X no0 g0 d0) (aggK X no1 g1 d1) (aggK X no2 g2 d2) ni0 ni1 ni2 b0 b1 b2 W0 W1 W2 Wfc fcb γ β μ v p q
      = layerR X no0 no1 no2 ni0 ni1 ni2 g0 g1 g2 d0 d1 d2 b0 b1 b2 W0 W1 W2 Wfc fcb γ β μ v p q := by
  unfold layerK layerR
  simp only [relK_aggK_eq_relR X no0 ni0 W0 g0 d0 hX hno0 hni0 hW0, relK_aggK_eq_relR X no1 ni1 W1 g1 d1 hX hno1 hni1 hW1,
    relK_aggK_eq_relR X no2 ni2 W2 g2 d2 hX hno2 hni2 hW2]

/-- The last layer aggregate-first equals the last layer message-first, on real features, factors and weights. -/
theorem lastK_aggK_eq_lastR (hX : ∀ n k, IsReal (X n k))
    (hno0 : ∀ n, IsReal (no0 n)) (hno1 : ∀ n, IsReal (no1 n)) (hno2 : ∀ n, IsReal (no2 n))
    (hni0 : ∀ n, IsReal (ni0 n)) (hni1 : ∀ n, IsReal (ni1 n)) (hni2 : ∀ n, IsReal (ni2 n))
    (hW0 : ∀ k j, IsReal (W0 k j)) (hW1 : ∀ k j, IsReal (W1 k j)) (hW2 : ∀ k j, IsReal (W2 k j)) (p : Fin N) (q : Fin M) :
    lastK (aggK X no0 g0 d0) (aggK X no1 g1 d1) (aggK X no2 g2 d2) ni0 ni1 ni2 b0 b1 b2 W0 W1 W2 Wfc fcb p q
      = lastR X no0 no1 no2 ni0 ni1 ni2 g0 g1 g2 d0 d1 d2 b0 b1 b2 W0 W1 W2 Wfc fcb p q := by
  unfold lastK lastR
  simp only [relK_aggK_eq_relR X no0 ni0 W0 g0 d0 hX hno0 hni0 hW0, relK_aggK_eq_relR X no1 ni1 W1 g1 d1 hX hno1 hni1 hW1,
    relK_aggK_eq_relR X no2 ni2 W2 g2 d2 hX hno2 hni2 hW2]

/-- A hidden layer's output is real when its input, factors, weights, biases and statistics are real and the
    variance is nonnegative. -/
theorem IsReal.layerR (hX : ∀ n k, IsReal (X n k))
    (hno0 : ∀ n, IsReal (no0 n)) (hno1 : ∀ n, IsReal (no1 n)) (hno2 : ∀ n, IsReal (no2 n))
    (hni0 : ∀ n, IsReal (ni0 n)) (hni1 : ∀ n, IsReal (ni1 n)) (hni2 : ∀ n, IsReal (ni2 n))
    (hW0 : ∀ k j, IsReal (W0 k j)) (hW1 : ∀ k j, IsReal (W1 k j)) (hW2 : ∀ k j, IsReal (W2 k j))
    (hb0 : ∀ j, IsReal (b0 j)) (hb1 : ∀ j, IsReal (b1 j)) (hb2 : ∀ j, IsReal (b2 j))
    (hWfc : ∀ j q, IsReal (Wfc j q)) (hfcb : ∀ q, IsReal (fcb q)) (hγ : ∀ q, IsReal (γ q)) (hβ : ∀ q, IsReal (β q))
    (hμ : ∀ q, IsReal (μ q)) (hv : ∀ q, ∃ r : ℝ, v q = r ∧ 0 ≤ r) (p : Fin N) (q : Fin M) :
    IsReal (layerR X no0 no1 no2 ni0 ni1 ni2 g0 g1 g2 d0 d1 d2 b0 b1 b2 W0 W1 W2 Wfc fcb γ β μ v p q) := by
  unfold Cert.GcnSpec.layerR
  exact IsReal.bnRelu (IsReal.dense _ Wfc fcb (fun j => IsReal.hidden3
      (IsReal.relR X no0 ni0 W0 g0 d0 hX hno0 hni0 hW0 p j) (IsReal.relR X no1 ni1 W1 g1 d1 hX hno1 hni1 hW1 p j)
      (IsReal.relR X no2 ni2 W2 g2 d2 hX hno2 hni2 hW2 p j) (hb0 j) (hb1 j) (hb2 j)) hWfc hfcb q) (hγ q) (hβ q) (hμ q) (hv q)

end Layers

/-! ## The whole decoder: two hidden layers and the last layer -/

section Network

variable {D : ℕ} (X : Fin N → Fin H → EReal) (no0 no1 no2 ni0 ni1 ni2 : Fin N → EReal) (g0 g1 g2 : Fin E → Fin N) (d0 d1 d2 : Fin E → ℤ)
  (b00 b01 b02 b10 b11 b12 b20 b21 b22 : Fin H → EReal) (W00 W01 W02 W10 W11 W12 W20 W21 W22 : Fin H → Fin H → EReal)
  (F0 F1 : Fin H → Fin H → EReal) (c0 c1 γ0 γ1 β0 β1 μ0 μ1 v0 v1 : Fin H → EReal) (FL : Fin H → Fin D → EReal) (cL : Fin D → EReal)

/-- Layer 0's output, aggregate-first. -/
def x1K : Fin N → Fin H → EReal := fun n k =>
  layerK (aggK X no0 g0 d0) (aggK X no1 g1 d1) (aggK X no2 g2 d2) ni0 ni1 ni2 b00 b01 b02 W00 W01 W02 F0 c0 γ0 β0 μ0 v0 n k
/-- Layer 0's output, message-first. -/
def x1R : Fin N → Fin H → EReal := fun n k =>
  layerR X no0 no1 no2 ni0 ni1 ni2 g0 g1 g2 d0 d1 d2 b00 b01 b02 W00 W01 W02 F0 c0 γ0 β0 μ0 v0 n k

/-- With every argument entry real and both variances nonnegative, the three layers computed aggregate-first
    (each layer on the previous layer's aggregate-first output) equal the three layers computed message-first. -/
theorem net_eq (hX : ∀ n k, IsReal (X n k))
    (hno0 : ∀ n, IsReal (no0 n)) (hno1 : ∀ n, IsReal (no1 n)) (hno2 : ∀ n, IsReal (no2 n))
    (hni0 : ∀ n, IsReal (ni0 n)) (hni1 : ∀ n, IsReal (ni1 n)) (hni2 : ∀ n, IsReal (ni2 n))
    (hW00 : ∀ k j, IsReal (W00 k j)) (hW01 : ∀ k j, IsReal (W01 k j)) (hW02 : ∀ k j, IsReal (W02 k j))
    (hW10 : ∀ k j, IsReal (W10 k j)) (hW11 : ∀ k j, IsReal (W11 k j)) (hW12 : ∀ k j, IsReal (W12 k j))
    (hW20 : ∀ k j, IsReal (W20 k j)) (hW21 : ∀ k j, IsReal (W21 k j)) (hW22 : ∀ k j, IsReal (W22 k j))
    (hb00 : ∀ j, IsReal (b00 j)) (hb01 : ∀ j, IsReal (b01 j)) (hb02 : ∀ j, IsReal (b02 j))
    (hb10 : ∀ j, IsReal (b10 j)) (hb11 : ∀ j, IsReal (b11 j)) (hb12 : ∀ j, IsReal (b12 j))
    (hF0 : ∀ j q, IsReal (F0 j q)) (hF1 : ∀ j q, IsReal (F1 j q)) (hc0 : ∀ q, IsReal (c0 q)) (hc1 : ∀ q, IsReal (c1 q))
    (hγ0 : ∀ q, IsReal (γ0 q)) (hγ1 : ∀ q, IsReal (γ1 q)) (hβ0 : ∀ q, IsReal (β0 q)) (hβ1 : ∀ q, IsReal (β1 q))
    (hμ0 : ∀ q, IsReal (μ0 q)) (hμ1 : ∀ q, IsReal (μ1 q))
    (hv0 : ∀ q, ∃ r : ℝ, v0 q = r ∧ 0 ≤ r) (hv1 : ∀ q, ∃ r : ℝ, v1 q = r ∧ 0 ≤ r) (p : Fin N) (q : Fin D) :
    lastK
        (aggK (fun n k => layerK
            (aggK (x1K X no0 no1 no2 ni0 ni1 ni2 g0 g1 g2 d0 d1 d2 b00 b01 b02 W00 W01 W02 F0 c0 γ0 β0 μ0 v0) no0 g0 d0)
            (aggK (x1K X no0 no1 no2 ni0 ni1 ni2 g0 g1 g2 d0 d1 d2 b00 b01 b02 W00 W01 W02 F0 c0 γ0 β0 μ0 v0) no1 g1 d1)
            (aggK (x1K X no0 no1 no2 ni0 ni1 ni2 g0 g1 g2 d0 d1 d2 b00 b01 b02 W00 W01 W02 F0 c0 γ0 β0 μ0 v0) no2 g2 d2)
            ni0 ni1 ni2 b10 b11 b12 W10 W11 W12 F1 c1 γ1 β1 μ1 v1 n k) no0 g0 d0)
        (aggK (fun n k => layerK
            (aggK (x1K X no0 no1 no2 ni0 ni1 ni2 g0 g1 g2 d0 d1 d2 b00 b01 b02 W00 W01 W02 F0 c0 γ0 β0 μ0 v0) no0 g0 d0)
            (aggK (x1K X no0 no1 no2 ni0 ni1 ni2 g0 g1 g2 d0 d1 d2 b00 b01 b02 W00 W01 W02 F0 c0 γ0 β0 μ0 v0) no1 g1 d1)
            (aggK (x1K X no0 no1 no2 ni0 ni1 ni2 g0 g1 g2 d0 d1 d2 b00 b01 b02 W00 W01 W02 F0 c0 γ0 β0 μ0 v0) no2 g2 d2)
            ni0 ni1 ni2 b10 b11 b12 W10 W11 W12 F1 c1 γ1 β1 μ1 v1 n k) no1 g1 d1)
        (aggK (fun n k => layerK
            (aggK (x1K X no0 no1 no2 ni0 ni1 ni2 g0 g1 g2 d0 d1 d2 b00 b01 b02 W00 W01 W02 F0 c0 γ0 β0 μ0 v0) no0 g0 d0)
            (aggK (x1K X no0 no1 no2 ni0 ni1 ni2 g0 g1 g2 d0 d1 d2 b00 b01 b02 W00 W01 W02 F0 c0 γ0 β0 μ0 v0) no1 g1 d1)
            (aggK (x1K X no0 no1 no2 ni0 ni1 ni2 g0 g1 g2 d0 d1 d2 b00 b01 b02 W00 W01 W02 F0 c0 γ0 β0 μ0 v0) no2 g2 d2)
            ni0 ni1 ni2 b10 b11 b12 W10 W11 W12 F1 c1 γ1 β1 μ1 v1 n k) no2 g2 d2)
        ni0 ni1 ni2 b20 b21 b22 W20 W21 W22 FL cL p q
      = lastR (fun n k => layerR (x1R X no0 no1 no2 ni0 ni1 ni2 g0 g1 g2 d0 d1 d2 b00 b01 b02 W00 W01 W02 F0 c0 γ0 β0 μ0 v0)
            no0 no1 no2 ni0 ni1 ni2 g0 g1 g2 d0 d1 d2 b10 b11 b12 W10 W11 W12 F1 c1 γ1 β1 μ1 v1 n k)
          no0 no1 no2 ni0 ni1 ni2 g0 g1 g2 d0 d1 d2 b20 b21 b22 W20 W21 W22 FL cL p q := by
  have h1 : x1K X no0 no1 no2 ni0 ni1 ni2 g0 g1 g2 d0 d1 d2 b00 b01 b02 W00 W01 W02 F0 c0 γ0 β0 μ0 v0
      = x1R X no0 no1 no2 ni0 ni1 ni2 g0 g1 g2 d0 d1 d2 b00 b01 b02 W00 W01 W02 F0 c0 γ0 β0 μ0 v0 :=
    funext fun n => funext fun k => layerK_aggK_eq_layerR X no0 no1 no2 ni0 ni1 ni2 g0 g1 g2 d0 d1 d2 b00 b01 b02 W00 W01 W02 F0 c0 γ0 β0 μ0 v0
      hX hno0 hno1 hno2 hni0 hni1 hni2 hW00 hW01 hW02 n k
  have r1 : ∀ n k, IsReal (x1R X no0 no1 no2 ni0 ni1 ni2 g0 g1 g2 d0 d1 d2 b00 b01 b02 W00 W01 W02 F0 c0 γ0 β0 μ0 v0 n k) :=
    fun n k => IsReal.layerR X no0 no1 no2 ni0 ni1 ni2 g0 g1 g2 d0 d1 d2 b00 b01 b02 W00 W01 W02 F0 c0 γ0 β0 μ0 v0
      hX hno0 hno1 hno2 hni0 hni1 hni2 hW00 hW01 hW02 hb00 hb01 hb02 hF0 hc0 hγ0 hβ0 hμ0 hv0 n k
  rw [h1]
  generalize x1R X no0 no1 no2 ni0 ni1 ni2 g0 g1 g2 d0 d1 d2 b00 b01 b02 W00 W01 W02 F0 c0 γ0 β0 μ0 v0 = Y at r1 ⊢
  have h2 : (fun n k => layerK (aggK Y no0 g0 d0) (aggK Y no1 g1 d1) (aggK Y no2 g2 d2) ni0 ni1 ni2 b10 b11 b12 W10 W11 W12 F1 c1 γ1 β1 μ1 v1 n k)
      = fun n k => layerR Y no0 no1 no2 ni0 ni1 ni2 g0 g1 g2 d0 d1 d2 b10 b11 b12 W10 W11 W12 F1 c1 γ1 β1 μ1 v1 n k :=
    funext fun n => funext fun k => layerK_aggK_eq_layerR Y no0 no1 no2 ni0 ni1 ni2 g0 g1 g2 d0 d1 d2 b10 b11 b12 W10 W11 W12 F1 c1 γ1 β1 μ1 v1
      r1 hno0 hno1 hno2 hni0 hni1 hni2 hW10 hW11 hW12 n k
  have r2 : ∀ n k, IsReal (layerR Y no0 no1 no2 ni0 ni1 ni2 g0 g1 g2 d0 d1 d2 b10 b11 b12 W10 W11 W12 F1 c1 γ1 β1 μ1 v1 n k) :=
    fun n k => IsReal.layerR Y no0 no1 no2 ni0 ni1 ni2 g0 g1 g2 d0 d1 d2 b10 b11 b12 W10 W11 W12 F1 c1 γ1 β1 μ1 v1
      r1 hno0 hno1 hno2 hni0 hni1 hni2 hW10 hW11 hW12 hb10 hb11 hb12 hF1 hc1 hγ1 hβ1 hμ1 hv1 n k
  rw [h2]
  exact lastK_aggK_eq_lastR _ no0 no1 no2 ni0 ni1 ni2 g0 g1 g2 d0 d1 d2 b20 b21 b22 W20 W21 W22 FL cL
    r2 hno0 hno1 hno2 hni0 hni1 hni2 hW20 hW21 hW22 p q

end Network

end Cert.GcnSpec

end
-- ==== Proof.KernelNorms.lean ====
/-
  A degree factor is a real number: deg(n) is a finite sum of zeros and ones, so max(deg(n), 1) is a real number
  at least 1 and its inverse square root is real.
-/
import proofs.«147366_j4853313044733_2_alg».proof.Proof.KernelHostTerms
import proofs.«147366_j4853313044733_2_alg».proof.Proof.GcnAlgebra
import proofs.«147366_j4853313044733_2_alg».proof.Proof.LibLeadingAxis
import proofs.«147366_j4853313044733_2_alg».proof.Proof.RefLayout
import Idealize.ShloMosaic.Lib.ValueIdx
import Idealize.ShloMosaic.Lib.Pipeline.Value

noncomputable section

namespace Cert.KernelIdeal.HostTerms

open Cert.KernelIdeal Cert.KernelIdeal.Facts₀ Idealize.ShloMosaic Idealize.ShloMosaic.ValueIdx Cert.GcnLayout Cert.GcnSpec

/-- The float word of 1.0 denotes 1. -/
theorem one_word : Ideal.ofBits .f32 0x3F800000#32 = (1 : EReal) := by
  simp [Ideal.ofBits, Ideal.ieee, -EReal.coe_mul]
  norm_num

/-- A finite sum of zeros and ones is a nonnegative real. -/
theorem count_real {ι : Type*} (s : Finset ι) (c : ι → Prop) [DecidablePred c] :
    ∃ r : ℝ, (∑ e ∈ s, if c e then (1 : EReal) else 0) = r ∧ 0 ≤ r := by
  classical
  induction s using Finset.induction_on with
  | empty => exact ⟨0, by simp, le_refl _⟩
  | insert a s ha ih =>
    obtain ⟨r, hr, hr0⟩ := ih
    rw [Finset.sum_insert ha, hr]
    by_cases h : c a
    · exact ⟨1 + r, by rw [if_pos h, EReal.coe_add]; rfl, by linarith⟩
    · exact ⟨r, by rw [if_neg h, zero_add], hr0⟩

/-- Every entry of a degree factor is a real number. -/
theorem degNorm_isReal (row : IVec S800000 32) (n : Fin 50000) : IsReal (degNorm row (ix1 n)) := by
  have hs : Host.scatterAdd scatter_S50000_S800000x1_S800000_n_0_0_1
        (broadcastInDim S50000 ![] bcast_S_S50000 (constant (F := Ideal) S_ .f32 0x00000000#32))
        (broadcastInDim S800000x1 ![0] bcast_S800000_S800000x1_0 row)
        (broadcastInDim S800000 ![] bcast_S_S800000 (constant (F := Ideal) S_ .f32 0x3F800000#32)) (ix1 n)
      = ∑ e : Fin 800000, if (row (ix1 e)).toInt = (n.val : Int) then (1 : EReal) else 0 := by
    refine (LeadingAxis.scatterAdd_vec_apply (N := 50000) (E := 800000) _ _ _ _ n).trans ?_
    rw [bcast_scalar_apply, constant_apply, Ideal.ofBits_zero_f32, zero_add]
    refine Finset.sum_congr rfl fun e _ => ?_
    rw [Lifts.broadcastInDim_a_a1_apply, bcast_scalar_apply, constant_apply, one_word]
  have h1 : broadcastInDim S50000 ![] bcast_S_S50000 (constant (F := Ideal) S_ .f32 0x3F800000#32) (ix1 n) = (1 : EReal) := by
    rw [bcast_scalar_apply, constant_apply, one_word]
  obtain ⟨r, hr, hr0⟩ := count_real (Finset.univ : Finset (Fin 800000)) (fun e => (row (ix1 e)).toInt = (n.val : Int))
  have hr1 : ∀ (v : FVec Ideal S50000 .f32) (i : S50000.Idx), Host.rsqrt v i = Ideal.rsqrt (v i) := fun _ _ => rfl
  unfold degNorm
  rw [hr1, maximumf_apply, hs, h1, hr]
  refine IsReal.rsqrt_pos ⟨max r 1, ?_, by positivity⟩
  rcases le_total r 1 with h | h
  · rw [max_eq_right h, max_eq_right (by exact_mod_cast h)]; rfl
  · rw [max_eq_left h, max_eq_left (by exact_mod_cast h)]

end Cert.KernelIdeal.HostTerms

end
-- ==== Proof.RefHost.lean ====
/-
  The host's spelling of a relational graph-convolution layer, read at an entry, over the extended reals.

  For one relation the host scales the features by the source degree factor, multiplies by the relation's weight
  matrix (a node's message), takes for every edge the message of its source node (a gather of rows at the clamped
  source index), adds the rows of the edges landing on each node (an accumulating scatter into zeros: an edge whose
  destination index is not a node adds nothing) and scales by the destination degree factor.  Entry (p, j) of the
  result is the specification's message-first relation term.  The three relation terms and their bias rows are added
  in program order starting from a zero array; a dense layer, the rectifier and the batch normalisation with running
  statistics follow.  Nothing here needs finiteness: each step is read at an index and the sums are left as they are.
-/
import Idealize.ShloMosaic.PureOps.Ideal.Laws
import Idealize.ShloMosaic.Lib.ValueIdx
import proofs.«147366_j4853313044733_2_alg».proof.Proof.GcnSpec
import proofs.«147366_j4853313044733_2_alg».proof.Proof.LibLifts
import proofs.«147366_j4853313044733_2_alg».proof.Proof.LibHostRow
import proofs.«147366_j4853313044733_2_alg».proof.Proof.LibPlainDot
import proofs.«147366_j4853313044733_2_alg».proof.Proof.LibLeadingAxis
import proofs.«147366_j4853313044733_2_alg».proof.Proof.RefLayout

noncomputable section

namespace Cert.GcnHost

open Idealize.ShloMosaic Idealize.ShloMosaic.ValueIdx Cert.GcnLayout

variable {N C E M : ℕ}

/-- The zero scalar repeated over an array is zero everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) := by
  rw [bcast_scalar_apply, constant_apply, Ideal.ofBits_zero_f32]

/-- A node's message: the features scaled by the source factor, times the weight matrix. -/
theorem msg_apply (X : FVec Ideal ⟨2, ![N, C]⟩ .f32) (no : FVec Ideal ⟨1, ![N]⟩ .f32) (W : FVec Ideal ⟨2, ![C, C]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (n : Fin N) (j : Fin C) :
    Host.dotGeneral (DotDims.plain N C C) none
        (mulf X (broadcastInDim ⟨2, ![N, C]⟩ ![0, 1] h2 (broadcastInDim ⟨2, ![N, 1]⟩ ![0] h1 no))) W (ix2 n j)
      = Cert.GcnSpec.msgR (fun n k => X (ix2 n k)) (fun n => no (ix1 n)) (fun k j => W (ix2 k j)) n j := by
  refine (PlainDot.dotGeneral_apply_ix2 none .single _ W n j).trans ?_
  unfold Cert.GcnSpec.msgR
  refine Finset.sum_congr rfl fun k _ => ?_
  rw [mulf_apply, HostRow.bcast_a_ab_apply]

/-- One relation, message first: entry (p, j) is the sum of the messages of the edges landing on p, times the
    destination factor. -/
theorem rel_apply (hN : 0 < N) (X : FVec Ideal ⟨2, ![N, C]⟩ .f32) (no ni : FVec Ideal ⟨1, ![N]⟩ .f32)
    (W : FVec Ideal ⟨2, ![C, C]⟩ .f32) (isrc idst : IVec ⟨1, ![E]⟩ 32)
    (hz : (⟨0, ![]⟩ : Shape).BroadcastsInDim ⟨2, ![N, C]⟩ (![] : Fin 0 → Fin 2))
    (h1 : (⟨1, ![N]⟩ : Shape).BroadcastsInDim ⟨2, ![N, 1]⟩ ![0])
    (h2 : (⟨2, ![N, 1]⟩ : Shape).BroadcastsInDim ⟨2, ![N, C]⟩ ![0, 1])
    (he : (⟨1, ![E]⟩ : Shape).BroadcastsInDim ⟨2, ![E, 1]⟩ ![0])
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1) (p : Fin N) (j : Fin C) :
    mulf (Host.scatterAdd (LeadingAxis.rowScatterDims N C E ws)
            (broadcastInDim ⟨2, ![N, C]⟩ ![] hz (constant (F := Ideal) ⟨0, ![]⟩ .f32 0x00000000#32))
            (broadcastInDim ⟨2, ![E, 1]⟩ ![0] he idst)
            (Host.gather (LeadingAxis.rowGatherDims N C E wg)
              (Host.dotGeneral (DotDims.plain N C C) none
                (mulf X (broadcastInDim ⟨2, ![N, C]⟩ ![0, 1] h2 (broadcastInDim ⟨2, ![N, 1]⟩ ![0] h1 no))) W)
              (broadcastInDim ⟨2, ![E, 1]⟩ ![0] he isrc)))
        (broadcastInDim ⟨2, ![N, C]⟩ ![0, 1] h2 (broadcastInDim ⟨2, ![N, 1]⟩ ![0] h1 ni)) (ix2 p j)
      = Cert.GcnSpec.relR (fun n k => X (ix2 n k)) (fun n => no (ix1 n)) (fun n => ni (ix1 n)) (fun k j => W (ix2 k j))
          (fun e => LeadingAxis.clampRow N hN (isrc (ix1 e))) (fun e => (idst (ix1 e)).toInt) p j := by
  rw [mulf_apply, HostRow.bcast_a_ab_apply, LeadingAxis.scatterAdd_rows_apply, zeros_apply, zero_add]
  unfold Cert.GcnSpec.relR
  congr 1
  refine Finset.sum_congr rfl fun e _ => ?_
  rw [Lifts.broadcastInDim_a_a1_apply, LeadingAxis.gather_rows_apply hN, Lifts.broadcastInDim_a_a1_apply, msg_apply]

/-- The three relation terms and their bias rows, added in program order onto a zero array. -/
theorem hidden_apply (T0 T1 T2 : FVec Ideal ⟨2, ![N, C]⟩ .f32) (b0 b1 b2 : FVec Ideal ⟨1, ![C]⟩ .f32)
    (hz : (⟨0, ![]⟩ : Shape).BroadcastsInDim ⟨2, ![N, C]⟩ (![] : Fin 0 → Fin 2))
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (j : Fin C) :
    addf (addf (addf (addf (addf (addf
        (broadcastInDim ⟨2, ![N, C]⟩ ![] hz (constant (F := Ideal) ⟨0, ![]⟩ .f32 0x00000000#32)) T0)
        (broadcastInDim ⟨2, ![N, C]⟩ ![0, 1] h2 (broadcastInDim ⟨2, ![1, C]⟩ ![1] h1 b0))) T1)
        (broadcastInDim ⟨2, ![N, C]⟩ ![0, 1] h2 (broadcastInDim ⟨2, ![1, C]⟩ ![1] h1 b1))) T2)
        (broadcastInDim ⟨2, ![N, C]⟩ ![0, 1] h2 (broadcastInDim ⟨2, ![1, C]⟩ ![1] h1 b2)) (ix2 p j)
      = Cert.GcnSpec.hidden3 (T0 (ix2 p j)) (T1 (ix2 p j)) (T2 (ix2 p j)) (b0 (ix1 j)) (b1 (ix1 j)) (b2 (ix1 j)) := by
  simp only [addf_apply]
  rw [bcast_b_ab_apply, bcast_b_ab_apply, bcast_b_ab_apply, zeros_apply, zero_add]
  rfl

/-- A dense layer on the rows of a matrix. -/
theorem dense_apply (Hm : FVec Ideal ⟨2, ![N, C]⟩ .f32) (Wm : FVec Ideal ⟨2, ![C, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1]) (p : Fin N) (q : Fin M) :
    addf (Host.dotGeneral (DotDims.plain N C M) none Hm Wm)
        (broadcastInDim ⟨2, ![N, M]⟩ ![0, 1] h2 (broadcastInDim ⟨2, ![1, M]⟩ ![1] h1 b)) (ix2 p q)
      = Cert.GcnSpec.dense (fun j => Hm (ix2 p j)) (fun j q => Wm (ix2 j q)) (fun q => b (ix1 q)) q := by
  rw [addf_apply, bcast_b_ab_apply]
  exact congrArg (· + b (ix1 q)) (PlainDot.dotGeneral_apply_ix2 none .single Hm Wm p q)

/-- The rectifier followed by the batch normalisation with running statistics. -/
theorem bnRelu_apply (Y : FVec Ideal ⟨2, ![N, M]⟩ .f32) (γ β μ v : FVec Ideal ⟨1, ![M]⟩ .f32)
    (hz : (⟨0, ![]⟩ : Shape).BroadcastsInDim ⟨2, ![N, M]⟩ (![] : Fin 0 → Fin 2))
    (he : (⟨0, ![]⟩ : Shape).BroadcastsInDim ⟨1, ![M]⟩ (![] : Fin 0 → Fin 1))
    (h1 : (⟨1, ![M]⟩ : Shape).BroadcastsInDim ⟨2, ![1, M]⟩ ![1])
    (h2 : (⟨2, ![1, M]⟩ : Shape).BroadcastsInDim ⟨2, ![N, M]⟩ ![0, 1]) (p : Fin N) (q : Fin M) :
    addf (mulf (mulf (broadcastInDim ⟨2, ![N, M]⟩ ![0, 1] h2 (broadcastInDim ⟨2, ![1, M]⟩ ![1] h1 γ))
          (subf (maximumf Y (broadcastInDim ⟨2, ![N, M]⟩ ![] hz (constant (F := Ideal) ⟨0, ![]⟩ .f32 0x00000000#32)))
            (broadcastInDim ⟨2, ![N, M]⟩ ![0, 1] h2 (broadcastInDim ⟨2, ![1, M]⟩ ![1] h1 μ))))
          (broadcastInDim ⟨2, ![N, M]⟩ ![0, 1] h2 (broadcastInDim ⟨2, ![1, M]⟩ ![1] h1
            (Host.rsqrt (addf v (broadcastInDim ⟨1, ![M]⟩ ![] he (constant (F := Ideal) ⟨0, ![]⟩ .f32 0x3727C5AC#32)))))))
        (broadcastInDim ⟨2, ![N, M]⟩ ![0, 1] h2 (broadcastInDim ⟨2, ![1, M]⟩ ![1] h1 β)) (ix2 p q)
      = Cert.GcnSpec.bnRelu (Y (ix2 p q)) (γ (ix1 q)) (β (ix1 q)) (μ (ix1 q)) (v (ix1 q)) := by
  simp only [addf_apply, mulf_apply, subf_apply, maximumf_apply]
  rw [bcast_b_ab_apply, bcast_b_ab_apply, bcast_b_ab_apply, bcast_b_ab_apply, zeros_apply]
  show _ * Ideal.rsqrt (v (ix1 q) + broadcastInDim ⟨1, ![M]⟩ ![] he (constant (F := Ideal) ⟨0, ![]⟩ .f32 0x3727C5AC#32) (ix1 q)) + _ = _
  rw [bcast_scalar_apply, constant_apply]
  rfl

end Cert.GcnHost

end
-- ==== Proof.RefLayer0.lean ====
/-
  Layer 0 of the reference, read at an entry: the three relation terms (messages gathered along the edges and added on the
  destination nodes, scaled by the degree factors), the biases, the dense layer, the rectifier and the batch normalisation.
  The degree factors and the edge indices are kept as the functions the first layer computes them with; a later layer
  computes the same index arrays again from the same arguments, and they are the same functions by definition.
-/
import proofs.«147366_j4853313044733_2_alg».proof.Proof.RefRead
import proofs.«147366_j4853313044733_2_alg».proof.Proof.GcnSpec
import proofs.«147366_j4853313044733_2_alg».proof.Proof.LibLeadingAxis
import proofs.«147366_j4853313044733_2_alg».proof.Proof.RefLayout
import proofs.«147366_j4853313044733_2_alg».proof.Proof.RefHost

noncomputable section

namespace Cert.ReferenceIdeal.RefValue

open Cert.ReferenceIdeal Cert.ReferenceIdeal.ReadP Idealize.ShloMosaic Idealize.ShloMosaic.ValueIdx Cert.GcnLayout

variable (x0 : (⟨S50000x128, .f32⟩ : BufTy).Contents (Elt Ideal)) (x1 x2 : (⟨S3x800000, .i32⟩ : BufTy).Contents (Elt Ideal))
  (x3 : (⟨S3x3x128x128, .f32⟩ : BufTy).Contents (Elt Ideal)) (x4 : (⟨S3x3x128, .f32⟩ : BufTy).Contents (Elt Ideal))
  (x5 : (⟨S2x128x128, .f32⟩ : BufTy).Contents (Elt Ideal)) (x6 : (⟨S2x128, .f32⟩ : BufTy).Contents (Elt Ideal))
  (x7 : (⟨S128x512, .f32⟩ : BufTy).Contents (Elt Ideal)) (x8 : (⟨S512, .f32⟩ : BufTy).Contents (Elt Ideal))
  (x9 x10 x11 x12 : (⟨S2x128, .f32⟩ : BufTy).Contents (Elt Ideal))

/-- Layer 0, relation 0: the relation term at (p, j). -/
theorem term_0_0 (p : Fin 50000) (j : Fin 128) :
    val_main_v77 (F := Ideal) x0 x1 x2 x3 (ix2 p j)
      = Cert.GcnSpec.relR (fun n k => x0 (ix2 n k)) (fun n => val_main_v8 (F := Ideal) x1 (ix1 n)) (fun n => val_main_v35 (F := Ideal) x2 (ix1 n)) (fun k j => x3 (ix4 0 0 k j)) (fun e => LeadingAxis.clampRow 50000 (by decide) (val_main_v67 (F := Ideal) x1 (ix1 e))) (fun e => (val_main_v71 (F := Ideal) x2 (ix1 e)).toInt) p j := by
  have key : val_main_v77 (F := Ideal) x0 x1 x2 x3 (ix2 p j)
      = Cert.GcnSpec.relR (fun n k => x0 (ix2 n k)) (fun n => val_main_v8 (F := Ideal) x1 (ix1 n)) (fun n => val_main_v35 (F := Ideal) x2 (ix1 n)) (fun k j => val_main_v59 (F := Ideal) x3 (ix2 k j)) (fun e => LeadingAxis.clampRow 50000 (by decide) (val_main_v67 (F := Ideal) x1 (ix1 e))) (fun e => (val_main_v71 (F := Ideal) x2 (ix1 e)).toInt) p j :=
    Cert.GcnHost.rel_apply (N := 50000) (C := 128) (E := 800000) (by decide) x0 (val_main_v8 (F := Ideal) x1) (val_main_v35 (F := Ideal) x2)
      (val_main_v59 (F := Ideal) x3) (val_main_v67 (F := Ideal) x1) (val_main_v71 (F := Ideal) x2) _ _ _ _ _ _ p j
  have eW : (fun k j => val_main_v59 (F := Ideal) x3 (ix2 k j)) = fun k j => x3 (ix4 0 0 k j) :=
    funext fun k => funext fun j => slice4_mat_apply x3 0 0 _ _ k j
  rw [key, eW]

/-- Layer 0, relation 1: the relation term at (p, j). -/
theorem term_0_1 (p : Fin 50000) (j : Fin 128) :
    val_main_v106 (F := Ideal) x0 x1 x2 x3 (ix2 p j)
      = Cert.GcnSpec.relR (fun n k => x0 (ix2 n k)) (fun n => val_main_v17 (F := Ideal) x1 (ix1 n)) (fun n => val_main_v44 (F := Ideal) x2 (ix1 n)) (fun k j => x3 (ix4 0 1 k j)) (fun e => LeadingAxis.clampRow 50000 (by decide) (val_main_v96 (F := Ideal) x1 (ix1 e))) (fun e => (val_main_v100 (F := Ideal) x2 (ix1 e)).toInt) p j := by
  have key : val_main_v106 (F := Ideal) x0 x1 x2 x3 (ix2 p j)
      = Cert.GcnSpec.relR (fun n k => x0 (ix2 n k)) (fun n => val_main_v17 (F := Ideal) x1 (ix1 n)) (fun n => val_main_v44 (F := Ideal) x2 (ix1 n)) (fun k j => val_main_v88 (F := Ideal) x3 (ix2 k j)) (fun e => LeadingAxis.clampRow 50000 (by decide) (val_main_v96 (F := Ideal) x1 (ix1 e))) (fun e => (val_main_v100 (F := Ideal) x2 (ix1 e)).toInt) p j :=
    Cert.GcnHost.rel_apply (N := 50000) (C := 128) (E := 800000) (by decide) x0 (val_main_v17 (F := Ideal) x1) (val_main_v44 (F := Ideal) x2)
      (val_main_v88 (F := Ideal) x3) (val_main_v96 (F := Ideal) x1) (val_main_v100 (F := Ideal) x2) _ _ _ _ _ _ p j
  have eW : (fun k j => val_main_v88 (F := Ideal) x3 (ix2 k j)) = fun k j => x3 (ix4 0 1 k j) :=
    funext fun k => funext fun j => slice4_mat_apply x3 0 1 _ _ k j
  rw [key, eW]

/-- Layer 0, relation 2: the relation term at (p, j). -/
theorem term_0_2 (p : Fin 50000) (j : Fin 128) :
    val_main_v135 (F := Ideal) x0 x1 x2 x3 (ix2 p j)
      = Cert.GcnSpec.relR (fun n k => x0 (ix2 n k)) (fun n => val_main_v26 (F := Ideal) x1 (ix1 n)) (fun n => val_main_v53 (F := Ideal) x2 (ix1 n)) (fun k j => x3 (ix4 0 2 k j)) (fun e => LeadingAxis.clampRow 50000 (by decide) (val_main_v125 (F := Ideal) x1 (ix1 e))) (fun e => (val_main_v129 (F := Ideal) x2 (ix1 e)).toInt) p j := by
  have key : val_main_v135 (F := Ideal) x0 x1 x2 x3 (ix2 p j)
      = Cert.GcnSpec.relR (fun n k => x0 (ix2 n k)) (fun n => val_main_v26 (F := Ideal) x1 (ix1 n)) (fun n => val_main_v53 (F := Ideal) x2 (ix1 n)) (fun k j => val_main_v117 (F := Ideal) x3 (ix2 k j)) (fun e => LeadingAxis.clampRow 50000 (by decide) (val_main_v125 (F := Ideal) x1 (ix1 e))) (fun e => (val_main_v129 (F := Ideal) x2 (ix1 e)).toInt) p j :=
    Cert.GcnHost.rel_apply (N := 50000) (C := 128) (E := 800000) (by decide) x0 (val_main_v26 (F := Ideal) x1) (val_main_v53 (F := Ideal) x2)
      (val_main_v117 (F := Ideal) x3) (val_main_v125 (F := Ideal) x1) (val_main_v129 (F := Ideal) x2) _ _ _ _ _ _ p j
  have eW : (fun k j => val_main_v117 (F := Ideal) x3 (ix2 k j)) = fun k j => x3 (ix4 0 2 k j) :=
    funext fun k => funext fun j => slice4_mat_apply x3 0 2 _ _ k j
  rw [key, eW]

/-- Layer 0: the three relation terms and biases at (p, j). -/
theorem hidden_0 (p : Fin 50000) (j : Fin 128) :
    val_main_v141 (F := Ideal) x0 x1 x2 x3 x4 (ix2 p j)
      = Cert.GcnSpec.hidden3 (Cert.GcnSpec.relR (fun n k => x0 (ix2 n k)) (fun n => val_main_v8 (F := Ideal) x1 (ix1 n)) (fun n => val_main_v35 (F := Ideal) x2 (ix1 n)) (fun k j => x3 (ix4 0 0 k j)) (fun e => LeadingAxis.clampRow 50000 (by decide) (val_main_v67 (F := Ideal) x1 (ix1 e))) (fun e => (val_main_v71 (F := Ideal) x2 (ix1 e)).toInt) p j) (Cert.GcnSpec.relR (fun n k => x0 (ix2 n k)) (fun n => val_main_v17 (F := Ideal) x1 (ix1 n)) (fun n => val_main_v44 (F := Ideal) x2 (ix1 n)) (fun k j => x3 (ix4 0 1 k j)) (fun e => LeadingAxis.clampRow 50000 (by decide) (val_main_v96 (F := Ideal) x1 (ix1 e))) (fun e => (val_main_v100 (F := Ideal) x2 (ix1 e)).toInt) p j) (Cert.GcnSpec.relR (fun n k => x0 (ix2 n k)) (fun n => val_main_v26 (F := Ideal) x1 (ix1 n)) (fun n => val_main_v53 (F := Ideal) x2 (ix1 n)) (fun k j => x3 (ix4 0 2 k j)) (fun e => LeadingAxis.clampRow 50000 (by decide) (val_main_v125 (F := Ideal) x1 (ix1 e))) (fun e => (val_main_v129 (F := Ideal) x2 (ix1 e)).toInt) p j) (x4 (ix3 0 0 j)) (x4 (ix3 0 1 j)) (x4 (ix3 0 2 j)) := by
  have key : val_main_v141 (F := Ideal) x0 x1 x2 x3 x4 (ix2 p j)
      = Cert.GcnSpec.hidden3 (val_main_v77 (F := Ideal) x0 x1 x2 x3 (ix2 p j)) (val_main_v106 (F := Ideal) x0 x1 x2 x3 (ix2 p j)) (val_main_v135 (F := Ideal) x0 x1 x2 x3 (ix2 p j))
          (val_main_v80 (F := Ideal) x4 (ix1 j)) (val_main_v109 (F := Ideal) x4 (ix1 j)) (val_main_v138 (F := Ideal) x4 (ix1 j)) :=
    Cert.GcnHost.hidden_apply (N := 50000) (C := 128) (val_main_v77 (F := Ideal) x0 x1 x2 x3) (val_main_v106 (F := Ideal) x0 x1 x2 x3) (val_main_v135 (F := Ideal) x0 x1 x2 x3)
      (val_main_v80 (F := Ideal) x4) (val_main_v109 (F := Ideal) x4) (val_main_v138 (F := Ideal) x4) _ _ _ p j
  have eb0 : val_main_v80 (F := Ideal) x4 (ix1 j) = x4 (ix3 0 0 j) := slice3_vec_apply x4 0 0 _ _ j
  have eb1 : val_main_v109 (F := Ideal) x4 (ix1 j) = x4 (ix3 0 1 j) := slice3_vec_apply x4 0 1 _ _ j
  have eb2 : val_main_v138 (F := Ideal) x4 (ix1 j) = x4 (ix3 0 2 j) := slice3_vec_apply x4 0 2 _ _ j
  rw [key, term_0_0, term_0_1, term_0_2, eb0, eb1, eb2]

/-- Layer 0's output (after the rectifier and the batch normalisation) at (p, q). -/
theorem layer0_apply (p : Fin 50000) (q : Fin 128) :
    val_main_v173 (F := Ideal) x0 x1 x2 x3 x4 x5 x6 x9 x10 x11 x12 (ix2 p q)
      = Cert.GcnSpec.layerR (fun n k => x0 (ix2 n k))
          (fun n => val_main_v8 (F := Ideal) x1 (ix1 n)) (fun n => val_main_v17 (F := Ideal) x1 (ix1 n)) (fun n => val_main_v26 (F := Ideal) x1 (ix1 n))
          (fun n => val_main_v35 (F := Ideal) x2 (ix1 n)) (fun n => val_main_v44 (F := Ideal) x2 (ix1 n)) (fun n => val_main_v53 (F := Ideal) x2 (ix1 n))
          (fun e => LeadingAxis.clampRow 50000 (by decide) (val_main_v67 (F := Ideal) x1 (ix1 e)))
          (fun e => LeadingAxis.clampRow 50000 (by decide) (val_main_v96 (F := Ideal) x1 (ix1 e)))
          (fun e => LeadingAxis.clampRow 50000 (by decide) (val_main_v125 (F := Ideal) x1 (ix1 e)))
          (fun e => (val_main_v71 (F := Ideal) x2 (ix1 e)).toInt) (fun e => (val_main_v100 (F := Ideal) x2 (ix1 e)).toInt) (fun e => (val_main_v129 (F := Ideal) x2 (ix1 e)).toInt)
          (fun j => x4 (ix3 0 0 j)) (fun j => x4 (ix3 0 1 j)) (fun j => x4 (ix3 0 2 j))
          (fun k j => x3 (ix4 0 0 k j)) (fun k j => x3 (ix4 0 1 k j)) (fun k j => x3 (ix4 0 2 k j))
          (fun j q => x5 (ix3 0 j q)) (fun q => x6 (ix2 0 q)) (fun q => x9 (ix2 0 q)) (fun q => x10 (ix2 0 q))
          (fun q => x11 (ix2 0 q)) (fun q => x12 (ix2 0 q)) p q := by
  have k1 : val_main_v173 (F := Ideal) x0 x1 x2 x3 x4 x5 x6 x9 x10 x11 x12 (ix2 p q)
      = Cert.GcnSpec.bnRelu (val_main_v149 (F := Ideal) x0 x1 x2 x3 x4 x5 x6 (ix2 p q)) (val_main_v152 (F := Ideal) x9 (ix1 q)) (val_main_v170 (F := Ideal) x10 (ix1 q)) (val_main_v154 (F := Ideal) x11 (ix1 q)) (val_main_v162 (F := Ideal) x12 (ix1 q)) :=
    Cert.GcnHost.bnRelu_apply (N := 50000) (M := 128) (val_main_v149 (F := Ideal) x0 x1 x2 x3 x4 x5 x6) (val_main_v152 (F := Ideal) x9) (val_main_v170 (F := Ideal) x10) (val_main_v154 (F := Ideal) x11) (val_main_v162 (F := Ideal) x12) _ _ _ _ p q
  have k2 : val_main_v149 (F := Ideal) x0 x1 x2 x3 x4 x5 x6 (ix2 p q)
      = Cert.GcnSpec.dense (fun j => val_main_v141 (F := Ideal) x0 x1 x2 x3 x4 (ix2 p j)) (fun j q => val_main_v143 (F := Ideal) x5 (ix2 j q)) (fun q => val_main_v146 (F := Ideal) x6 (ix1 q)) q :=
    Cert.GcnHost.dense_apply (N := 50000) (C := 128) (M := 128) (val_main_v141 (F := Ideal) x0 x1 x2 x3 x4) (val_main_v143 (F := Ideal) x5) (val_main_v146 (F := Ideal) x6) _ _ p q
  have eH : (fun j => val_main_v141 (F := Ideal) x0 x1 x2 x3 x4 (ix2 p j)) = fun j => Cert.GcnSpec.hidden3 (Cert.GcnSpec.relR (fun n k => x0 (ix2 n k)) (fun n => val_main_v8 (F := Ideal) x1 (ix1 n)) (fun n => val_main_v35 (F := Ideal) x2 (ix1 n)) (fun k j => x3 (ix4 0 0 k j)) (fun e => LeadingAxis.clampRow 50000 (by decide) (val_main_v67 (F := Ideal) x1 (ix1 e))) (fun e => (val_main_v71 (F := Ideal) x2 (ix1 e)).toInt) p j) (Cert.GcnSpec.relR (fun n k => x0 (ix2 n k)) (fun n => val_main_v17 (F := Ideal) x1 (ix1 n)) (fun n => val_main_v44 (F := Ideal) x2 (ix1 n)) (fun k j => x3 (ix4 0 1 k j)) (fun e => LeadingAxis.clampRow 50000 (by decide) (val_main_v96 (F := Ideal) x1 (ix1 e))) (fun e => (val_main_v100 (F := Ideal) x2 (ix1 e)).toInt) p j) (Cert.GcnSpec.relR (fun n k => x0 (ix2 n k)) (fun n => val_main_v26 (F := Ideal) x1 (ix1 n)) (fun n => val_main_v53 (F := Ideal) x2 (ix1 n)) (fun k j => x3 (ix4 0 2 k j)) (fun e => LeadingAxis.clampRow 50000 (by decide) (val_main_v125 (F := Ideal) x1 (ix1 e))) (fun e => (val_main_v129 (F := Ideal) x2 (ix1 e)).toInt) p j) (x4 (ix3 0 0 j)) (x4 (ix3 0 1 j)) (x4 (ix3 0 2 j)) :=
    funext fun j => hidden_0 x0 x1 x2 x3 x4 p j
  have eW : (fun j q => val_main_v143 (F := Ideal) x5 (ix2 j q)) = fun j q => x5 (ix3 0 j q) :=
    funext fun j => funext fun q => slice3_mat_apply x5 0 _ _ j q
  have eb : (fun q => val_main_v146 (F := Ideal) x6 (ix1 q)) = fun q => x6 (ix2 0 q) := funext fun q => slice2_vec_apply x6 0 _ _ q
  have eγ : val_main_v152 (F := Ideal) x9 (ix1 q) = x9 (ix2 0 q) := slice2_vec_apply x9 0 _ _ q
  have eβ : val_main_v170 (F := Ideal) x10 (ix1 q) = x10 (ix2 0 q) := slice2_vec_apply x10 0 _ _ q
  have eμ : val_main_v154 (F := Ideal) x11 (ix1 q) = x11 (ix2 0 q) := slice2_vec_apply x11 0 _ _ q
  have ev : val_main_v162 (F := Ideal) x12 (ix1 q) = x12 (ix2 0 q) := slice2_vec_apply x12 0 _ _ q
  rw [k1, k2, eH, eW, eb, eγ, eβ, eμ, ev]
  rfl

end Cert.ReferenceIdeal.RefValue

end
-- ==== Proof.RefLayer1.lean ====
/-
  Layer 1 of the reference, read at an entry: the three relation terms (messages gathered along the edges and added on the
  destination nodes, scaled by the degree factors), the biases, the dense layer, the rectifier and the batch normalisation.
  The degree factors and the edge indices are kept as the functions the first layer computes them with; a later layer
  computes the same index arrays again from the same arguments, and they are the same functions by definition.
-/
import proofs.«147366_j4853313044733_2_alg».proof.Proof.RefRead
import proofs.«147366_j4853313044733_2_alg».proof.Proof.GcnSpec
import proofs.«147366_j4853313044733_2_alg».proof.Proof.LibLeadingAxis
import proofs.«147366_j4853313044733_2_alg».proof.Proof.RefLayout
import proofs.«147366_j4853313044733_2_alg».proof.Proof.RefHost

noncomputable section

namespace Cert.ReferenceIdeal.RefValue

open Cert.ReferenceIdeal Cert.ReferenceIdeal.ReadP Idealize.ShloMosaic Idealize.ShloMosaic.ValueIdx Cert.GcnLayout

variable (x0 : (⟨S50000x128, .f32⟩ : BufTy).Contents (Elt Ideal)) (x1 x2 : (⟨S3x800000, .i32⟩ : BufTy).Contents (Elt Ideal))
  (x3 : (⟨S3x3x128x128, .f32⟩ : BufTy).Contents (Elt Ideal)) (x4 : (⟨S3x3x128, .f32⟩ : BufTy).Contents (Elt Ideal))
  (x5 : (⟨S2x128x128, .f32⟩ : BufTy).Contents (Elt Ideal)) (x6 : (⟨S2x128, .f32⟩ : BufTy).Contents (Elt Ideal))
  (x7 : (⟨S128x512, .f32⟩ : BufTy).Contents (Elt Ideal)) (x8 : (⟨S512, .f32⟩ : BufTy).Contents (Elt Ideal))
  (x9 x10 x11 x12 : (⟨S2x128, .f32⟩ : BufTy).Contents (Elt Ideal))

/-- Layer 1, relation 0: the relation term at (p, j). -/
theorem term_1_0 (p : Fin 50000) (j : Fin 128) :
    val_main_v197 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 1 0 k j)) (fun e => LeadingAxis.clampRow 50000 (by decide) (val_main_v67 (F := Ideal) x1 (ix1 e))) (fun e => (val_main_v71 (F := Ideal) x2 (ix1 e)).toInt) p j := by
  have key : val_main_v197 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v8 (F := Ideal) x1 (ix1 n)) (fun n => val_main_v35 (F := Ideal) x2 (ix1 n)) (fun k j => val_main_v179 (F := Ideal) x3 (ix2 k j)) (fun e => LeadingAxis.clampRow 50000 (by decide) (val_main_v67 (F := Ideal) x1 (ix1 e))) (fun e => (val_main_v71 (F := Ideal) x2 (ix1 e)).toInt) p j :=
    Cert.GcnHost.rel_apply (N := 50000) (C := 128) (E := 800000) (by decide) (val_main_v173 (F := Ideal) x0 x1 x2 x3 x4 x5 x6 x9 x10 x11 x12) (val_main_v8 (F := Ideal) x1) (val_main_v35 (F := Ideal) x2)
      (val_main_v179 (F := Ideal) x3) (val_main_v67 (F := Ideal) x1) (val_main_v71 (F := Ideal) x2) _ _ _ _ _ _ p j
  have eW : (fun k j => val_main_v179 (F := Ideal) x3 (ix2 k j)) = fun k j => x3 (ix4 1 0 k j) :=
    funext fun k => funext fun j => slice4_mat_apply x3 1 0 _ _ k j
  rw [key, eW]

/-- Layer 1, relation 1: the relation term at (p, j). -/
theorem term_1_1 (p : Fin 50000) (j : Fin 128) :
    val_main_v226 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 1 1 k j)) (fun e => LeadingAxis.clampRow 50000 (by decide) (val_main_v96 (F := Ideal) x1 (ix1 e))) (fun e => (val_main_v100 (F := Ideal) x2 (ix1 e)).toInt) p j := by
  have key : val_main_v226 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v17 (F := Ideal) x1 (ix1 n)) (fun n => val_main_v44 (F := Ideal) x2 (ix1 n)) (fun k j => val_main_v208 (F := Ideal) x3 (ix2 k j)) (fun e => LeadingAxis.clampRow 50000 (by decide) (val_main_v96 (F := Ideal) x1 (ix1 e))) (fun e => (val_main_v100 (F := Ideal) x2 (ix1 e)).toInt) p j :=
    Cert.GcnHost.rel_apply (N := 50000) (C := 128) (E := 800000) (by decide) (val_main_v173 (F := Ideal) x0 x1 x2 x3 x4 x5 x6 x9 x10 x11 x12) (val_main_v17 (F := Ideal) x1) (val_main_v44 (F := Ideal) x2)
      (val_main_v208 (F := Ideal) x3) (val_main_v96 (F := Ideal) x1) (val_main_v100 (F := Ideal) x2) _ _ _ _ _ _ p j
  have eW : (fun k j => val_main_v208 (F := Ideal) x3 (ix2 k j)) = fun k j => x3 (ix4 1 1 k j) :=
    funext fun k => funext fun j => slice4_mat_apply x3 1 1 _ _ k j
  rw [key, eW]

/-- Layer 1, relation 2: the relation term at (p, j). -/
theorem term_1_2 (p : Fin 50000) (j : Fin 128) :
    val_main_v255 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 1 2 k j)) (fun e => LeadingAxis.clampRow 50000 (by decide) (val_main_v125 (F := Ideal) x1 (ix1 e))) (fun e => (val_main_v129 (F := Ideal) x2 (ix1 e)).toInt) p j := by
  have key : val_main_v255 (F := Ideal) x0 x1 x2 x3 x4 x5 x6 x9 x10 x11 x12 (ix2 p j)
      = Cert.GcnSpec.relR (fun n k => val_main_v173 (F := Ideal) x0 x1 x2 x3 x4 x5 x6 x9 x10 x11 x12 (ix2 n k)) (fun n => val_main_v26 (F := Ideal) x1 (ix1 n)) (fun n => val_main_v53 (F := Ideal) x2 (ix1 n)) (fun k j => val_main_v237 (F := Ideal) x3 (ix2 k j)) (fun e => LeadingAxis.clampRow 50000 (by decide) (val_main_v125 (F := Ideal) x1 (ix1 e))) (fun e => (val_main_v129 (F := Ideal) x2 (ix1 e)).toInt) p j :=
    Cert.GcnHost.rel_apply (N := 50000) (C := 128) (E := 800000) (by decide) (val_main_v173 (F := Ideal) x0 x1 x2 x3 x4 x5 x6 x9 x10 x11 x12) (val_main_v26 (F := Ideal) x1) (val_main_v53 (F := Ideal) x2)
      (val_main_v237 (F := Ideal) x3) (val_main_v125 (F := Ideal) x1) (val_main_v129 (F := Ideal) x2) _ _ _ _ _ _ p j
  have eW : (fun k j => val_main_v237 (F := Ideal) x3 (ix2 k j)) = fun k j => x3 (ix4 1 2 k j) :=
    funext fun k => funext fun j => slice4_mat_apply x3 1 2 _ _ k j
  rw [key, eW]

/-- Layer 1: the three relation terms and biases at (p, j). -/
theorem hidden_1 (p : Fin 50000) (j : Fin 128) :
    val_main_v261 (F := Ideal) x0 x1 x2 x3 x4 x5 x6 x9 x10 x11 x12 (ix2 p j)
      = Cert.GcnSpec.hidden3 (Cert.GcnSpec.relR (fun n k => val_main_v173 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 1 0 k j)) (fun e => LeadingAxis.clampRow 50000 (by decide) (val_main_v67 (F := Ideal) x1 (ix1 e))) (fun e => (val_main_v71 (F := Ideal) x2 (ix1 e)).toInt) p j) (Cert.GcnSpec.relR (fun n k => val_main_v173 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 1 1 k j)) (fun e => LeadingAxis.clampRow 50000 (by decide) (val_main_v96 (F := Ideal) x1 (ix1 e))) (fun e => (val_main_v100 (F := Ideal) x2 (ix1 e)).toInt) p j) (Cert.GcnSpec.relR (fun n k => val_main_v173 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 1 2 k j)) (fun e => LeadingAxis.clampRow 50000 (by decide) (val_main_v125 (F := Ideal) x1 (ix1 e))) (fun e => (val_main_v129 (F := Ideal) x2 (ix1 e)).toInt) p j) (x4 (ix3 1 0 j)) (x4 (ix3 1 1 j)) (x4 (ix3 1 2 j)) := by
  have key : val_main_v261 (F := Ideal) x0 x1 x2 x3 x4 x5 x6 x9 x10 x11 x12 (ix2 p j)
      = Cert.GcnSpec.hidden3 (val_main_v197 (F := Ideal) x0 x1 x2 x3 x4 x5 x6 x9 x10 x11 x12 (ix2 p j)) (val_main_v226 (F := Ideal) x0 x1 x2 x3 x4 x5 x6 x9 x10 x11 x12 (ix2 p j)) (val_main_v255 (F := Ideal) x0 x1 x2 x3 x4 x5 x6 x9 x10 x11 x12 (ix2 p j))
          (val_main_v200 (F := Ideal) x4 (ix1 j)) (val_main_v229 (F := Ideal) x4 (ix1 j)) (val_main_v258 (F := Ideal) x4 (ix1 j)) :=
    Cert.GcnHost.hidden_apply (N := 50000) (C := 128) (val_main_v197 (F := Ideal) x0 x1 x2 x3 x4 x5 x6 x9 x10 x11 x12) (val_main_v226 (F := Ideal) x0 x1 x2 x3 x4 x5 x6 x9 x10 x11 x12) (val_main_v255 (F := Ideal) x0 x1 x2 x3 x4 x5 x6 x9 x10 x11 x12)
      (val_main_v200 (F := Ideal) x4) (val_main_v229 (F := Ideal) x4) (val_main_v258 (F := Ideal) x4) _ _ _ p j
  have eb0 : val_main_v200 (F := Ideal) x4 (ix1 j) = x4 (ix3 1 0 j) := slice3_vec_apply x4 1 0 _ _ j
  have eb1 : val_main_v229 (F := Ideal) x4 (ix1 j) = x4 (ix3 1 1 j) := slice3_vec_apply x4 1 1 _ _ j
  have eb2 : val_main_v258 (F := Ideal) x4 (ix1 j) = x4 (ix3 1 2 j) := slice3_vec_apply x4 1 2 _ _ j
  rw [key, term_1_0, term_1_1, term_1_2, eb0, eb1, eb2]

/-- Layer 1's output (after the rectifier and the batch normalisation) at (p, q). -/
theorem layer1_apply (p : Fin 50000) (q : Fin 128) :
    val_main_v293 (F := Ideal) x0 x1 x2 x3 x4 x5 x6 x9 x10 x11 x12 (ix2 p q)
      = Cert.GcnSpec.layerR (fun n k => val_main_v173 (F := Ideal) x0 x1 x2 x3 x4 x5 x6 x9 x10 x11 x12 (ix2 n k))
          (fun n => val_main_v8 (F := Ideal) x1 (ix1 n)) (fun n => val_main_v17 (F := Ideal) x1 (ix1 n)) (fun n => val_main_v26 (F := Ideal) x1 (ix1 n))
          (fun n => val_main_v35 (F := Ideal) x2 (ix1 n)) (fun n => val_main_v44 (F := Ideal) x2 (ix1 n)) (fun n => val_main_v53 (F := Ideal) x2 (ix1 n))
          (fun e => LeadingAxis.clampRow 50000 (by decide) (val_main_v67 (F := Ideal) x1 (ix1 e)))
          (fun e => LeadingAxis.clampRow 50000 (by decide) (val_main_v96 (F := Ideal) x1 (ix1 e)))
          (fun e => LeadingAxis.clampRow 50000 (by decide) (val_main_v125 (F := Ideal) x1 (ix1 e)))
          (fun e => (val_main_v71 (F := Ideal) x2 (ix1 e)).toInt) (fun e => (val_main_v100 (F := Ideal) x2 (ix1 e)).toInt) (fun e => (val_main_v129 (F := Ideal) x2 (ix1 e)).toInt)
          (fun j => x4 (ix3 1 0 j)) (fun j => x4 (ix3 1 1 j)) (fun j => x4 (ix3 1 2 j))
          (fun k j => x3 (ix4 1 0 k j)) (fun k j => x3 (ix4 1 1 k j)) (fun k j => x3 (ix4 1 2 k j))
          (fun j q => x5 (ix3 1 j q)) (fun q => x6 (ix2 1 q)) (fun q => x9 (ix2 1 q)) (fun q => x10 (ix2 1 q))
          (fun q => x11 (ix2 1 q)) (fun q => x12 (ix2 1 q)) p q := by
  have k1 : val_main_v293 (F := Ideal) x0 x1 x2 x3 x4 x5 x6 x9 x10 x11 x12 (ix2 p q)
      = Cert.GcnSpec.bnRelu (val_main_v269 (F := Ideal) x0 x1 x2 x3 x4 x5 x6 x9 x10 x11 x12 (ix2 p q)) (val_main_v272 (F := Ideal) x9 (ix1 q)) (val_main_v290 (F := Ideal) x10 (ix1 q)) (val_main_v274 (F := Ideal) x11 (ix1 q)) (val_main_v282 (F := Ideal) x12 (ix1 q)) :=
    Cert.GcnHost.bnRelu_apply (N := 50000) (M := 128) (val_main_v269 (F := Ideal) x0 x1 x2 x3 x4 x5 x6 x9 x10 x11 x12) (val_main_v272 (F := Ideal) x9) (val_main_v290 (F := Ideal) x10) (val_main_v274 (F := Ideal) x11) (val_main_v282 (F := Ideal) x12) _ _ _ _ p q
  have k2 : val_main_v269 (F := Ideal) x0 x1 x2 x3 x4 x5 x6 x9 x10 x11 x12 (ix2 p q)
      = Cert.GcnSpec.dense (fun j => val_main_v261 (F := Ideal) x0 x1 x2 x3 x4 x5 x6 x9 x10 x11 x12 (ix2 p j)) (fun j q => val_main_v263 (F := Ideal) x5 (ix2 j q)) (fun q => val_main_v266 (F := Ideal) x6 (ix1 q)) q :=
    Cert.GcnHost.dense_apply (N := 50000) (C := 128) (M := 128) (val_main_v261 (F := Ideal) x0 x1 x2 x3 x4 x5 x6 x9 x10 x11 x12) (val_main_v263 (F := Ideal) x5) (val_main_v266 (F := Ideal) x6) _ _ p q
  have eH : (fun j => val_main_v261 (F := Ideal) x0 x1 x2 x3 x4 x5 x6 x9 x10 x11 x12 (ix2 p j)) = fun j => Cert.GcnSpec.hidden3 (Cert.GcnSpec.relR (fun n k => val_main_v173 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 1 0 k j)) (fun e => LeadingAxis.clampRow 50000 (by decide) (val_main_v67 (F := Ideal) x1 (ix1 e))) (fun e => (val_main_v71 (F := Ideal) x2 (ix1 e)).toInt) p j) (Cert.GcnSpec.relR (fun n k => val_main_v173 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 1 1 k j)) (fun e => LeadingAxis.clampRow 50000 (by decide) (val_main_v96 (F := Ideal) x1 (ix1 e))) (fun e => (val_main_v100 (F := Ideal) x2 (ix1 e)).toInt) p j) (Cert.GcnSpec.relR (fun n k => val_main_v173 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 1 2 k j)) (fun e => LeadingAxis.clampRow 50000 (by decide) (val_main_v125 (F := Ideal) x1 (ix1 e))) (fun e => (val_main_v129 (F := Ideal) x2 (ix1 e)).toInt) p j) (x4 (ix3 1 0 j)) (x4 (ix3 1 1 j)) (x4 (ix3 1 2 j)) :=
    funext fun j => hidden_1 x0 x1 x2 x3 x4 x5 x6 x9 x10 x11 x12 p j
  have eW : (fun j q => val_main_v263 (F := Ideal) x5 (ix2 j q)) = fun j q => x5 (ix3 1 j q) :=
    funext fun j => funext fun q => slice3_mat_apply x5 1 _ _ j q
  have eb : (fun q => val_main_v266 (F := Ideal) x6 (ix1 q)) = fun q => x6 (ix2 1 q) := funext fun q => slice2_vec_apply x6 1 _ _ q
  have eγ : val_main_v272 (F := Ideal) x9 (ix1 q) = x9 (ix2 1 q) := slice2_vec_apply x9 1 _ _ q
  have eβ : val_main_v290 (F := Ideal) x10 (ix1 q) = x10 (ix2 1 q) := slice2_vec_apply x10 1 _ _ q
  have eμ : val_main_v274 (F := Ideal) x11 (ix1 q) = x11 (ix2 1 q) := slice2_vec_apply x11 1 _ _ q
  have ev : val_main_v282 (F := Ideal) x12 (ix1 q) = x12 (ix2 1 q) := slice2_vec_apply x12 1 _ _ q
  rw [k1, k2, eH, eW, eb, eγ, eβ, eμ, ev]
  rfl

end Cert.ReferenceIdeal.RefValue

end
-- ==== Proof.RefLayer2.lean ====
/-
  The last layer of the reference, read at an entry: the three relation terms (messages gathered along the edges and added on the
  destination nodes, scaled by the degree factors), the biases, the dense layer.
  The degree factors and the edge indices are kept as the functions the first layer computes them with; a later layer
  computes the same index arrays again from the same arguments, and they are the same functions by definition.
-/
import proofs.«147366_j4853313044733_2_alg».proof.Proof.RefRead
import proofs.«147366_j4853313044733_2_alg».proof.Proof.GcnSpec
import proofs.«147366_j4853313044733_2_alg».proof.Proof.LibLeadingAxis
import proofs.«147366_j4853313044733_2_alg».proof.Proof.RefLayout
import proofs.«147366_j4853313044733_2_alg».proof.Proof.RefHost

noncomputable section

namespace Cert.ReferenceIdeal.RefValue

open Cert.ReferenceIdeal Cert.ReferenceIdeal.ReadP Idealize.ShloMosaic Idealize.ShloMosaic.ValueIdx Cert.GcnLayout

variable (x0 : (⟨S50000x128, .f32⟩ : BufTy).Contents (Elt Ideal)) (x1 x2 : (⟨S3x800000, .i32⟩ : BufTy).Contents (Elt Ideal))
  (x3 : (⟨S3x3x128x128, .f32⟩ : BufTy).Contents (Elt Ideal)) (x4 : (⟨S3x3x128, .f32⟩ : BufTy).Contents (Elt Ideal))
  (x5 : (⟨S2x128x128, .f32⟩ : BufTy).Contents (Elt Ideal)) (x6 : (⟨S2x128, .f32⟩ : BufTy).Contents (Elt Ideal))
  (x7 : (⟨S128x512, .f32⟩ : BufTy).Contents (Elt Ideal)) (x8 : (⟨S512, .f32⟩ : BufTy).Contents (Elt Ideal))
  (x9 x10 x11 x12 : (⟨S2x128, .f32⟩ : BufTy).Contents (Elt Ideal))

/-- Layer 2, relation 0: the relation term at (p, j). -/
theorem term_2_0 (p : Fin 50000) (j : Fin 128) :
    val_main_v317 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 2 0 k j)) (fun e => LeadingAxis.clampRow 50000 (by decide) (val_main_v67 (F := Ideal) x1 (ix1 e))) (fun e => (val_main_v71 (F := Ideal) x2 (ix1 e)).toInt) p j := by
  have key : val_main_v317 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v8 (F := Ideal) x1 (ix1 n)) (fun n => val_main_v35 (F := Ideal) x2 (ix1 n)) (fun k j => val_main_v299 (F := Ideal) x3 (ix2 k j)) (fun e => LeadingAxis.clampRow 50000 (by decide) (val_main_v67 (F := Ideal) x1 (ix1 e))) (fun e => (val_main_v71 (F := Ideal) x2 (ix1 e)).toInt) p j :=
    Cert.GcnHost.rel_apply (N := 50000) (C := 128) (E := 800000) (by decide) (val_main_v293 (F := Ideal) x0 x1 x2 x3 x4 x5 x6 x9 x10 x11 x12) (val_main_v8 (F := Ideal) x1) (val_main_v35 (F := Ideal) x2)
      (val_main_v299 (F := Ideal) x3) (val_main_v67 (F := Ideal) x1) (val_main_v71 (F := Ideal) x2) _ _ _ _ _ _ p j
  have eW : (fun k j => val_main_v299 (F := Ideal) x3 (ix2 k j)) = fun k j => x3 (ix4 2 0 k j) :=
    funext fun k => funext fun j => slice4_mat_apply x3 2 0 _ _ k j
  rw [key, eW]

/-- Layer 2, relation 1: the relation term at (p, j). -/
theorem term_2_1 (p : Fin 50000) (j : Fin 128) :
    val_main_v346 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 2 1 k j)) (fun e => LeadingAxis.clampRow 50000 (by decide) (val_main_v96 (F := Ideal) x1 (ix1 e))) (fun e => (val_main_v100 (F := Ideal) x2 (ix1 e)).toInt) p j := by
  have key : val_main_v346 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v17 (F := Ideal) x1 (ix1 n)) (fun n => val_main_v44 (F := Ideal) x2 (ix1 n)) (fun k j => val_main_v328 (F := Ideal) x3 (ix2 k j)) (fun e => LeadingAxis.clampRow 50000 (by decide) (val_main_v96 (F := Ideal) x1 (ix1 e))) (fun e => (val_main_v100 (F := Ideal) x2 (ix1 e)).toInt) p j :=
    Cert.GcnHost.rel_apply (N := 50000) (C := 128) (E := 800000) (by decide) (val_main_v293 (F := Ideal) x0 x1 x2 x3 x4 x5 x6 x9 x10 x11 x12) (val_main_v17 (F := Ideal) x1) (val_main_v44 (F := Ideal) x2)
      (val_main_v328 (F := Ideal) x3) (val_main_v96 (F := Ideal) x1) (val_main_v100 (F := Ideal) x2) _ _ _ _ _ _ p j
  have eW : (fun k j => val_main_v328 (F := Ideal) x3 (ix2 k j)) = fun k j => x3 (ix4 2 1 k j) :=
    funext fun k => funext fun j => slice4_mat_apply x3 2 1 _ _ k j
  rw [key, eW]

/-- Layer 2, relation 2: the relation term at (p, j). -/
theorem term_2_2 (p : Fin 50000) (j : Fin 128) :
    val_main_v375 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 2 2 k j)) (fun e => LeadingAxis.clampRow 50000 (by decide) (val_main_v125 (F := Ideal) x1 (ix1 e))) (fun e => (val_main_v129 (F := Ideal) x2 (ix1 e)).toInt) p j := by
  have key : val_main_v375 (F := Ideal) x0 x1 x2 x3 x4 x5 x6 x9 x10 x11 x12 (ix2 p j)
      = Cert.GcnSpec.relR (fun n k => val_main_v293 (F := Ideal) x0 x1 x2 x3 x4 x5 x6 x9 x10 x11 x12 (ix2 n k)) (fun n => val_main_v26 (F := Ideal) x1 (ix1 n)) (fun n => val_main_v53 (F := Ideal) x2 (ix1 n)) (fun k j => val_main_v357 (F := Ideal) x3 (ix2 k j)) (fun e => LeadingAxis.clampRow 50000 (by decide) (val_main_v125 (F := Ideal) x1 (ix1 e))) (fun e => (val_main_v129 (F := Ideal) x2 (ix1 e)).toInt) p j :=
    Cert.GcnHost.rel_apply (N := 50000) (C := 128) (E := 800000) (by decide) (val_main_v293 (F := Ideal) x0 x1 x2 x3 x4 x5 x6 x9 x10 x11 x12) (val_main_v26 (F := Ideal) x1) (val_main_v53 (F := Ideal) x2)
      (val_main_v357 (F := Ideal) x3) (val_main_v125 (F := Ideal) x1) (val_main_v129 (F := Ideal) x2) _ _ _ _ _ _ p j
  have eW : (fun k j => val_main_v357 (F := Ideal) x3 (ix2 k j)) = fun k j => x3 (ix4 2 2 k j) :=
    funext fun k => funext fun j => slice4_mat_apply x3 2 2 _ _ k j
  rw [key, eW]

/-- Layer 2: the three relation terms and biases at (p, j). -/
theorem hidden_2 (p : Fin 50000) (j : Fin 128) :
    val_main_v381 (F := Ideal) x0 x1 x2 x3 x4 x5 x6 x9 x10 x11 x12 (ix2 p j)
      = Cert.GcnSpec.hidden3 (Cert.GcnSpec.relR (fun n k => val_main_v293 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 2 0 k j)) (fun e => LeadingAxis.clampRow 50000 (by decide) (val_main_v67 (F := Ideal) x1 (ix1 e))) (fun e => (val_main_v71 (F := Ideal) x2 (ix1 e)).toInt) p j) (Cert.GcnSpec.relR (fun n k => val_main_v293 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 2 1 k j)) (fun e => LeadingAxis.clampRow 50000 (by decide) (val_main_v96 (F := Ideal) x1 (ix1 e))) (fun e => (val_main_v100 (F := Ideal) x2 (ix1 e)).toInt) p j) (Cert.GcnSpec.relR (fun n k => val_main_v293 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 2 2 k j)) (fun e => LeadingAxis.clampRow 50000 (by decide) (val_main_v125 (F := Ideal) x1 (ix1 e))) (fun e => (val_main_v129 (F := Ideal) x2 (ix1 e)).toInt) p j) (x4 (ix3 2 0 j)) (x4 (ix3 2 1 j)) (x4 (ix3 2 2 j)) := by
  have key : val_main_v381 (F := Ideal) x0 x1 x2 x3 x4 x5 x6 x9 x10 x11 x12 (ix2 p j)
      = Cert.GcnSpec.hidden3 (val_main_v317 (F := Ideal) x0 x1 x2 x3 x4 x5 x6 x9 x10 x11 x12 (ix2 p j)) (val_main_v346 (F := Ideal) x0 x1 x2 x3 x4 x5 x6 x9 x10 x11 x12 (ix2 p j)) (val_main_v375 (F := Ideal) x0 x1 x2 x3 x4 x5 x6 x9 x10 x11 x12 (ix2 p j))
          (val_main_v320 (F := Ideal) x4 (ix1 j)) (val_main_v349 (F := Ideal) x4 (ix1 j)) (val_main_v378 (F := Ideal) x4 (ix1 j)) :=
    Cert.GcnHost.hidden_apply (N := 50000) (C := 128) (val_main_v317 (F := Ideal) x0 x1 x2 x3 x4 x5 x6 x9 x10 x11 x12) (val_main_v346 (F := Ideal) x0 x1 x2 x3 x4 x5 x6 x9 x10 x11 x12) (val_main_v375 (F := Ideal) x0 x1 x2 x3 x4 x5 x6 x9 x10 x11 x12)
      (val_main_v320 (F := Ideal) x4) (val_main_v349 (F := Ideal) x4) (val_main_v378 (F := Ideal) x4) _ _ _ p j
  have eb0 : val_main_v320 (F := Ideal) x4 (ix1 j) = x4 (ix3 2 0 j) := slice3_vec_apply x4 2 0 _ _ j
  have eb1 : val_main_v349 (F := Ideal) x4 (ix1 j) = x4 (ix3 2 1 j) := slice3_vec_apply x4 2 1 _ _ j
  have eb2 : val_main_v378 (F := Ideal) x4 (ix1 j) = x4 (ix3 2 2 j) := slice3_vec_apply x4 2 2 _ _ j
  rw [key, term_2_0, term_2_1, term_2_2, eb0, eb1, eb2]

/-- The decoder's result at (p, q): the last layer has no rectifier and no normalisation. -/
theorem last_apply (p : Fin 50000) (q : Fin 512) :
    val_main_v385 (F := Ideal) x0 x1 x2 x3 x4 x5 x6 x7 x8 x9 x10 x11 x12 (ix2 p q)
      = Cert.GcnSpec.lastR (fun n k => val_main_v293 (F := Ideal) x0 x1 x2 x3 x4 x5 x6 x9 x10 x11 x12 (ix2 n k))
          (fun n => val_main_v8 (F := Ideal) x1 (ix1 n)) (fun n => val_main_v17 (F := Ideal) x1 (ix1 n)) (fun n => val_main_v26 (F := Ideal) x1 (ix1 n))
          (fun n => val_main_v35 (F := Ideal) x2 (ix1 n)) (fun n => val_main_v44 (F := Ideal) x2 (ix1 n)) (fun n => val_main_v53 (F := Ideal) x2 (ix1 n))
          (fun e => LeadingAxis.clampRow 50000 (by decide) (val_main_v67 (F := Ideal) x1 (ix1 e)))
          (fun e => LeadingAxis.clampRow 50000 (by decide) (val_main_v96 (F := Ideal) x1 (ix1 e)))
          (fun e => LeadingAxis.clampRow 50000 (by decide) (val_main_v125 (F := Ideal) x1 (ix1 e)))
          (fun e => (val_main_v71 (F := Ideal) x2 (ix1 e)).toInt) (fun e => (val_main_v100 (F := Ideal) x2 (ix1 e)).toInt) (fun e => (val_main_v129 (F := Ideal) x2 (ix1 e)).toInt)
          (fun j => x4 (ix3 2 0 j)) (fun j => x4 (ix3 2 1 j)) (fun j => x4 (ix3 2 2 j))
          (fun k j => x3 (ix4 2 0 k j)) (fun k j => x3 (ix4 2 1 k j)) (fun k j => x3 (ix4 2 2 k j))
          (fun j q => x7 (ix2 j q)) (fun q => x8 (ix1 q)) p q := by
  have k2 : val_main_v385 (F := Ideal) x0 x1 x2 x3 x4 x5 x6 x7 x8 x9 x10 x11 x12 (ix2 p q)
      = Cert.GcnSpec.dense (fun j => val_main_v381 (F := Ideal) x0 x1 x2 x3 x4 x5 x6 x9 x10 x11 x12 (ix2 p j)) (fun j q => x7 (ix2 j q)) (fun q => x8 (ix1 q)) q :=
    Cert.GcnHost.dense_apply (N := 50000) (C := 128) (M := 512) (val_main_v381 (F := Ideal) x0 x1 x2 x3 x4 x5 x6 x9 x10 x11 x12) x7 x8 _ _ p q
  have eH : (fun j => val_main_v381 (F := Ideal) x0 x1 x2 x3 x4 x5 x6 x9 x10 x11 x12 (ix2 p j)) = fun j => Cert.GcnSpec.hidden3 (Cert.GcnSpec.relR (fun n k => val_main_v293 (F := Ideal) x0 x1 x2 x3 x4 x5 x6 x9 x10 x11 x12 (ix2 n k)) (fun n => val_main_v8 (F := Ideal) x1 (ix1 n)) (fun n => val_main_v35 (F := Ideal) x2 (ix1 n)) (fun k j => x3 (ix4 2 0 k j)) (fun e => LeadingAxis.clampRow 50000 (by decide) (val_main_v67 (F := Ideal) x1 (ix1 e))) (fun e => (val_main_v71 (F := Ideal) x2 (ix1 e)).toInt) p j) (Cert.GcnSpec.relR (fun n k => val_main_v293 (F := Ideal) x0 x1 x2 x3 x4 x5 x6 x9 x10 x11 x12 (ix2 n k)) (fun n => val_main_v17 (F := Ideal) x1 (ix1 n)) (fun n => val_main_v44 (F := Ideal) x2 (ix1 n)) (fun k j => x3 (ix4 2 1 k j)) (fun e => LeadingAxis.clampRow 50000 (by decide) (val_main_v96 (F := Ideal) x1 (ix1 e))) (fun e => (val_main_v100 (F := Ideal) x2 (ix1 e)).toInt) p j) (Cert.GcnSpec.relR (fun n k => val_main_v293 (F := Ideal) x0 x1 x2 x3 x4 x5 x6 x9 x10 x11 x12 (ix2 n k)) (fun n => val_main_v26 (F := Ideal) x1 (ix1 n)) (fun n => val_main_v53 (F := Ideal) x2 (ix1 n)) (fun k j => x3 (ix4 2 2 k j)) (fun e => LeadingAxis.clampRow 50000 (by decide) (val_main_v125 (F := Ideal) x1 (ix1 e))) (fun e => (val_main_v129 (F := Ideal) x2 (ix1 e)).toInt) p j) (x4 (ix3 2 0 j)) (x4 (ix3 2 1 j)) (x4 (ix3 2 2 j)) :=
    funext fun j => hidden_2 x0 x1 x2 x3 x4 x5 x6 x9 x10 x11 x12 p j
  rw [k2, eH]
  rfl

end Cert.ReferenceIdeal.RefValue

end
-- ==== Proof.Bridge.lean ====
/-
  The two programs compute the degree factors and the edge-index rows with the same operations on the same arguments:
  the reference's stages are, by definition, the named terms of the kernel program's host side.
-/
import proofs.«147366_j4853313044733_2_alg».proof.Proof.RefRead
import proofs.«147366_j4853313044733_2_alg».proof.Proof.KernelHostTerms

noncomputable section

namespace Cert.Bridge

open Idealize.ShloMosaic Cert.KernelIdeal.HostTerms

variable (x1 x2 : IVec Cert.KernelIdeal.S3x800000 32)

theorem no0 : Cert.ReferenceIdeal.ReadP.val_main_v8 (F := Ideal) x1 = degNorm (idxRow0 x1) := rfl
theorem no1 : Cert.ReferenceIdeal.ReadP.val_main_v17 (F := Ideal) x1 = degNorm (idxRow1 x1) := rfl
theorem no2 : Cert.ReferenceIdeal.ReadP.val_main_v26 (F := Ideal) x1 = degNorm (idxRow2 x1) := rfl
theorem ni0 : Cert.ReferenceIdeal.ReadP.val_main_v35 (F := Ideal) x2 = degNorm (idxRow0 x2) := rfl
theorem ni1 : Cert.ReferenceIdeal.ReadP.val_main_v44 (F := Ideal) x2 = degNorm (idxRow1 x2) := rfl
theorem ni2 : Cert.ReferenceIdeal.ReadP.val_main_v53 (F := Ideal) x2 = degNorm (idxRow2 x2) := rfl
theorem g0 : Cert.ReferenceIdeal.ReadP.val_main_v67 (F := Ideal) x1 = normIdx (idxRow0 x1) := rfl
theorem g1 : Cert.ReferenceIdeal.ReadP.val_main_v96 (F := Ideal) x1 = normIdx (idxRow1 x1) := rfl
theorem g2 : Cert.ReferenceIdeal.ReadP.val_main_v125 (F := Ideal) x1 = normIdx (idxRow2 x1) := rfl
theorem d0 : Cert.ReferenceIdeal.ReadP.val_main_v71 (F := Ideal) x2 = idxRow0 x2 := rfl
theorem d1 : Cert.ReferenceIdeal.ReadP.val_main_v100 (F := Ideal) x2 = idxRow1 x2 := rfl
theorem d2 : Cert.ReferenceIdeal.ReadP.val_main_v129 (F := Ideal) x2 = idxRow2 x2 := rfl

end Cert.Bridge

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.PreFacts.lean ====
/-
  What the precondition says of the arguments, entry by entry: every float entry is a real number and every
  entry of the running variance is nonnegative.

  The printed test is a conjunction, over the float arguments, of "every |x| is below +∞" and, for the
  variance, "every entry is at least 0"; a conjunction of bits is 1 exactly when each bit is 1, and a
  reduction by "and" that ends at 1 had 1 at every entry.
-/
import proofs.«147366_j4853313044733_2_alg».proof.Pre_finite_inputs
import proofs.«147366_j4853313044733_2_alg».proof.Proof.Gen.Pre_finite_inputs
import Idealize.ShloMosaic.Lib.ReduceAll
import Idealize.ShloMosaic.Lib.Affine
import proofs.«147366_j4853313044733_2_alg».proof.Proof.LibFiniteTest
import proofs.«147366_j4853313044733_2_alg».proof.Proof.GcnAlgebra

noncomputable section

namespace Cert.PreFacts

open Cert.Pre_finite_inputs Idealize.ShloMosaic Cert.GcnSpec

instance : Subsingleton S_.Idx := FiniteTest.subsingleton_scalarIdx

theorem facts (x0 : FVec Ideal S50000x128 .f32) (x1 x2 : IVec S3x800000 32) (x3 : FVec Ideal S3x3x128x128 .f32)
    (x4 : FVec Ideal S3x3x128 .f32) (x5 : FVec Ideal S2x128x128 .f32) (x6 : FVec Ideal S2x128 .f32) (x7 : FVec Ideal S128x512 .f32)
    (x8 : FVec Ideal S512 .f32) (x9 x10 x11 x12 : FVec Ideal S2x128 .f32)
    (h : fn (F := Ideal) x0 x1 x2 x3 x4 x5 x6 x7 x8 x9 x10 x11 x12 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) ∧ (∀ i, IsReal (x10 i)) ∧ (∀ i, IsReal (x11 i))
      ∧ (∀ i, IsReal (x12 i)) ∧ (∀ i, (0 : EReal) ≤ x12 i) := by
  have h0 := congrFun h ValueIdx.ix0
  dsimp only [fn, fn_part1, fn_part2, fn_part3] at h0
  obtain ⟨h0, t12⟩ := IntOp.andi_eq_one.mp h0
  obtain ⟨h0, f12⟩ := IntOp.andi_eq_one.mp h0
  obtain ⟨h0, f11⟩ := IntOp.andi_eq_one.mp h0
  obtain ⟨h0, f10⟩ := IntOp.andi_eq_one.mp h0
  obtain ⟨h0, f9⟩ := IntOp.andi_eq_one.mp h0
  obtain ⟨h0, f8⟩ := IntOp.andi_eq_one.mp h0
  obtain ⟨h0, f7⟩ := IntOp.andi_eq_one.mp h0
  obtain ⟨h0, f6⟩ := IntOp.andi_eq_one.mp h0
  obtain ⟨h0, f5⟩ := IntOp.andi_eq_one.mp h0
  obtain ⟨h0, f4⟩ := IntOp.andi_eq_one.mp h0
  obtain ⟨f0, f3⟩ := IntOp.andi_eq_one.mp h0
  refine ⟨fun i => FiniteTest.real_of_test x0 _ i (Host.reduce_andi_all _ _ _ _ _ f0 i),
    fun i => FiniteTest.real_of_test x3 _ i (Host.reduce_andi_all _ _ _ _ _ f3 i),
    fun i => FiniteTest.real_of_test x4 _ i (Host.reduce_andi_all _ _ _ _ _ f4 i),
    fun i => FiniteTest.real_of_test x5 _ i (Host.reduce_andi_all _ _ _ _ _ f5 i),
    fun i => FiniteTest.real_of_test x6 _ i (Host.reduce_andi_all _ _ _ _ _ f6 i),
    fun i => FiniteTest.real_of_test x7 _ i (Host.reduce_andi_all _ _ _ _ _ f7 i),
    fun i => FiniteTest.real_of_test x8 _ i (Host.reduce_andi_all _ _ _ _ _ f8 i),
    fun i => FiniteTest.real_of_test x9 _ i (Host.reduce_andi_all _ _ _ _ _ f9 i),
    fun i => FiniteTest.real_of_test x10 _ i (Host.reduce_andi_all _ _ _ _ _ f10 i),
    fun i => FiniteTest.real_of_test x11 _ i (Host.reduce_andi_all _ _ _ _ _ f11 i),
    fun i => FiniteTest.real_of_test x12 _ i (Host.reduce_andi_all _ _ _ _ _ f12 i),
    fun i => ?_⟩
  have e : Ideal.cmp .oge (x12 i) (Ideal.ofBits .f32 0x00000000#32) = 1#1 := Host.reduce_andi_all _ _ _ _ _ t12 i
  rw [Ideal.ofBits_zero_f32] at e
  by_contra hc
  simp [Ideal.cmp, hc] at e

end Cert.PreFacts

end
-- ==== Proof.ResultEq.lean ====
/-
  The two programs' results are equal, entry by entry, under the precondition.

  The kernel program's result is the last layer, aggregate-first, of layer 1 aggregate-first of layer 0 aggregate-first
  of the launch features; the reference's is the same three layers message-first.  Under the precondition every
  argument entry is real and the variances are nonnegative, every degree factor is real, so every layer's input is
  real and distributivity joins the two forms.
-/
import proofs.«147366_j4853313044733_2_alg».proof.Proof.KernelValue
import proofs.«147366_j4853313044733_2_alg».proof.Proof.KernelNorms
import proofs.«147366_j4853313044733_2_alg».proof.Proof.RefLayer0
import proofs.«147366_j4853313044733_2_alg».proof.Proof.RefLayer1
import proofs.«147366_j4853313044733_2_alg».proof.Proof.RefLayer2
import proofs.«147366_j4853313044733_2_alg».proof.Proof.Bridge
import proofs.«147366_j4853313044733_2_alg».proof.Proof.PreFacts
import proofs.«147366_j4853313044733_2_alg».proof.Proof.GcnAlgebra

set_option maxRecDepth 16384

noncomputable section

namespace Cert.ResultEq

open Cert.KernelIdeal Cert.KernelIdeal.Gen Cert.KernelIdeal.GenP Cert.KernelIdeal.HostTerms Cert.KernelIdeal.KernelValue
  Idealize.ShloMosaic Idealize.ShloMosaic.TcCoe Idealize.SL.Sem Idealize.ShloMosaic.StableHlo Idealize.ShloMosaic.ValueIdx Cert.GcnSpec

variable (m : (ℓ : Loc nD τ sig) → Buf (Elt Ideal) ℓ) (ρ : Dev nD → PrngReg) (c : Dev nD)

theorem result_eq
    (hpre : Cert.Pre_finite_inputs.fn (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) = fun _ => 1#1)
    (p : Fin 50000) (q : Fin 512) :
    W6 m ρ c (Proc.devRef .tc main_v310) (ix2 p q)
      = Cert.ReferenceIdeal.ReadP.val_main_v385 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (ix2 p q) := by
  obtain ⟨r0, r3, r4, r5, r6, r7, r8, r9, r10, r11, r12, nn12⟩ := Cert.PreFacts.facts _ _ _ _ _ _ _ _ _ _ _ _ _ hpre
  have hv : ∀ i, ∃ r : ℝ, (W0 m ρ c (Proc.devRef .tc main_arg12)) i = ((r : ℝ) : EReal) ∧ 0 ≤ r := fun i => by
    obtain ⟨r, hr⟩ := r12 i
    refine ⟨r, hr, ?_⟩
    have h := nn12 i
    rw [hr] at h
    exact_mod_cast h
  -- the kernel program's side
  have e1 : (fun n k => W2 m ρ c (Proc.devRef .tc main_v146) (ix2 n k)) = x1K (fun n k => (W0 m ρ c (Proc.devRef .tc main_arg0)) (ix2 n k)) (fun n => degNorm (idxRow0 (W0 m ρ c (Proc.devRef .tc main_arg1))) (ix1 n)) (fun n => degNorm (idxRow1 (W0 m ρ c (Proc.devRef .tc main_arg1))) (ix1 n)) (fun n => degNorm (idxRow2 (W0 m ρ c (Proc.devRef .tc main_arg1))) (ix1 n))
      (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
      (fun e => LeadingAxis.clampRow 50000 (by decide) (normIdx (idxRow0 (W0 m ρ c (Proc.devRef .tc main_arg1))) (ix1 e))) (fun e => LeadingAxis.clampRow 50000 (by decide) (normIdx (idxRow1 (W0 m ρ c (Proc.devRef .tc main_arg1))) (ix1 e)))
      (fun e => LeadingAxis.clampRow 50000 (by decide) (normIdx (idxRow2 (W0 m ρ c (Proc.devRef .tc main_arg1))) (ix1 e)))
      (fun e => (idxRow0 (W0 m ρ c (Proc.devRef .tc main_arg2)) (ix1 e)).toInt) (fun e => (idxRow1 (W0 m ρ c (Proc.devRef .tc main_arg2)) (ix1 e)).toInt) (fun e => (idxRow2 (W0 m ρ c (Proc.devRef .tc main_arg2)) (ix1 e)).toInt)
      (fun j => (W0 m ρ c (Proc.devRef .tc main_arg4)) (ix3 0 0 j)) (fun j => (W0 m ρ c (Proc.devRef .tc main_arg4)) (ix3 0 1 j)) (fun j => (W0 m ρ c (Proc.devRef .tc main_arg4)) (ix3 0 2 j)) (fun k j => (W0 m ρ c (Proc.devRef .tc main_arg3)) (ix4 0 0 k j)) (fun k j => (W0 m ρ c (Proc.devRef .tc main_arg3)) (ix4 0 1 k j)) (fun k j => (W0 m ρ c (Proc.devRef .tc main_arg3)) (ix4 0 2 k j)) (fun j q => (W0 m ρ c (Proc.devRef .tc main_arg5)) (ix3 0 j q)) (fun q => (W0 m ρ c (Proc.devRef .tc main_arg6)) (ix2 0 q)) (fun q => (W0 m ρ c (Proc.devRef .tc main_arg9)) (ix2 0 q)) (fun q => (W0 m ρ c (Proc.devRef .tc main_arg10)) (ix2 0 q)) (fun q => (W0 m ρ c (Proc.devRef .tc main_arg11)) (ix2 0 q)) (fun q => (W0 m ρ c (Proc.devRef .tc main_arg12)) (ix2 0 q)) :=
    funext fun n => funext fun k => layer0_out m ρ c n k
  have e2 : (fun n k => W4 m ρ c (Proc.devRef .tc main_v236) (ix2 n k)) = fun n k => Cert.GcnSpec.layerK
          (Cert.GcnSpec.aggK (fun n k => W2 m ρ c (Proc.devRef .tc main_v146) (ix2 n k)) (fun n => degNorm (idxRow0 (W0 m ρ c (Proc.devRef .tc main_arg1))) (ix1 n))
            (fun e => LeadingAxis.clampRow 50000 (by decide) (normIdx (idxRow0 (W0 m ρ c (Proc.devRef .tc main_arg1))) (ix1 e))) (fun e => (idxRow0 (W0 m ρ c (Proc.devRef .tc main_arg2)) (ix1 e)).toInt))
          (Cert.GcnSpec.aggK (fun n k => W2 m ρ c (Proc.devRef .tc main_v146) (ix2 n k)) (fun n => degNorm (idxRow1 (W0 m ρ c (Proc.devRef .tc main_arg1))) (ix1 n))
            (fun e => LeadingAxis.clampRow 50000 (by decide) (normIdx (idxRow1 (W0 m ρ c (Proc.devRef .tc main_arg1))) (ix1 e))) (fun e => (idxRow1 (W0 m ρ c (Proc.devRef .tc main_arg2)) (ix1 e)).toInt))
          (Cert.GcnSpec.aggK (fun n k => W2 m ρ c (Proc.devRef .tc main_v146) (ix2 n k)) (fun n => degNorm (idxRow2 (W0 m ρ c (Proc.devRef .tc main_arg1))) (ix1 n))
            (fun e => LeadingAxis.clampRow 50000 (by decide) (normIdx (idxRow2 (W0 m ρ c (Proc.devRef .tc main_arg1))) (ix1 e))) (fun e => (idxRow2 (W0 m ρ c (Proc.devRef .tc main_arg2)) (ix1 e)).toInt))
          (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
          (fun j => (W0 m ρ c (Proc.devRef .tc main_arg4)) (ix3 1 0 j)) (fun j => (W0 m ρ c (Proc.devRef .tc main_arg4)) (ix3 1 1 j)) (fun j => (W0 m ρ c (Proc.devRef .tc main_arg4)) (ix3 1 2 j))
          (fun k j => (W0 m ρ c (Proc.devRef .tc main_arg3)) (ix4 1 0 k j)) (fun k j => (W0 m ρ c (Proc.devRef .tc main_arg3)) (ix4 1 1 k j)) (fun k j => (W0 m ρ c (Proc.devRef .tc main_arg3)) (ix4 1 2 k j))
          (fun j q => (W0 m ρ c (Proc.devRef .tc main_arg5)) (ix3 1 j q)) (fun q => (W0 m ρ c (Proc.devRef .tc main_arg6)) (ix2 1 q)) (fun q => (W0 m ρ c (Proc.devRef .tc main_arg9)) (ix2 1 q)) (fun q => (W0 m ρ c (Proc.devRef .tc main_arg10)) (ix2 1 q))
          (fun q => (W0 m ρ c (Proc.devRef .tc main_arg11)) (ix2 1 q)) (fun q => (W0 m ρ c (Proc.devRef .tc main_arg12)) (ix2 1 q)) n k :=
    funext fun n => funext fun k => layer1_out m ρ c n k
  rw [last_out m ρ c p q, e2, e1]
  -- the reference's side
  have f1 : (fun n k => Cert.ReferenceIdeal.ReadP.val_main_v173 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg9)) (W0 m ρ c (Proc.devRef .tc main_arg10)) (W0 m ρ c (Proc.devRef .tc main_arg11)) (W0 m ρ c (Proc.devRef .tc main_arg12)) (ix2 n k)) = x1R (fun n k => (W0 m ρ c (Proc.devRef .tc main_arg0)) (ix2 n k)) (fun n => degNorm (idxRow0 (W0 m ρ c (Proc.devRef .tc main_arg1))) (ix1 n)) (fun n => degNorm (idxRow1 (W0 m ρ c (Proc.devRef .tc main_arg1))) (ix1 n)) (fun n => degNorm (idxRow2 (W0 m ρ c (Proc.devRef .tc main_arg1))) (ix1 n))
      (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
      (fun e => LeadingAxis.clampRow 50000 (by decide) (normIdx (idxRow0 (W0 m ρ c (Proc.devRef .tc main_arg1))) (ix1 e))) (fun e => LeadingAxis.clampRow 50000 (by decide) (normIdx (idxRow1 (W0 m ρ c (Proc.devRef .tc main_arg1))) (ix1 e)))
      (fun e => LeadingAxis.clampRow 50000 (by decide) (normIdx (idxRow2 (W0 m ρ c (Proc.devRef .tc main_arg1))) (ix1 e)))
      (fun e => (idxRow0 (W0 m ρ c (Proc.devRef .tc main_arg2)) (ix1 e)).toInt) (fun e => (idxRow1 (W0 m ρ c (Proc.devRef .tc main_arg2)) (ix1 e)).toInt) (fun e => (idxRow2 (W0 m ρ c (Proc.devRef .tc main_arg2)) (ix1 e)).toInt)
      (fun j => (W0 m ρ c (Proc.devRef .tc main_arg4)) (ix3 0 0 j)) (fun j => (W0 m ρ c (Proc.devRef .tc main_arg4)) (ix3 0 1 j)) (fun j => (W0 m ρ c (Proc.devRef .tc main_arg4)) (ix3 0 2 j)) (fun k j => (W0 m ρ c (Proc.devRef .tc main_arg3)) (ix4 0 0 k j)) (fun k j => (W0 m ρ c (Proc.devRef .tc main_arg3)) (ix4 0 1 k j)) (fun k j => (W0 m ρ c (Proc.devRef .tc main_arg3)) (ix4 0 2 k j)) (fun j q => (W0 m ρ c (Proc.devRef .tc main_arg5)) (ix3 0 j q)) (fun q => (W0 m ρ c (Proc.devRef .tc main_arg6)) (ix2 0 q)) (fun q => (W0 m ρ c (Proc.devRef .tc main_arg9)) (ix2 0 q)) (fun q => (W0 m ρ c (Proc.devRef .tc main_arg10)) (ix2 0 q)) (fun q => (W0 m ρ c (Proc.devRef .tc main_arg11)) (ix2 0 q)) (fun q => (W0 m ρ c (Proc.devRef .tc main_arg12)) (ix2 0 q)) :=
    funext fun n => funext fun k => by
      rw [Cert.ReferenceIdeal.RefValue.layer0_apply]
      simp only [Cert.Bridge.no0, Cert.Bridge.no1, Cert.Bridge.no2, Cert.Bridge.ni0, Cert.Bridge.ni1, Cert.Bridge.ni2, Cert.Bridge.g0, Cert.Bridge.g1,
        Cert.Bridge.g2, Cert.Bridge.d0, Cert.Bridge.d1, Cert.Bridge.d2]
      rfl
  rw [Cert.ReferenceIdeal.RefValue.last_apply]
  simp only [Cert.ReferenceIdeal.RefValue.layer1_apply]
  rw [f1]
  simp only [Cert.Bridge.no0, Cert.Bridge.no1, Cert.Bridge.no2, Cert.Bridge.ni0, Cert.Bridge.ni1, Cert.Bridge.ni2, Cert.Bridge.g0, Cert.Bridge.g1,
    Cert.Bridge.g2, Cert.Bridge.d0, Cert.Bridge.d1, Cert.Bridge.d2]
  exact net_eq (fun n k => (W0 m ρ c (Proc.devRef .tc main_arg0)) (ix2 n k)) (fun n => degNorm (idxRow0 (W0 m ρ c (Proc.devRef .tc main_arg1))) (ix1 n)) (fun n => degNorm (idxRow1 (W0 m ρ c (Proc.devRef .tc main_arg1))) (ix1 n)) (fun n => degNorm (idxRow2 (W0 m ρ c (Proc.devRef .tc main_arg1))) (ix1 n))
      (fun n => degNorm (idxRow0 (W0 m ρ c (Proc.devRef .tc main_arg2))) (ix1 n)) (fun n => degNorm (idxRow1 (W0 m ρ c (Proc.devRef .tc main_arg2))) (ix1 n)) (fun n => degNorm (idxRow2 (W0 m ρ c (Proc.devRef .tc main_arg2))) (ix1 n))
      (fun e => LeadingAxis.clampRow 50000 (by decide) (normIdx (idxRow0 (W0 m ρ c (Proc.devRef .tc main_arg1))) (ix1 e))) (fun e => LeadingAxis.clampRow 50000 (by decide) (normIdx (idxRow1 (W0 m ρ c (Proc.devRef .tc main_arg1))) (ix1 e)))
      (fun e => LeadingAxis.clampRow 50000 (by decide) (normIdx (idxRow2 (W0 m ρ c (Proc.devRef .tc main_arg1))) (ix1 e)))
      (fun e => (idxRow0 (W0 m ρ c (Proc.devRef .tc main_arg2)) (ix1 e)).toInt) (fun e => (idxRow1 (W0 m ρ c (Proc.devRef .tc main_arg2)) (ix1 e)).toInt) (fun e => (idxRow2 (W0 m ρ c (Proc.devRef .tc main_arg2)) (ix1 e)).toInt)
      (fun j => (W0 m ρ c (Proc.devRef .tc main_arg4)) (ix3 0 0 j)) (fun j => (W0 m ρ c (Proc.devRef .tc main_arg4)) (ix3 0 1 j)) (fun j => (W0 m ρ c (Proc.devRef .tc main_arg4)) (ix3 0 2 j)) (fun j => (W0 m ρ c (Proc.devRef .tc main_arg4)) (ix3 1 0 j)) (fun j => (W0 m ρ c (Proc.devRef .tc main_arg4)) (ix3 1 1 j)) (fun j => (W0 m ρ c (Proc.devRef .tc main_arg4)) (ix3 1 2 j)) (fun j => (W0 m ρ c (Proc.devRef .tc main_arg4)) (ix3 2 0 j)) (fun j => (W0 m ρ c (Proc.devRef .tc main_arg4)) (ix3 2 1 j)) (fun j => (W0 m ρ c (Proc.devRef .tc main_arg4)) (ix3 2 2 j))
      (fun k j => (W0 m ρ c (Proc.devRef .tc main_arg3)) (ix4 0 0 k j)) (fun k j => (W0 m ρ c (Proc.devRef .tc main_arg3)) (ix4 0 1 k j)) (fun k j => (W0 m ρ c (Proc.devRef .tc main_arg3)) (ix4 0 2 k j)) (fun k j => (W0 m ρ c (Proc.devRef .tc main_arg3)) (ix4 1 0 k j)) (fun k j => (W0 m ρ c (Proc.devRef .tc main_arg3)) (ix4 1 1 k j)) (fun k j => (W0 m ρ c (Proc.devRef .tc main_arg3)) (ix4 1 2 k j)) (fun k j => (W0 m ρ c (Proc.devRef .tc main_arg3)) (ix4 2 0 k j)) (fun k j => (W0 m ρ c (Proc.devRef .tc main_arg3)) (ix4 2 1 k j)) (fun k j => (W0 m ρ c (Proc.devRef .tc main_arg3)) (ix4 2 2 k j))
      (fun j q => (W0 m ρ c (Proc.devRef .tc main_arg5)) (ix3 0 j q)) (fun j q => (W0 m ρ c (Proc.devRef .tc main_arg5)) (ix3 1 j q)) (fun q => (W0 m ρ c (Proc.devRef .tc main_arg6)) (ix2 0 q)) (fun q => (W0 m ρ c (Proc.devRef .tc main_arg6)) (ix2 1 q))
      (fun q => (W0 m ρ c (Proc.devRef .tc main_arg9)) (ix2 0 q)) (fun q => (W0 m ρ c (Proc.devRef .tc main_arg9)) (ix2 1 q)) (fun q => (W0 m ρ c (Proc.devRef .tc main_arg10)) (ix2 0 q)) (fun q => (W0 m ρ c (Proc.devRef .tc main_arg10)) (ix2 1 q))
      (fun q => (W0 m ρ c (Proc.devRef .tc main_arg11)) (ix2 0 q)) (fun q => (W0 m ρ c (Proc.devRef .tc main_arg11)) (ix2 1 q)) (fun q => (W0 m ρ c (Proc.devRef .tc main_arg12)) (ix2 0 q)) (fun q => (W0 m ρ c (Proc.devRef .tc main_arg12)) (ix2 1 q))
      (fun j q => (W0 m ρ c (Proc.devRef .tc main_arg7)) (ix2 j q)) (fun q => (W0 m ρ c (Proc.devRef .tc main_arg8)) (ix1 q))
      (fun n k => r0 _) (fun n => degNorm_isReal _ n) (fun n => degNorm_isReal _ n) (fun n => degNorm_isReal _ n)
      (fun n => degNorm_isReal _ n) (fun n => degNorm_isReal _ n) (fun n => degNorm_isReal _ n)
      (fun k j => r3 _) (fun k j => r3 _) (fun k j => r3 _) (fun k j => r3 _) (fun k j => r3 _) (fun k j => r3 _)
      (fun k j => r3 _) (fun k j => r3 _) (fun k j => r3 _)
      (fun j => r4 _) (fun j => r4 _) (fun j => r4 _) (fun j => r4 _) (fun j => r4 _) (fun j => r4 _)
      (fun j q => r5 _) (fun j q => r5 _) (fun q => r6 _) (fun q => r6 _) (fun q => r9 _) (fun q => r9 _) (fun q => r10 _) (fun q => r10 _)
      (fun q => r11 _) (fun q => r11 _) (fun q => hv _) (fun q => hv _) p q

end Cert.ResultEq

end
-- ==== Proof.lean ====
/-
  The certificate of a three-layer relational graph-convolution decoder against its plain reference.

  The kernel program aggregates the source-scaled features along the edges on the host and multiplies by the relation
  weights inside each pallas_call; the reference multiplies every node's features by the weights first and aggregates the
  messages.  Under the precondition (every float input finite, the running variances nonnegative) every layer's input is a
  matrix of real numbers, distributivity joins the two orders of summation, and the two results agree entry by entry on
  the extended reals.  The three frames are the programs' runs with the values dropped; the idealization rewrote nothing.
-/
import proofs.«147366_j4853313044733_2_alg».proof.Defs
import proofs.«147366_j4853313044733_2_alg».proof.Proof.Gen.Kernel
import proofs.«147366_j4853313044733_2_alg».proof.Proof.Gen.KernelIdeal
import proofs.«147366_j4853313044733_2_alg».proof.Proof.Gen.ReferenceIdeal
import proofs.«147366_j4853313044733_2_alg».proof.Proof.Gen.Pre_finite_inputs
import proofs.«147366_j4853313044733_2_alg».proof.Proof.KernelFrame
import proofs.«147366_j4853313044733_2_alg».proof.Proof.KernelIdealFrame
import proofs.«147366_j4853313044733_2_alg».proof.Proof.RefRun
import proofs.«147366_j4853313044733_2_alg».proof.Proof.RefRunMain
import proofs.«147366_j4853313044733_2_alg».proof.Proof.RefRead
import proofs.«147366_j4853313044733_2_alg».proof.Proof.KernelRun
import proofs.«147366_j4853313044733_2_alg».proof.Proof.ResultEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs run, and the reference's result is the kernel program's, entry by entry. -/
theorem algebraic : Cert.algebraic_KernelIdeal_ReferenceIdeal := by
  intro m ρ m' ρ' hpre hagree
  refine ⟨fun c => Cert.KernelIdeal.GenP.W6 m ρ c (Proc.devRef .tc Cert.KernelIdeal.main_v310),
    Cert.KernelIdeal.RunValue.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v385_eq]
  obtain ⟨e0, e1, e2, e3, e4, e5, e6, e7, e8, e9, e10, e11, e12⟩ := hagree c
  rw [e0, e1, e2, e3, e4, e5, e6, e7, e8, e9, e10, e11, e12]
  funext i
  obtain ⟨p, q, rfl⟩ : ∃ (p : Fin 50000) (q : Fin 512), i = ValueIdx.ix2 p q := ⟨i 0, i 1, ValueIdx.eq_ix2 i⟩
  exact (Cert.ResultEq.result_eq m ρ c (hpre c) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
